-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v104_0)) (v1 : (c : Dev Cert.KernelIdeal.nD) → Buf (Elt Ideal) ((c.tc : Thread Cert.KernelIdeal.nD Cert.KernelIdeal.τ).loc Cert.KernelIdeal.main_v104_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104_0) = v0 c
          ∧ r.2.mem ((c.tc : Thread Cert.KernelIdeal.nD Cert.KernelIdeal.τ).loc Cert.KernelIdeal.main_v104_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x22 : Shape := ⟨2, ![100000, 22]⟩
abbrev S2x1600000 : Shape := ⟨2, ![2, 1600000]⟩
abbrev S100000 : Shape := ⟨1, ![100000]⟩
abbrev S22x128 : Shape := ⟨2, ![22, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x22 : S_.BroadcastsInDim S100000x22 (![] : Fin 0 → Fin S100000x22.rank)
  reducesTo_S100000x22_S_d0_1 : S100000x22.ReducesTo [0, 1] S_
  h_S_ : 0 < S_.numel
  bcast_S_S22x128 : S_.BroadcastsInDim S22x128 (![] : Fin 0 → Fin S22x128.rank)
  reducesTo_S22x128_S_d0_1 : S22x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg27 : FVec F S64x1 .f32) (main_arg28 : FVec F S1 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64x1 .f32 := Host.absf main_arg27
  let main_cst_48 : FVec F S_ .f32 := constant S_ .f32 0x7F800000#32
  let main_v125 : FVec F S64x1 .f32 := broadcastInDim S64x1 ![] bcast_S_S64x1 main_cst_48
  let main_v126 : IVec S64x1 1 := cmpf .olt main_v124 main_v125
  let main_c_49 : IVec S_ 1 := constantI S_ 1 1#1
  let main_v127 : IVec S_ 1 := (fun x v => Host.reduce IntOp.andi x v reducesTo_S64x1_S_d0_1 h_S_) main_v126 main_c_49
  let main_v128 : IVec S_ 1 := andi main_v123 main_v127
  let main_v129 : FVec F S1 .f32 := Host.absf main_arg28
  let main_cst_50 : FVec F S_ .f32 := constant S_ .f32 0x7F800000#32
  let main_v130 : FVec F S1 .f32 := broadcastInDim S1 ![] bcast_S_S1 main_cst_50
  let main_v131 : IVec S1 1 := cmpf .olt main_v129 main_v130
  let main_c_51 : IVec S_ 1 := constantI S_ 1 1#1
  let main_v132 : IVec S_ 1 := (fun x v => Host.reduce IntOp.andi x v reducesTo_S1_S_d0 h_S_) main_v131 main_c_51
  let main_v133 : IVec S_ 1 := andi main_v128 main_v132
  main_v133

def fn_part6 {F : FTy → Type} [FloatOps F] (main_arg23 : FVec F S64x1 .f32) (main_arg24 : FVec F S1 .f32) (main_arg25 : FVec F S128x64 .f32) (main_arg26 : FVec F S64 .f32) (main_arg27 : FVec F S64x1 .f32) (main_arg28 : FVec F S1 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x1 .f32 := Host.absf main_arg23
  let main_cst_40 : FVec F S_ .f32 := constant S_ .f32 0x7F800000#32
  let main_v105 : FVec F S64x1 .f32 := broadcastInDim S64x1 ![] bcast_S_S64x1 main_cst_40
  let main_v106 : IVec S64x1 1 := cmpf .olt main_v104 main_v105
  let main_c_41 : IVec S_ 1 := constantI S_ 1 1#1
  let main_v107 : IVec S_ 1 := (fun x v => Host.reduce IntOp.andi x v reducesTo_S64x1_S_d0_1 h_S_) main_v106 main_c_41
  let main_v108 : IVec S_ 1 := andi main_v103 main_v107
  let main_v109 : FVec F S1 .f32 := Host.absf main_arg24
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  let main_v114 : FVec F S128x64 .f32 := Host.absf main_arg25
  let main_cst_44 : FVec F S_ .f32 := constant S_ .f32 0x7F800000#32
  let main_v115 : FVec F S128x64 .f32 := broadcastInDim S128x64 ![] bcast_S_S128x64 main_cst_44
  let main_v116 : IVec S128x64 1 := cmpf .olt main_v114 main_v115
  let main_c_45 : IVec S_ 1 := constantI S_ 1 1#1
  let main_v117 : IVec S_ 1 := (fun x v => Host.reduce IntOp.andi x v reducesTo_S128x64_S_d0_1 h_S_) main_v116 main_c_45
  let main_v118 : IVec S_ 1 := andi main_v113 main_v117
  let main_v119 : FVec F S64 .f32 := Host.absf main_arg26
  fn_part7 (F := F) main_arg27 main_arg28 main_v118 main_v119

def fn_part5 {F : FTy → Type} [FloatOps F] (main_arg20 : FVec F S128 .f32) (main_arg21 : FVec F S128x64 .f32) (main_arg22 : FVec F S64 .f32) (main_arg23 : FVec F S64x1 .f32) (main_arg24 : FVec F S1 .f32) (main_arg25 : FVec F S128x64 .f32) (main_arg26 : FVec F S64 .f32) (main_arg27 : FVec F S64x1 .f32) (main_arg28 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x64 .f32 := Host.absf main_arg21
  let main_cst_36 : FVec F S_ .f32 := constant S_ .f32 0x7F800000#32
  let main_v95 : FVec F S128x64 .f32 := broadcastInDim S128x64 ![] bcast_S_S128x64 main_cst_36
  let main_v96 : IVec S128x64 1 := cmpf .olt main_v94 main_v95
  let main_c_37 : IVec S_ 1 := constantI S_ 1 1#1
  let main_v97 : IVec S_ 1 := (fun x v => Host.reduce IntOp.andi x v reducesTo_S128x64_S_d0_1 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_arg25 main_arg26 main_arg27 main_arg28 main_v98 main_v101 main_c_39

def fn_part4 {F : FTy → Type} [FloatOps F] (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64x1 .f32) (main_arg24 : FVec F S1 .f32) (main_arg25 : FVec F S128x64 .f32) (main_arg26 : FVec F S64 .f32) (main_arg27 : FVec F S64x1 .f32) (main_arg28 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_v83 main_v84 main_cst_32

def fn_part3 {F : FTy → Type} [FloatOps F] (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64x1 .f32) (main_arg24 : FVec F S1 .f32) (main_arg25 : FVec F S128x64 .f32) (main_arg26 : FVec F S64 .f32) (main_arg27 : FVec F S64x1 .f32) (main_arg28 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_arg26 main_arg27 main_arg28 main_v63 main_v67

def fn_part2 {F : FTy → Type} [FloatOps F] (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64x1 .f32) (main_arg24 : FVec F S1 .f32) (main_arg25 : FVec F S128x64 .f32) (main_arg26 : FVec F S64 .f32) (main_arg27 : FVec F S64x1 .f32) (main_arg28 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64x1 .f32) (main_arg24 : FVec F S1 .f32) (main_arg25 : FVec F S128x64 .f32) (main_arg26 : FVec F S64 .f32) (main_arg27 : FVec F S64x1 .f32) (main_arg28 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S100000x22 .f32) (main_arg1 : IVec S2x1600000 32) (main_arg2 : IVec S100000 32) (main_arg3 : FVec F S22x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64x1 .f32) (main_arg24 : FVec F S1 .f32) (main_arg25 : FVec F S128x64 .f32) (main_arg26 : FVec F S64 .f32) (main_arg27 : FVec F S64x1 .f32) (main_arg28 : FVec F S1 .f32) : IVec S_ 1 :=
  let main_v0 : FVec F S100000x22 .f32 := Host.absf main_arg0
  let main_cst : FVec F S_ .f32 := constant S_ .f32 0x7F800000#32
  let main_v1 : FVec F S100000x22 .f32 := broadcastInDim S100000x22 ![] bcast_S_S100000x22 main_cst
  let main_v2 : IVec S100000x22 1 := cmpf .olt main_v0 main_v1
  let main_c : IVec S_ 1 := constantI S_ 1 1#1
  let main_v3 : IVec S_ 1 := (fun x v => Host.reduce IntOp.andi x v reducesTo_S100000x22_S_d0_1 h_S_) main_v2 main_c
  let main_v4 : FVec F S22x128 .f32 := Host.absf main_arg3
  let main_cst_0 : FVec F S_ .f32 := constant S_ .f32 0x7F800000#32
  let main_v5 : FVec F S22x128 .f32 := broadcastInDim S22x128 ![] bcast_S_S22x128 main_cst_0
  let main_v6 : IVec S22x128 1 := cmpf .olt main_v4 main_v5
  let main_c_1 : IVec S_ 1 := constantI S_ 1 1#1
  let main_v7 : IVec S_ 1 := (fun x v => Host.reduce IntOp.andi x v reducesTo_S22x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S100000x22 : Shape := ⟨2, ![100000, 22]⟩
abbrev S2x1600000 : Shape := ⟨2, ![2, 1600000]⟩
abbrev S100000 : Shape := ⟨1, ![100000]⟩
abbrev S22x128 : Shape := ⟨2, ![22, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x22 : Shape := ⟨2, ![5000, 22]⟩
abbrev S5000x128 : Shape := ⟨2, ![5000, 128]⟩
abbrev S1700000x128 : Shape := ⟨2, ![1700000, 128]⟩
abbrev S1x128 : Shape := ⟨2, ![1, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S1x64 : Shape := ⟨2, ![1, 64]⟩
abbrev S1x1 : Shape := ⟨2, ![1, 1]⟩
abbrev S256x64 : Shape := ⟨2, ![256, 64]⟩

abbrev nBuf : Space → Nat
  | .hbm => 158
  | .vmem => 53
  | .smem => 0
  | _ => 0

abbrev hbmTy0_0 (i : Nat) : BufTy := match i % 128 with
  | 0 => ⟨S100000x22, .f32⟩
  | 1 => ⟨S2x1600000, .i32⟩
  | 2 => ⟨S100000, .i32⟩
  | 3 => ⟨S22x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128x64, .f32⟩
  | 22 => ⟨S64, .f32⟩
  | 23 => ⟨S64x1, .f32⟩
  | 24 => ⟨S1, .f32⟩
  | 25 => ⟨S128x64, .f32⟩
  | 26 => ⟨S64, .f32⟩
  | 27 => ⟨S64x1, .f32⟩
  | 28 => ⟨S1, .f32⟩
  | 29 => ⟨S100000, .i32⟩
  | 30 => ⟨S1x1600000, .i32⟩
  | 31 => ⟨S1600000, .i32⟩
  | 32 => ⟨S1700000, .i32⟩
  | 33 => ⟨S1x1600000, .i32⟩
  | 34 => ⟨S1600000, .i32⟩
  | 35 => ⟨S1700000, .i32⟩
  | 36 => ⟨S_, .f32⟩
  | 37 => ⟨S1700000, .f32⟩
  | 38 => ⟨S_, .f32⟩
  | 39 => ⟨S100000, .f32⟩
  | 40 => ⟨S1700000x1, .i32⟩
  | 41 => ⟨S100000, .f32⟩
  | 42 => ⟨S_, .f32⟩
  | 43 => ⟨S100000, .f32⟩
  | 44 => ⟨S100000, .i1⟩
  | 45 => ⟨S100000, .f32⟩
  | 46 => ⟨S_, .f32⟩
  | 47 => ⟨S_, .f32⟩
  | 48 => ⟨S100000, .f32⟩
  | 49 => ⟨S100000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000, .f32⟩
  | 68 => ⟨S1700000, .f32⟩
  | 69 => ⟨S1700000x1, .f32⟩
  | 70 => ⟨S100000x128, .f32⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000x128, .f32⟩
  | 80 => ⟨S1700000x128, .f32⟩
  | 81 => ⟨S1700000x128, .f32⟩
  | 82 => ⟨S_, .f32⟩
  | 83 => ⟨S100000x128, .f32⟩
  | 84 => ⟨S1700000x1, .i32⟩
  | 85 => ⟨S100000x128, .f32⟩
  | 86 => ⟨S1x128, .f32⟩
  | 87 => ⟨S1x128, .f32⟩
  | 88 => ⟨S1x128, .f32⟩
  | 89 => ⟨S1x128, .f32⟩
  | 90 => ⟨S1x128, .f32⟩
  | 91 => ⟨S100000x128, .f32⟩
  | 92 => ⟨S100000x128, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000x128, .f32⟩
  | 102 => ⟨S1700000x128, .f32⟩
  | 103 => ⟨S1700000x128, .f32⟩
  | 104 => ⟨S_, .f32⟩
  | 105 => ⟨S100000x128, .f32⟩
  | 106 => ⟨S1700000x1, .i32⟩
  | 107 => ⟨S100000x128, .f32⟩
  | 108 => ⟨S1x128, .f32⟩
  | 109 => ⟨S1x128, .f32⟩
  | 110 => ⟨S1x128, .f32⟩
  | 111 => ⟨S1x128, .f32⟩
  | 112 => ⟨S1x128, .f32⟩
  | 113 => ⟨S100000x128, .f32⟩
  | 114 => ⟨S100000x128, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x128, .f32⟩
  | 124 => ⟨S1700000x128, .f32⟩
  | 125 => ⟨S1700000x128, .f32⟩
  | 126 => ⟨S_, .f32⟩
  | 127 => ⟨S100000x128, .f32⟩
  | _ => ⟨S100000x22, .f32⟩

abbrev hbmTy0_1 (i : Nat) : BufTy := match i % 128 with
  | 0 => ⟨S1700000x1, .i32⟩
  | 1 => ⟨S100000x128, .f32⟩
  | 2 => ⟨S1x128, .f32⟩
  | 3 => ⟨S1x128, .f32⟩
  | 4 => ⟨S1x128, .f32⟩
  | 5 => ⟨S1x128, .f32⟩
  | 6 => ⟨S1x128, .f32⟩
  | 7 => ⟨S100000x128, .f32⟩
  | 8 => ⟨S_, .f32⟩
  | 9 => ⟨S256x128, .f32⟩
  | 10 => ⟨S100000x1, .i32⟩
  | 11 => ⟨S256x128, .f32⟩
  | 12 => ⟨S_, .f32⟩
  | 13 => ⟨S100000, .f32⟩
  | 14 => ⟨S_, .f32⟩
  | 15 => ⟨S256, .f32⟩
  | 16 => ⟨S100000x1, .i32⟩
  | 17 => ⟨S256, .f32⟩
  | 18 => ⟨S_, .f32⟩
  | 19 => ⟨S256, .f32⟩
  | 20 => ⟨S256, .f32⟩
  | 21 => ⟨S256x1, .f32⟩
  | 22 => ⟨S256x128, .f32⟩
  | 23 => ⟨S256x128, .f32⟩
  | 24 => ⟨S1x64, .f32⟩
  | 25 => ⟨S1x1, .f32⟩
  | 26 => ⟨S1x64, .f32⟩
  | 27 => ⟨S1x1, .f32⟩
  | 28 => ⟨S256x1, .f32⟩
  | 29 => ⟨S256x1, .f32⟩
  | _ => ⟨S100000x22, .f32⟩

abbrev hbmTy (i : Nat) : BufTy := match i / 128 with
  | 0 => hbmTy0_0 i
  | 1 => hbmTy0_1 i
  | _ => ⟨S100000x22, .f32⟩

abbrev bufTy : (tb : Table) → Fin (tcTables nBuf tb) → BufTy
  | .hbm, ⟨i, _⟩ => hbmTy i
  | .local _ .vmem, ⟨0, _⟩ => ⟨S5000x22, .f32⟩
  | .local _ .vmem, ⟨1, _⟩ => ⟨S5000x22, .f32⟩
  | .local _ .vmem, ⟨2, _⟩ => ⟨S22x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S256x128, .f32⟩
  | .local _ .vmem, ⟨43, _⟩ => ⟨S128x64, .f32⟩
  | .local _ .vmem, ⟨44, _⟩ => ⟨S1x64, .f32⟩
  | .local _ .vmem, ⟨45, _⟩ => ⟨S64x1, .f32⟩
  | .local _ .vmem, ⟨46, _⟩ => ⟨S1x1, .f32⟩
  | .local _ .vmem, ⟨47, _⟩ => ⟨S128x64, .f32⟩
  | .local _ .vmem, ⟨48, _⟩ => ⟨S1x64, .f32⟩
  | .local _ .vmem, ⟨49, _⟩ => ⟨S64x1, .f32⟩
  | .local _ .vmem, ⟨50, _⟩ => ⟨S1x1, .f32⟩
  | .local _ .vmem, ⟨51, _⟩ => ⟨S256x1, .f32⟩
  | .local _ .vmem, ⟨52, _⟩ => ⟨S256x1, .f32⟩
  | _, _ => ⟨S100000x22, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_cst_0 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_1 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_2 : Ref sig .tc := ⟨.hbm, 46, rfl⟩
abbrev main_call0_v0 : Ref sig .tc := ⟨.hbm, 47, rfl⟩
abbrev main_call0_v1 : Ref sig .tc := ⟨.hbm, 48, rfl⟩
abbrev main_v14 : Ref sig .tc := ⟨.hbm, 49, rfl⟩
abbrev main_c : Ref sig .tc := ⟨.hbm, 50, rfl⟩
abbrev main_v15 : Ref sig .tc := ⟨.hbm, 51, rfl⟩
abbrev main_v16 : Ref sig .tc := ⟨.hbm, 52, rfl⟩
abbrev main_c_3 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_c_4 : Ref sig .tc := ⟨.hbm, 59, rfl⟩
abbrev main_v22 : Ref sig .tc := ⟨.hbm, 60, rfl⟩
abbrev main_v23 : Ref sig .tc := ⟨.hbm, 61, rfl⟩
abbrev main_c_5 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_c_6 : Ref sig .tc := ⟨.hbm, 71, rfl⟩
abbrev main_v32 : Ref sig .tc := ⟨.hbm, 72, rfl⟩
abbrev main_v33 : Ref sig .tc := ⟨.hbm, 73, rfl⟩
abbrev main_c_7 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_cst_8 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_c_9 : Ref sig .tc := ⟨.hbm, 93, rfl⟩
abbrev main_v51 : Ref sig .tc := ⟨.hbm, 94, rfl⟩
abbrev main_v52 : Ref sig .tc := ⟨.hbm, 95, rfl⟩
abbrev main_c_10 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_cst_11 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_c_12 : Ref sig .tc := ⟨.hbm, 115, rfl⟩
abbrev main_v70 : Ref sig .tc := ⟨.hbm, 116, rfl⟩
abbrev main_v71 : Ref sig .tc := ⟨.hbm, 117, rfl⟩
abbrev main_c_13 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_cst_14 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_15 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_16 : Ref sig .tc := ⟨.hbm, 140, rfl⟩
abbrev main_v91 : Ref sig .tc := ⟨.hbm, 141, rfl⟩
abbrev main_cst_17 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_18 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104_0 : Ref sig .tc := ⟨.hbm, 156, rfl⟩
abbrev main_v104_1 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc6_stg6_0 : Ref sig .tc := ⟨.vmem, 48, rfl⟩
abbrev cc6_stg7_0 : Ref sig .tc := ⟨.vmem, 49, rfl⟩
abbrev cc6_stg8_0 : Ref sig .tc := ⟨.vmem, 50, rfl⟩
abbrev cc6_stg9_0 : Ref sig .tc := ⟨.vmem, 51, rfl⟩
abbrev cc6_stg10_0 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47
abbrev cc6_sem6_0 : DmaSem sig := 48
abbrev cc6_sem7_0 : DmaSem sig := 49
abbrev cc6_sem8_0 : DmaSem sig := 50
abbrev cc6_sem9_0 : DmaSem sig := 51
abbrev cc6_sem10_0 : DmaSem sig := 52

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x22 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S22x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S256x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S64x1 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x1 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S256x1 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S256x1 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x22_S5000x22_0_0 : ∀ a, (![0, 0] : Fin 2 → Nat) a + S5000x22.size a ≤ S5000x22.size a
  h_S5000x22 : 0 < S5000x22.numel
  bitsLt_bf16_f32 : FTy.bits .bf16 < FTy.bits .f32
  inb_S22x128_S22x128_0_0 : ∀ a, (![0, 0] : Fin 2 → Nat) a + S22x128.size a ≤ S22x128.size a
  h_S22x128 : 0 < S22x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  shapeCasts_S64_S1x64 : S64.ShapeCasts S1x64
  shapeCasts_S1_S1x1 : S1.ShapeCasts S1x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x22_S22x128_S5000x128_1_0_0_1_n_n_wf : DotDims.WF S5000x22 S22x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x64_S256x64_1_0_0_1_n_n_wf : DotDims.WF S256x128 S128x64 S256x64 [1] [0] [0] [1] [] []
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x22.size a ≤ S100000x22.size a
  hwx0_0 : ∀ i : grid0.Coords, EltTy.bits .f32 = 32 ∨ (Rect.block (s := S100000x22) S5000x22.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S22x128.size a ≤ S22x128.size a
  hwx0_1 : ∀ i : grid0.Coords, EltTy.bits .f32 = 32 ∨ (Rect.block (s := S22x128) S22x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S256x128.size a ≤ S256x128.size a
  hwx6_0 : ∀ i : grid6.Coords, EltTy.bits .f32 = 32 ∨ (Rect.block (s := S256x128) S256x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x64.size a ≤ S128x64.size a
  hwx6_5 : ∀ i : grid6.Coords, EltTy.bits .f32 = 32 ∨ (Rect.block (s := S128x64) S128x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S64x1.size a ≤ S64x1.size a
  hwx6_7 : ∀ i : grid6.Coords, EltTy.bits .f32 = 32 ∨ (Rect.block (s := S64x1) S64x1.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x1.size a ≤ S1x1.size a
  hwx6_8 : ∀ i : grid6.Coords, EltTy.bits .f32 = 32 ∨ (Rect.block (s := S1x1) S1x1.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S256x1.size a ≤ S256x1.size a
  hwx6_9 : ∀ i : grid6.Coords, EltTy.bits .f32 = 32 ∨ (Rect.block (s := S256x1) S256x1.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S256x1.size a ≤ S256x1.size a
  hwx6_10 : ∀ i : grid6.Coords, EltTy.bits .f32 = 32 ∨ (Rect.block (s := S256x1) S256x1.size (cc6_transform_10 i) (hinb6_10 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x22_S22x128_S5000x128_1_0_0_1_n_n : DotDims S5000x22 S22x128 S5000x128 where
  lhsContracting := [1]
  rhsContracting := [0]
  lhsNonContracting := [0]
  rhsNonContracting := [1]
  lhsBatch := []
  rhsBatch := []
  wf := dot_S5000x22_S22x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg0) S5000x22.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S22x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v68) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v81) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v84) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v86) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v87) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v99) S256x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg21) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v100) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg23) S64x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v101) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg25) S128x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v102) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg27) S64x1.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v103) S1x1.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v104_0) S256x1.size cc6_transform_9 reads6_9 true true 1 stage6_9 sem6_9
    hrank6 hreads6_9 hinb6_9 nbuf6_9 (Memref.isWhole_whole _) hwx6_9 hstage6_9

abbrev win6_10 : Pipeline.Window sig grid6 :=
  Pipeline.Window.ofSpec (Memref.whole main_v104_1) S256x1.size cc6_transform_10 reads6_10 true true 1 stage6_10 sem6_10
    hrank6 hreads6_10 hinb6_10 nbuf6_10 (Memref.isWhole_whole _) hwx6_10 hstage6_10

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

class Facts : Prop extends Facts₀ where

variable [Facts]
-- ==== ReferenceIdeal.lean ====
abbrev S100000x22 : Shape := ⟨2, ![100000, 22]⟩
abbrev S2x1600000 : Shape := ⟨2, ![2, 1600000]⟩
abbrev S100000 : Shape := ⟨1, ![100000]⟩
abbrev S22x128 : Shape := ⟨2, ![22, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S256x64 : Shape := ⟨2, ![256, 64]⟩
abbrev S1x64 : Shape := ⟨2, ![1, 64]⟩
abbrev S1x1 : Shape := ⟨2, ![1, 1]⟩

abbrev nBuf : Space → Nat
  | .hbm => 216
  | .vmem => 0
  | .smem => 0
  | _ => 0

abbrev hbmTy0_0 (i : Nat) : BufTy := match i % 128 with
  | 0 => ⟨S100000x22, .f32⟩
  | 1 => ⟨S2x1600000, .i32⟩
  | 2 => ⟨S100000, .i32⟩
  | 3 => ⟨S22x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128x64, .f32⟩
  | 22 => ⟨S64, .f32⟩
  | 23 => ⟨S64x1, .f32⟩
  | 24 => ⟨S1, .f32⟩
  | 25 => ⟨S128x64, .f32⟩
  | 26 => ⟨S64, .f32⟩
  | 27 => ⟨S64x1, .f32⟩
  | 28 => ⟨S1, .f32⟩
  | 29 => ⟨S100000, .i32⟩
  | 30 => ⟨S1x1600000, .i32⟩
  | 31 => ⟨S1600000, .i32⟩
  | 32 => ⟨S1700000, .i32⟩
  | 33 => ⟨S1x1600000, .i32⟩
  | 34 => ⟨S1600000, .i32⟩
  | 35 => ⟨S1700000, .i32⟩
  | 36 => ⟨S_, .f32⟩
  | 37 => ⟨S1700000, .f32⟩
  | 38 => ⟨S_, .f32⟩
  | 39 => ⟨S100000, .f32⟩
  | 40 => ⟨S1700000x1, .i32⟩
  | 41 => ⟨S100000, .f32⟩
  | 42 => ⟨S_, .f32⟩
  | 43 => ⟨S100000, .f32⟩
  | 44 => ⟨S100000, .i1⟩
  | 45 => ⟨S100000, .f32⟩
  | 46 => ⟨S_, .f32⟩
  | 47 => ⟨S_, .f32⟩
  | 48 => ⟨S100000, .f32⟩
  | 49 => ⟨S100000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000, .f32⟩
  | 68 => ⟨S1700000, .f32⟩
  | 69 => ⟨S1700000x1, .f32⟩
  | 70 => ⟨S100000x128, .f32⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000x128, .f32⟩
  | 80 => ⟨S1700000x128, .f32⟩
  | 81 => ⟨S1700000x128, .f32⟩
  | 82 => ⟨S_, .f32⟩
  | 83 => ⟨S100000x128, .f32⟩
  | 84 => ⟨S1700000x1, .i32⟩
  | 85 => ⟨S100000x128, .f32⟩
  | 86 => ⟨S1x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S128, .f32⟩
  | 94 => ⟨S128, .f32⟩
  | 95 => ⟨S128, .f32⟩
  | 96 => ⟨S128, .f32⟩
  | 97 => ⟨S1x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S100000x128, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x128, .f32⟩
  | 116 => ⟨S1700000x128, .f32⟩
  | 117 => ⟨S1700000x128, .f32⟩
  | 118 => ⟨S_, .f32⟩
  | 119 => ⟨S100000x128, .f32⟩
  | 120 => ⟨S1700000x1, .i32⟩
  | 121 => ⟨S100000x128, .f32⟩
  | 122 => ⟨S1x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x22, .f32⟩

abbrev hbmTy0_1 (i : Nat) : BufTy := match i % 128 with
  | 0 => ⟨S_, .f32⟩
  | 1 => ⟨S128, .f32⟩
  | 2 => ⟨S128, .f32⟩
  | 3 => ⟨S128, .f32⟩
  | 4 => ⟨S128, .f32⟩
  | 5 => ⟨S1x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S100000x128, .f32⟩
  | 15 => ⟨S_, .i32⟩
  | 16 => ⟨S1700000, .i32⟩
  | 17 => ⟨S1700000, .i1⟩
  | 18 => ⟨S_, .i32⟩
  | 19 => ⟨S1700000, .i32⟩
  | 20 => ⟨S1700000, .i32⟩
  | 21 => ⟨S1700000, .i32⟩
  | 22 => ⟨S1700000x1, .i32⟩
  | 23 => ⟨S1700000x128, .f32⟩
  | 24 => ⟨S1700000x128, .f32⟩
  | 25 => ⟨S1700000x128, .f32⟩
  | 26 => ⟨S_, .f32⟩
  | 27 => ⟨S100000x128, .f32⟩
  | 28 => ⟨S1700000x1, .i32⟩
  | 29 => ⟨S100000x128, .f32⟩
  | 30 => ⟨S1x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S128, .f32⟩
  | 38 => ⟨S128, .f32⟩
  | 39 => ⟨S128, .f32⟩
  | 40 => ⟨S128, .f32⟩
  | 41 => ⟨S1x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S100000x128, .f32⟩
  | 49 => ⟨S100000x128, .f32⟩
  | 50 => ⟨S_, .f32⟩
  | 51 => ⟨S256x128, .f32⟩
  | 52 => ⟨S100000x1, .i32⟩
  | 53 => ⟨S256x128, .f32⟩
  | 54 => ⟨S_, .f32⟩
  | 55 => ⟨S100000, .f32⟩
  | 56 => ⟨S_, .f32⟩
  | 57 => ⟨S256, .f32⟩
  | 58 => ⟨S100000x1, .i32⟩
  | 59 => ⟨S256, .f32⟩
  | 60 => ⟨S_, .f32⟩
  | 61 => ⟨S256, .f32⟩
  | 62 => ⟨S256, .f32⟩
  | 63 => ⟨S256x1, .f32⟩
  | 64 => ⟨S256x128, .f32⟩
  | 65 => ⟨S256x128, .f32⟩
  | 66 => ⟨S256x64, .f32⟩
  | 67 => ⟨S1x64, .f32⟩
  | 68 => ⟨S256x64, .f32⟩
  | 69 => ⟨S256x64, .f32⟩
  | 70 => ⟨S_, .f32⟩
  | 71 => ⟨S256x64, .f32⟩
  | 72 => ⟨S256x64, .f32⟩
  | 73 => ⟨S256x1, .f32⟩
  | 74 => ⟨S1x1, .f32⟩
  | 75 => ⟨S256x1, .f32⟩
  | 76 => ⟨S256x1, .f32⟩
  | 77 => ⟨S256x64, .f32⟩
  | 78 => ⟨S1x64, .f32⟩
  | 79 => ⟨S256x64, .f32⟩
  | 80 => ⟨S256x64, .f32⟩
  | 81 => ⟨S_, .f32⟩
  | 82 => ⟨S256x64, .f32⟩
  | 83 => ⟨S256x64, .f32⟩
  | 84 => ⟨S256x1, .f32⟩
  | 85 => ⟨S1x1, .f32⟩
  | 86 => ⟨S256x1, .f32⟩
  | 87 => ⟨S256x1, .f32⟩
  | _ => ⟨S100000x22, .f32⟩

abbrev hbmTy (i : Nat) : BufTy := match i / 128 with
  | 0 => hbmTy0_0 i
  | 1 => hbmTy0_1 i
  | _ => ⟨S100000x22, .f32⟩

abbrev bufTy : (tb : Table) → Fin (tcTables nBuf tb) → BufTy
  | .hbm, ⟨i, _⟩ => hbmTy i
  | _, _ => ⟨S100000x22, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_cst_0 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_1 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_2 : Ref sig .tc := ⟨.hbm, 46, rfl⟩
abbrev main_call0_v0 : Ref sig .tc := ⟨.hbm, 47, rfl⟩
abbrev main_call0_v1 : Ref sig .tc := ⟨.hbm, 48, rfl⟩
abbrev main_v14 : Ref sig .tc := ⟨.hbm, 49, rfl⟩
abbrev main_c : Ref sig .tc := ⟨.hbm, 50, rfl⟩
abbrev main_v15 : Ref sig .tc := ⟨.hbm, 51, rfl⟩
abbrev main_v16 : Ref sig .tc := ⟨.hbm, 52, rfl⟩
abbrev main_c_3 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_c_4 : Ref sig .tc := ⟨.hbm, 59, rfl⟩
abbrev main_v22 : Ref sig .tc := ⟨.hbm, 60, rfl⟩
abbrev main_v23 : Ref sig .tc := ⟨.hbm, 61, rfl⟩
abbrev main_c_5 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_c_6 : Ref sig .tc := ⟨.hbm, 71, rfl⟩
abbrev main_v32 : Ref sig .tc := ⟨.hbm, 72, rfl⟩
abbrev main_v33 : Ref sig .tc := ⟨.hbm, 73, rfl⟩
abbrev main_c_7 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_cst_8 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_9 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_call1_cst : Ref sig .tc := ⟨.hbm, 103, rfl⟩
abbrev main_call1_v0 : Ref sig .tc := ⟨.hbm, 104, rfl⟩
abbrev main_v60 : Ref sig .tc := ⟨.hbm, 105, rfl⟩
abbrev main_v61 : Ref sig .tc := ⟨.hbm, 106, rfl⟩
abbrev main_c_10 : Ref sig .tc := ⟨.hbm, 107, rfl⟩
abbrev main_v62 : Ref sig .tc := ⟨.hbm, 108, rfl⟩
abbrev main_v63 : Ref sig .tc := ⟨.hbm, 109, rfl⟩
abbrev main_c_11 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_12 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_cst_13 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_call2_cst : Ref sig .tc := ⟨.hbm, 139, rfl⟩
abbrev main_call2_v0 : Ref sig .tc := ⟨.hbm, 140, rfl⟩
abbrev main_v90 : Ref sig .tc := ⟨.hbm, 141, rfl⟩
abbrev main_v91 : Ref sig .tc := ⟨.hbm, 142, rfl⟩
abbrev main_c_14 : Ref sig .tc := ⟨.hbm, 143, rfl⟩
abbrev main_v92 : Ref sig .tc := ⟨.hbm, 144, rfl⟩
abbrev main_v93 : Ref sig .tc := ⟨.hbm, 145, rfl⟩
abbrev main_c_15 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_cst_16 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_cst_17 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_call3_cst : Ref sig .tc := ⟨.hbm, 175, rfl⟩
abbrev main_call3_v0 : Ref sig .tc := ⟨.hbm, 176, rfl⟩
abbrev main_v120 : Ref sig .tc := ⟨.hbm, 177, rfl⟩
abbrev main_cst_18 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_cst_19 : Ref sig .tc := ⟨.hbm, 182, rfl⟩
abbrev main_v124 : Ref sig .tc := ⟨.hbm, 183, rfl⟩
abbrev main_cst_20 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_cst_21 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_call4_cst : Ref sig .tc := ⟨.hbm, 198, rfl⟩
abbrev main_call4_v0 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_call5_cst : Ref sig .tc := ⟨.hbm, 209, rfl⟩
abbrev main_call5_v0 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x22_S22x128_S100000x128_1_0_0_1_n_n_wf : DotDims.WF S100000x22 S22x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x64_S256x64_1_0_0_1_n_n_wf : DotDims.WF S256x128 S128x64 S256x64 [1] [0] [0] [1] [] []
  dot_S256x64_S64x1_S256x1_1_0_0_1_n_n_wf : DotDims.WF S256x64 S64x1 S256x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x22_S22x128_S100000x128_1_0_0_1_n_n : DotDims S100000x22 S22x128 S100000x128 where
  lhsContracting := [1]
  rhsContracting := [0]
  lhsNonContracting := [0]
  rhsNonContracting := [1]
  lhsBatch := []
  rhsBatch := []
  wf := dot_S100000x22_S22x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.KernelRun.lean ====
/-
  The idealized kernel program's run, with its two result arrays named.

  The program is fourteen segments: stretches of host operations and seven kernel regions, alternating. Every weakly
  fair execution from a memory with zero counters terminates, without a fault, in a state where each buffer that is not
  scoped to a region holds the last boundary's contents: the fold `W14` of the segments over the launch memory. Read at
  the two result buffers this names what the program returns; read at an argument buffer it is the launch contents,
  since no host operation and no region writes an argument.
-/
import proofs.«129538_j62732292326002_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the first result array at the last boundary's contents of its
    buffer, the second likewise, and every argument array as launched. -/
theorem run_vals : θ_run defs (onTc (τ := τ) (main (F := F))) ⟨m, fun _ => 0, ρ⟩ (fun r => ∀ c : Dev nD,
      r.2.mem ((c.tc : Thread nD τ).loc main_v104_0) = W14 m ρ c (Proc.devRef .tc main_v104_0)
      ∧ r.2.mem ((c.tc : Thread nD τ).loc main_v104_1) = W14 m ρ c (Proc.devRef .tc main_v104_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v104_0 (by decide)),
       h c _ (mem_uc main_v104_1 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c),
       (h c _ (mem_uc main_arg19 (by decide))).trans (W14_main_arg19 m ρ c),
       (h c _ (mem_uc main_arg20 (by decide))).trans (W14_main_arg20 m ρ c),
       (h c _ (mem_uc main_arg21 (by decide))).trans (W14_main_arg21 m ρ c),
       (h c _ (mem_uc main_arg22 (by decide))).trans (W14_main_arg22 m ρ c),
       (h c _ (mem_uc main_arg23 (by decide))).trans (W14_main_arg23 m ρ c),
       (h c _ (mem_uc main_arg24 (by decide))).trans (W14_main_arg24 m ρ c),
       (h c _ (mem_uc main_arg25 (by decide))).trans (W14_main_arg25 m ρ c),
       (h c _ (mem_uc main_arg26 (by decide))).trans (W14_main_arg26 m ρ c),
       (h c _ (mem_uc main_arg27 (by decide))).trans (W14_main_arg27 m ρ c),
       (h c _ (mem_uc main_arg28 (by decide))).trans (W14_main_arg28 m ρ c)⟩)

end Cert.KernelIdeal.KRun

end
-- ==== Proof.LinearRegions.lean ====
import proofs.«129538_j62732292326002_1_alg».proof.Proof.Gen.KernelIdeal.Frame
import Idealize.ShloMosaic.Lib.Pipeline.Value
import Idealize.ShloMosaic.Lib.ValueIdx
import Idealize.ShloMosaic.PureOps.Ideal.Laws

/-!
# The three dense linear regions, as whole-array functions

Each of the regions 0, 2 and 4 walks a grid of 20 points. At point `t` the body takes rows
`5000 t … 5000 t + 4999` of the left array (all its columns) and the whole right array, and stores their
matrix product, accumulated into zero, as rows `5000 t … 5000 t + 4999` of the output. Narrowing to bf16
is the identity on extended reals, so block `t` of the output is block `t` of the plain product
`i ↦ ∑ k, left (i₀, k) * right (k, i₁)`. The 20 blocks tile the 100000 rows, hence the output array after
the region IS that product.
-/

set_option maxRecDepth 16384

noncomputable section

namespace Cert.KernelIdeal.RegionValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (V : (c : Dev nD) → (b : Ref sig .tc) → Buf (Elt Ideal) ((c : Thread nD τ).loc b))

/-- A block's offset vector `![0, 0]` is the zero function. -/
theorem off_zero : (![0, 0] : Fin 2 → Nat) = fun _ => 0 := funext fun a => by fin_cases a <;> rfl

/-! ## Region 0: [100000, 22] times [22, 128] -/

/-- Row of `i`, column `k`: where the product at `i` reads its left operand. -/
abbrev lrow0 (i : S100000x128.Idx) (k : Fin 22) : S100000x22.Idx := fun a => match a with
  | ⟨0, _⟩ => ⟨(i 0).val, (i 0).isLt⟩
  | ⟨1, _⟩ => ⟨k.val, k.isLt⟩
/-- Row `k`, column of `i`: where the product at `i` reads its right operand. -/
abbrev rcol0 (i : S100000x128.Idx) (k : Fin 22) : S22x128.Idx := fun a => match a with
  | ⟨0, _⟩ => ⟨k.val, k.isLt⟩
  | ⟨1, _⟩ => ⟨(i 1).val, (i 1).isLt⟩

/-- The plain product of a [100000, 22] array and a [22, 128] array. -/
abbrev prod0 (a0 : S100000x22.Idx → Elt Ideal .f32) (a1 : S22x128.Idx → Elt Ideal .f32) : S100000x128.Idx → Elt Ideal .f32 :=
  fun i => ∑ k : Fin 22, a0 (lrow0 i k) * a1 (rcol0 i k)

/-- The same two index functions inside one block of 5000 rows. -/
abbrev blrow0 (j : S5000x128.Idx) (k : Fin 22) : S5000x22.Idx := fun a => match a with
  | ⟨0, _⟩ => ⟨(j 0).val, (j 0).isLt⟩
  | ⟨1, _⟩ => ⟨k.val, k.isLt⟩
abbrev brcol0 (j : S5000x128.Idx) (k : Fin 22) : S22x128.Idx := fun a => match a with
  | ⟨0, _⟩ => ⟨k.val, k.isLt⟩
  | ⟨1, _⟩ => ⟨(j 1).val, (j 1).isLt⟩

theorem lhs0_0 (j : S5000x128.Idx) (q : dot_S5000x22_S22x128_S5000x128_1_0_0_1_n_n.contr.Idx) :
    (dot_S5000x22_S22x128_S5000x128_1_0_0_1_n_n.lhsIdx j q 0).val = (j 0).val := by
  unfold DotDims.lhsIdx
  rw [dif_neg (show ¬(0 : Fin S5000x22.rank) ∈ dot_S5000x22_S22x128_S5000x128_1_0_0_1_n_n.lhsBatch by decide), dif_pos (show (0 : Fin S5000x22.rank) ∈ dot_S5000x22_S22x128_S5000x128_1_0_0_1_n_n.lhsNonContracting by decide)]
  rfl
theorem lhs0_1 (j : S5000x128.Idx) (q : dot_S5000x22_S22x128_S5000x128_1_0_0_1_n_n.contr.Idx) :
    (dot_S5000x22_S22x128_S5000x128_1_0_0_1_n_n.lhsIdx j q 1).val = (q ⟨0, by decide⟩).val :=
  dot_S5000x22_S22x128_S5000x128_1_0_0_1_n_n.lhsIdx_val_of_single rfl j q
theorem rhs0_0 (j : S5000x128.Idx) (q : dot_S5000x22_S22x128_S5000x128_1_0_0_1_n_n.contr.Idx) :
    (dot_S5000x22_S22x128_S5000x128_1_0_0_1_n_n.rhsIdx j q 0).val = (q ⟨0, by decide⟩).val :=
  dot_S5000x22_S22x128_S5000x128_1_0_0_1_n_n.rhsIdx_val_of_single rfl j q
theorem rhs0_1 (j : S5000x128.Idx) (q : dot_S5000x22_S22x128_S5000x128_1_0_0_1_n_n.contr.Idx) :
    (dot_S5000x22_S22x128_S5000x128_1_0_0_1_n_n.rhsIdx j q 1).val = (j 1).val := by
  unfold DotDims.rhsIdx
  rw [dif_neg (show ¬(1 : Fin S22x128.rank) ∈ dot_S5000x22_S22x128_S5000x128_1_0_0_1_n_n.rhsBatch by decide), dif_pos (show (1 : Fin S22x128.rank) ∈ dot_S5000x22_S22x128_S5000x128_1_0_0_1_n_n.rhsNonContracting by decide)]
  rfl

/-- The body's payload at an index of the block: narrowing is the identity, the accumulator is zero, so what is
    stored at `j` is the sum over the contracted axis of the two loaded blocks' products. -/
theorem pay0_apply (x0 : Vec Ideal S5000x22 .f32) (x1 : Vec Ideal S22x128 .f32) (j : S5000x128.Idx) :
    k0_pay1 (F := Ideal) x0 x1 j = ∑ k : Fin 22, x0 (blrow0 j k) * x1 (brcol0 j k) := by
  unfold k0_pay1
  simp only [matmul]
  rw [Ideal.matmul_constant_zero_apply, ← Equiv.sum_comp (ValueIdx.contrEquiv1 dot_S5000x22_S22x128_S5000x128_1_0_0_1_n_n 22 rfl rfl).symm]
  refine Finset.sum_congr rfl fun k _ => ?_
  have hk := ValueIdx.contrEquiv1_symm_val dot_S5000x22_S22x128_S5000x128_1_0_0_1_n_n 22 rfl rfl k
  have el : dot_S5000x22_S22x128_S5000x128_1_0_0_1_n_n.lhsIdx j ((ValueIdx.contrEquiv1 dot_S5000x22_S22x128_S5000x128_1_0_0_1_n_n 22 rfl rfl).symm k) = blrow0 j k := funext fun a => Fin.ext (by
    match a with
    | ⟨0, _⟩ => exact lhs0_0 _ _
    | ⟨1, _⟩ => exact (lhs0_1 _ _).trans hk)
  have er : dot_S5000x22_S22x128_S5000x128_1_0_0_1_n_n.rhsIdx j ((ValueIdx.contrEquiv1 dot_S5000x22_S22x128_S5000x128_1_0_0_1_n_n 22 rfl rfl).symm k) = brcol0 j k := funext fun a => Fin.ext (by
    match a with
    | ⟨0, _⟩ => exact (rhs0_0 _ _).trans hk
    | ⟨1, _⟩ => exact rhs0_1 _ _)
  show x0 _ * x1 _ = _
  rw [el, er]

theorem prod0_apply (a0 : S100000x22.Idx → Elt Ideal .f32) (a1 : S22x128.Idx → Elt Ideal .f32) (i : S100000x128.Idx) :
    prod0 a0 a1 i = ∑ k : Fin 22, a0 (lrow0 i k) * a1 (rcol0 i k) := rfl

/-- The printed index maps over the grid: the left window moves with the output's rows and takes all columns,
    the right window stays put, and the output's block at point `t` is a block of rows. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every block of rows is some point's. -/
theorem idx_onto0 : ∀ q0 : Fin 20, ∃ t : Fin cfg0.N, win0_2.index t = ![q0.val, 0] :=
  (by decide +kernel : ∀ q0 : Fin 20, ∃ t : Fin grid0.N, win0_2.index t = ![q0.val, 0])

/-- The body's payload of the two windows' blocks at point `t`, at an index `j` of the block, is the plain product
    of the two whole arrays at the index of the array that `j` is in the output's block. -/
theorem block0_eq (t : Fin cfg0.N) (a0 : S100000x22.Idx → Elt Ideal .f32) (a1 : S22x128.Idx → Elt Ideal .f32) (j : S5000x128.Idx) :
    k0_pay1 (F := Ideal) (((cfg0.win 0).blk t).view.read (Elt Ideal) a0) (((cfg0.win 1).blk t).view.read (Elt Ideal) a1) j
      = prod0 a0 a1 (((cfg0.win 2).blk t).view.emb j) := by
  obtain ⟨e0, e1, e2, e3, e4, e5⟩ := idx_facts0 t
  rw [pay0_apply, prod0_apply]
  refine Finset.sum_congr rfl fun k _ => ?_
  show a0 (((cfg0.win 0).blk t).view.emb (blrow0 j k)) * a1 (((cfg0.win 1).blk t).view.emb (brcol0 j k)) = _
  have h0 : ((cfg0.win 0).blk t).view.emb (blrow0 j k) = lrow0 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 22 + 1 * k.val = k.val; omega
  have h1 : ((cfg0.win 1).blk t).view.emb (brcol0 j k) = rcol0 (((cfg0.win 2).blk t).view.emb j) k := by
    funext a; apply Fin.ext
    match a with
    | ⟨0, _⟩ => show win0_1.index t (0 : Fin 2) * 22 + 1 * k.val = k.val; omega
    | ⟨1, _⟩ => show win0_1.index t (1 : Fin 2) * 128 + 1 * (j 1).val = win0_2.index t (1 : Fin 2) * 128 + 1 * (j 1).val; omega
  rw [h0, h1]

/-- What point `t` writes back is block `t` of the plain product of the two arrays as the region finds them. -/
theorem flushed0_eq (c : Dev nD) (t : Fin cfg0.N) :
    (dat0 (F := Ideal) V c).flushed 2 t
      = ((cfg0.win 2).blk t).view.read (Elt Ideal) (prod0 (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero off_zero]
  simp only [View.ld_unit_zero (S := S5000x22) off_zero, View.ld_unit_zero (S := S22x128) off_zero]
  funext j
  exact block0_eq t (V c (Pipeline.arrRef spec0 0)) (V c (Pipeline.arrRef spec0 1)) j

/-- An index of the output is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- The 20 blocks of 5000 rows tile the 100000 rows: row `r` is in block `r / 5000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- REGION 0's VALUE: the output array after the region is the plain product of the two input arrays,
    `i ↦ ∑ k : Fin 22, left (lrow0 i k) * right (rcol0 i k)`. -/
theorem linear0 (c : Dev nD) :
    (dat0 (F := Ideal) V c).arrAt 2 cfg0.N = prod0 (V c (Pipeline.arrRef spec0 0)) (V c (Pipeline.arrRef spec0 1)) :=
  (dat0 (F := Ideal) V c).arrAt_eq_of_cover 2 (prod0 (V c (Pipeline.arrRef spec0 0)) (V c (Pipeline.arrRef spec0 1)))
    (fun t _ => flushed0_eq V c t) cover0

/-! ## Regions 2 and 4: [100000, 128] times [128, 128] -/

/-- Row of `i`, column `k`: where the product at `i` reads its left operand. -/
abbrev lrow128 (i : S100000x128.Idx) (k : Fin 128) : S100000x128.Idx := fun a => match a with
  | ⟨0, _⟩ => ⟨(i 0).val, (i 0).isLt⟩
  | ⟨1, _⟩ => ⟨k.val, k.isLt⟩
/-- Row `k`, column of `i`: where the product at `i` reads its right operand. -/
abbrev rcol128 (i : S100000x128.Idx) (k : Fin 128) : S128x128.Idx := fun a => match a with
  | ⟨0, _⟩ => ⟨k.val, k.isLt⟩
  | ⟨1, _⟩ => ⟨(i 1).val, (i 1).isLt⟩

/-- The plain product of a [100000, 128] array and a [128, 128] array. -/
abbrev prod128 (a0 : S100000x128.Idx → Elt Ideal .f32) (a1 : S128x128.Idx → Elt Ideal .f32) : S100000x128.Idx → Elt Ideal .f32 :=
  fun i => ∑ k : Fin 128, a0 (lrow128 i k) * a1 (rcol128 i k)

theorem prod128_apply (a0 : S100000x128.Idx → Elt Ideal .f32) (a1 : S128x128.Idx → Elt Ideal .f32) (i : S100000x128.Idx) :
    prod128 a0 a1 i = ∑ k : Fin 128, a0 (lrow128 i k) * a1 (rcol128 i k) := rfl

/-- The same two index functions inside one block of 5000 rows. -/
abbrev blrow128 (j : S5000x128.Idx) (k : Fin 128) : S5000x128.Idx := fun a => match a with
  | ⟨0, _⟩ => ⟨(j 0).val, (j 0).isLt⟩
  | ⟨1, _⟩ => ⟨k.val, k.isLt⟩
abbrev brcol128 (j : S5000x128.Idx) (k : Fin 128) : S128x128.Idx := fun a => match a with
  | ⟨0, _⟩ => ⟨k.val, k.isLt⟩
  | ⟨1, _⟩ => ⟨(j 1).val, (j 1).isLt⟩

theorem lhs128_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs128_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs128_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A matrix product into zero of a [5000, 128] block and a [128, 128] array, both passed through the identity
    narrowing, read at an index of the block: the sum over the contracted axis of the products. -/
theorem matmul128_apply (x0 : Vec Ideal S5000x128 .f32) (x1 : Vec Ideal S128x128 .f32) (j : S5000x128.Idx) :
    matmul dot_S5000x128_S128x128_S5000x128_1_0_0_1_n_n none (truncf (F := Ideal) .bf16 x0 bitsLt_bf16_f32) (truncf (F := Ideal) .bf16 x1 bitsLt_bf16_f32)
        (constant S5000x128 .f32 0x00000000#32) j
      = ∑ k : Fin 128, x0 (blrow128 j k) * x1 (brcol128 j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = blrow128 j k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx j ((ValueIdx.contrEquiv1 dot_S5000x128_S128x128_S5000x128_1_0_0_1_n_n 128 rfl rfl).symm k) = brcol128 j k := funext fun a => Fin.ext (by
    match a with
    | ⟨0, _⟩ => exact (rhs128_0 _ _).trans hk
    | ⟨1, _⟩ => exact rhs128_1 _ _)
  show x0 _ * x1 _ = _
  rw [el, er]

/-! ### Region 2 -/

/-- The body's payload at an index of the block: the shape cast is to the same shape, narrowing is the identity,
    the accumulator is zero, so what is stored at `j` is the sum over the contracted axis of the two loaded
    blocks' products. -/
theorem pay2_apply (x0 : Vec Ideal S5000x128 .f32) (x1 : Vec Ideal S128x128 .f32) (j : S5000x128.Idx) :
    k2_pay1 (F := Ideal) x0 x1 j = ∑ k : Fin 128, x0 (blrow128 j k) * x1 (brcol128 j k) := by
  unfold k2_pay1
  simp only [shapeCast_self]
  exact matmul128_apply x0 x1 j

/-- The printed index maps over the grid: the left window moves with the output's rows and takes all columns,
    the right window stays put, and the output's block at point `t` is a block of rows. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 19 :=
  (by decide +kernel : ∀ t : Fin grid2.N, _)

/-- Every block of rows is some point's. -/
theorem idx_onto2 : ∀ q0 : Fin 20, ∃ t : Fin cfg2.N, win2_2.index t = ![q0.val, 0] :=
  (by decide +kernel : ∀ q0 : Fin 20, ∃ t : Fin grid2.N, win2_2.index t = ![q0.val, 0])

/-- The body's payload of the two windows' blocks at point `t`, at an index `j` of the block, is the plain product
    of the two whole arrays at the index of the array that `j` is in the output's block. -/
theorem block2_eq (t : Fin cfg2.N) (a0 : S100000x128.Idx → Elt Ideal .f32) (a1 : S128x128.Idx → Elt Ideal .f32) (j : S5000x128.Idx) :
    k2_pay1 (F := Ideal) (((cfg2.win 0).blk t).view.read (Elt Ideal) a0) (((cfg2.win 1).blk t).view.read (Elt Ideal) a1) j
      = prod128 a0 a1 (((cfg2.win 2).blk t).view.emb j) := by
  obtain ⟨e0, e1, e2, e3, e4, e5⟩ := idx_facts2 t
  rw [pay2_apply, prod128_apply]
  refine Finset.sum_congr rfl fun k _ => ?_
  show a0 (((cfg2.win 0).blk t).view.emb (blrow128 j k)) * a1 (((cfg2.win 1).blk t).view.emb (brcol128 j k)) = _
  have h0 : ((cfg2.win 0).blk t).view.emb (blrow128 j k) = lrow128 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (brcol128 j k) = rcol128 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [h0, h1]

/-- What point `t` writes back is block `t` of the plain product of the two arrays as the region finds them. -/
theorem flushed2_eq (c : Dev nD) (t : Fin cfg2.N) :
    (dat2 (F := Ideal) V c).flushed 2 t
      = ((cfg2.win 2).blk t).view.read (Elt Ideal) (prod128 (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero off_zero]
  simp only [View.ld_unit_zero (S := S5000x128) off_zero, View.ld_unit_zero (S := S128x128) off_zero]
  funext j
  exact block2_eq t (V c (Pipeline.arrRef spec2 0)) (V c (Pipeline.arrRef spec2 1)) j

/-- An index of the output is in point `t`'s block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v50).slice (win2_2.rect t)).set ↔ _
  rw [View.set_slice_whole, Rect.mem_set_unit]
  exact Iff.rfl

/-- The 20 blocks of 5000 rows tile the 100000 rows: row `r` is in block `r / 5000`. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- REGION 2's VALUE: the output array after the region is the plain product of the two input arrays,
    `i ↦ ∑ k : Fin 128, left (lrow128 i k) * right (rcol128 i k)`. -/
theorem linear2 (c : Dev nD) :
    (dat2 (F := Ideal) V c).arrAt 2 cfg2.N = prod128 (V c (Pipeline.arrRef spec2 0)) (V c (Pipeline.arrRef spec2 1)) :=
  (dat2 (F := Ideal) V c).arrAt_eq_of_cover 2 (prod128 (V c (Pipeline.arrRef spec2 0)) (V c (Pipeline.arrRef spec2 1)))
    (fun t _ => flushed2_eq V c t) cover2

/-! ### Region 4 -/

/-- The body's payload at an index of the block: the shape cast is to the same shape, narrowing is the identity,
    the accumulator is zero, so what is stored at `j` is the sum over the contracted axis of the two loaded
    blocks' products. -/
theorem pay4_apply (x0 : Vec Ideal S5000x128 .f32) (x1 : Vec Ideal S128x128 .f32) (j : S5000x128.Idx) :
    k4_pay1 (F := Ideal) x0 x1 j = ∑ k : Fin 128, x0 (blrow128 j k) * x1 (brcol128 j k) := by
  unfold k4_pay1
  simp only [shapeCast_self]
  exact matmul128_apply x0 x1 j

/-- The printed index maps over the grid: the left window moves with the output's rows and takes all columns,
    the right window stays put, and the output's block at point `t` is a block of rows. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 19 :=
  (by decide +kernel : ∀ t : Fin grid4.N, _)

/-- Every block of rows is some point's. -/
theorem idx_onto4 : ∀ q0 : Fin 20, ∃ t : Fin cfg4.N, win4_2.index t = ![q0.val, 0] :=
  (by decide +kernel : ∀ q0 : Fin 20, ∃ t : Fin grid4.N, win4_2.index t = ![q0.val, 0])

/-- The body's payload of the two windows' blocks at point `t`, at an index `j` of the block, is the plain product
    of the two whole arrays at the index of the array that `j` is in the output's block. -/
theorem block4_eq (t : Fin cfg4.N) (a0 : S100000x128.Idx → Elt Ideal .f32) (a1 : S128x128.Idx → Elt Ideal .f32) (j : S5000x128.Idx) :
    k4_pay1 (F := Ideal) (((cfg4.win 0).blk t).view.read (Elt Ideal) a0) (((cfg4.win 1).blk t).view.read (Elt Ideal) a1) j
      = prod128 a0 a1 (((cfg4.win 2).blk t).view.emb j) := by
  obtain ⟨e0, e1, e2, e3, e4, e5⟩ := idx_facts4 t
  rw [pay4_apply, prod128_apply]
  refine Finset.sum_congr rfl fun k _ => ?_
  show a0 (((cfg4.win 0).blk t).view.emb (blrow128 j k)) * a1 (((cfg4.win 1).blk t).view.emb (brcol128 j k)) = _
  have h0 : ((cfg4.win 0).blk t).view.emb (blrow128 j k) = lrow128 (((cfg4.win 2).blk t).view.emb j) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have h1 : ((cfg4.win 1).blk t).view.emb (brcol128 j k) = rcol128 (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  rw [h0, h1]

/-- What point `t` writes back is block `t` of the plain product of the two arrays as the region finds them. -/
theorem flushed4_eq (c : Dev nD) (t : Fin cfg4.N) :
    (dat4 (F := Ideal) V c).flushed 2 t
      = ((cfg4.win 2).blk t).view.read (Elt Ideal) (prod128 (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero off_zero]
  simp only [View.ld_unit_zero (S := S5000x128) off_zero, View.ld_unit_zero (S := S128x128) off_zero]
  funext j
  exact block4_eq t (V c (Pipeline.arrRef spec4 0)) (V c (Pipeline.arrRef spec4 1)) j

/-- An index of the output is in point `t`'s block iff each coordinate is in the block's range on its axis. -/
theorem mem_blk4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v69).slice (win4_2.rect t)).set ↔ _
  rw [View.set_slice_whole, Rect.mem_set_unit]
  exact Iff.rfl

/-- The 20 blocks of 5000 rows tile the 100000 rows: row `r` is in block `r / 5000`. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := idx_onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- REGION 4's VALUE: the output array after the region is the plain product of the two input arrays,
    `i ↦ ∑ k : Fin 128, left (lrow128 i k) * right (rcol128 i k)`. -/
theorem linear4 (c : Dev nD) :
    (dat4 (F := Ideal) V c).arrAt 2 cfg4.N = prod128 (V c (Pipeline.arrRef spec4 0)) (V c (Pipeline.arrRef spec4 1)) :=
  (dat4 (F := Ideal) V c).arrAt_eq_of_cover 2 (prod128 (V c (Pipeline.arrRef spec4 0)) (V c (Pipeline.arrRef spec4 1)))
    (fun t _ => flushed4_eq V c t) cover4

end Cert.KernelIdeal.RegionValue

end
-- ==== Proof.PassThrough.lean ====
/-
  Buffers that pass through segments of the program untouched.

  The program's memory at each segment boundary is a fold of the segments over the launch memory. A host operation
  changes only the buffer it writes; a kernel region changes only its output arrays. So an argument keeps its launch
  contents up to any boundary, and the three buffers computed once before the first region — every edge's source index,
  its target index, and its weight — keep their contents across the regions and the message-passing stretches that
  read them.
-/
import proofs.«129538_j62732292326002_1_alg».proof.Proof.Gen.KernelIdeal.Frame

set_option maxRecDepth 16384

noncomputable section

namespace Cert.KernelIdeal.Pass

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## Arguments -/

/-- Argument 0 is untouched up to boundary 3: no host operation writes it and no region before that boundary has it as an output. -/
theorem arg0_at3 (c : Dev nD) : W3 m ρ c (Proc.devRef .tc main_arg0) = m ((c.tc : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg0) := StableHlo.after_of_forall_not_mem (b := Proc.devRef .tc main_arg0) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg0) := StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg0) := rfl

/-- Argument 3 is untouched up to boundary 3: no host operation writes it and no region before that boundary has it as an output. -/
theorem arg3_at3 (c : Dev nD) : W3 m ρ c (Proc.devRef .tc main_arg3) = m ((c.tc : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg3) := StableHlo.after_of_forall_not_mem (b := Proc.devRef .tc main_arg3) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg3) := rfl

/-- Argument 4 is untouched up to boundary 4: no host operation writes it and no region before that boundary has it as an output. -/
theorem arg4_at4 (c : Dev nD) : W4 m ρ c (Proc.devRef .tc main_arg4) = m ((c.tc : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg4) := StableHlo.after_of_forall_not_mem (b := Proc.devRef .tc main_arg4) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg4) := rfl

/-- Argument 9 is untouched up to boundary 4: no host operation writes it and no region before that boundary has it as an output. -/
theorem arg9_at4 (c : Dev nD) : W4 m ρ c (Proc.devRef .tc main_arg9) = m ((c.tc : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg9) := StableHlo.after_of_forall_not_mem (b := Proc.devRef .tc main_arg9) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg9) := StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg9) := rfl

/-- Argument 10 is untouched up to boundary 4: no host operation writes it and no region before that boundary has it as an output. -/
theorem arg10_at4 (c : Dev nD) : W4 m ρ c (Proc.devRef .tc main_arg10) = m ((c.tc : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg10) := StableHlo.after_of_forall_not_mem (b := Proc.devRef .tc main_arg10) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg10) := StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg10) := rfl

/-- Argument 11 is untouched up to boundary 4: no host operation writes it and no region before that boundary has it as an output. -/
theorem arg11_at4 (c : Dev nD) : W4 m ρ c (Proc.devRef .tc main_arg11) = m ((c.tc : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg11) := StableHlo.after_of_forall_not_mem (b := Proc.devRef .tc main_arg11) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg11) := StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg11) := rfl

/-- Argument 12 is untouched up to boundary 4: no host operation writes it and no region before that boundary has it as an output. -/
theorem arg12_at4 (c : Dev nD) : W4 m ρ c (Proc.devRef .tc main_arg12) = m ((c.tc : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg12) := StableHlo.after_of_forall_not_mem (b := Proc.devRef .tc main_arg12) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg12) := StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg12) := rfl

/-- Argument 5 is untouched up to boundary 6: no host operation writes it and no region before that boundary has it as an output. -/
theorem arg5_at6 (c : Dev nD) : W6 m ρ c (Proc.devRef .tc main_arg5) = m ((c.tc : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg5) := StableHlo.after_of_forall_not_mem (b := Proc.devRef .tc main_arg5) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg5) := StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg5) := rfl

/-- Argument 6 is untouched up to boundary 7: no host operation writes it and no region before that boundary has it as an output. -/
theorem arg6_at7 (c : Dev nD) : W7 m ρ c (Proc.devRef .tc main_arg6) = m ((c.tc : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg6) := StableHlo.after_of_forall_not_mem (b := Proc.devRef .tc main_arg6) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg6) := StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg6) := rfl

/-- Argument 13 is untouched up to boundary 7: no host operation writes it and no region before that boundary has it as an output. -/
theorem arg13_at7 (c : Dev nD) : W7 m ρ c (Proc.devRef .tc main_arg13) = m ((c.tc : Thread nD τ).loc main_arg13) :=
  calc W7 m ρ c (Proc.devRef .tc main_arg13)
    _ = W6 m ρ c (Proc.devRef .tc main_arg13) := W7_of_ne m ρ c main_arg13 (by decide)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg13) := StableHlo.after_of_forall_not_mem (b := Proc.devRef .tc main_arg13) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg13) := StableHlo.after_of_forall_not_mem (b := Proc.devRef .tc main_arg13) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg13) := rfl

/-- Argument 14 is untouched up to boundary 7: no host operation writes it and no region before that boundary has it as an output. -/
theorem arg14_at7 (c : Dev nD) : W7 m ρ c (Proc.devRef .tc main_arg14) = m ((c.tc : Thread nD τ).loc main_arg14) :=
  calc W7 m ρ c (Proc.devRef .tc main_arg14)
    _ = W6 m ρ c (Proc.devRef .tc main_arg14) := W7_of_ne m ρ c main_arg14 (by decide)
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg14) := StableHlo.after_of_forall_not_mem (b := Proc.devRef .tc main_arg14) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg14) := StableHlo.after_of_forall_not_mem (b := Proc.devRef .tc main_arg14) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg14) := rfl

/-- Argument 15 is untouched up to boundary 7: no host operation writes it and no region before that boundary has it as an output. -/
theorem arg15_at7 (c : Dev nD) : W7 m ρ c (Proc.devRef .tc main_arg15) = m ((c.tc : Thread nD τ).loc main_arg15) :=
  calc W7 m ρ c (Proc.devRef .tc main_arg15)
    _ = W6 m ρ c (Proc.devRef .tc main_arg15) := W7_of_ne m ρ c main_arg15 (by decide)
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg15) := StableHlo.after_of_forall_not_mem (b := Proc.devRef .tc main_arg15) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg15) := StableHlo.after_of_forall_not_mem (b := Proc.devRef .tc main_arg15) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg15) := rfl

/-- Argument 16 is untouched up to boundary 7: no host operation writes it and no region before that boundary has it as an output. -/
theorem arg16_at7 (c : Dev nD) : W7 m ρ c (Proc.devRef .tc main_arg16) = m ((c.tc : Thread nD τ).loc main_arg16) :=
  calc W7 m ρ c (Proc.devRef .tc main_arg16)
    _ = W6 m ρ c (Proc.devRef .tc main_arg16) := W7_of_ne m ρ c main_arg16 (by decide)
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg16) := StableHlo.after_of_forall_not_mem (b := Proc.devRef .tc main_arg16) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg16) := StableHlo.after_of_forall_not_mem (b := Proc.devRef .tc main_arg16) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c.tc : Thread nD τ).loc main_arg16) := rfl

/-- Argument 7 at boundary 9 is its launch contents: nothing between that boundary and the end writes it, and at the end it is as launched. -/
theorem arg7_at9 (c : Dev nD) : W9 m ρ c (Proc.devRef .tc main_arg7) = m ((c.tc : Thread nD τ).loc main_arg7) :=
  ((calc W14 m ρ c (Proc.devRef .tc main_arg7)
    _ = W13 m ρ c (Proc.devRef .tc main_arg7) := W14_of_ne m ρ c main_arg7 (by decide)
    _ = W12 m ρ c (Proc.devRef .tc main_arg7) := StableHlo.after_of_forall_not_mem (b := Proc.devRef .tc main_arg7) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W11 m ρ c (Proc.devRef .tc main_arg7) := W12_of_ne m ρ c main_arg7 (by decide)
    _ = W10 m ρ c (Proc.devRef .tc main_arg7) := StableHlo.after_of_forall_not_mem (b := Proc.devRef .tc main_arg7) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg7) := (W10_arr m ρ c 1).trans (((dat4 (V9 m ρ) c).arrAt_in 1 rfl _).trans (A_eq4 (V9 m ρ) c 1))).symm).trans (W14_main_arg7 m ρ c)

/-- Argument 8 at boundary 10 is its launch contents: nothing between that boundary and the end writes it, and at the end it is as launched. -/
theorem arg8_at10 (c : Dev nD) : W10 m ρ c (Proc.devRef .tc main_arg8) = m ((c.tc : Thread nD τ).loc main_arg8) :=
  ((calc W14 m ρ c (Proc.devRef .tc main_arg8)
    _ = W13 m ρ c (Proc.devRef .tc main_arg8) := W14_of_ne m ρ c main_arg8 (by decide)
    _ = W12 m ρ c (Proc.devRef .tc main_arg8) := StableHlo.after_of_forall_not_mem (b := Proc.devRef .tc main_arg8) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (W14_main_arg8 m ρ c)

/-- Argument 17 at boundary 10 is its launch contents: nothing between that boundary and the end writes it, and at the end it is as launched. -/
theorem arg17_at10 (c : Dev nD) : W10 m ρ c (Proc.devRef .tc main_arg17) = m ((c.tc : Thread nD τ).loc main_arg17) :=
  ((calc W14 m ρ c (Proc.devRef .tc main_arg17)
    _ = W13 m ρ c (Proc.devRef .tc main_arg17) := W14_of_ne m ρ c main_arg17 (by decide)
    _ = W12 m ρ c (Proc.devRef .tc main_arg17) := StableHlo.after_of_forall_not_mem (b := Proc.devRef .tc main_arg17) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W11 m ρ c (Proc.devRef .tc main_arg17) := W12_of_ne m ρ c main_arg17 (by decide)
    _ = W10 m ρ c (Proc.devRef .tc main_arg17) := StableHlo.after_of_forall_not_mem (b := Proc.devRef .tc main_arg17) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (W14_main_arg17 m ρ c)

/-- Argument 18 at boundary 10 is its launch contents: nothing between that boundary and the end writes it, and at the end it is as launched. -/
theorem arg18_at10 (c : Dev nD) : W10 m ρ c (Proc.devRef .tc main_arg18) = m ((c.tc : Thread nD τ).loc main_arg18) :=
  ((calc W14 m ρ c (Proc.devRef .tc main_arg18)
    _ = W13 m ρ c (Proc.devRef .tc main_arg18) := W14_of_ne m ρ c main_arg18 (by decide)
    _ = W12 m ρ c (Proc.devRef .tc main_arg18) := StableHlo.after_of_forall_not_mem (b := Proc.devRef .tc main_arg18) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W11 m ρ c (Proc.devRef .tc main_arg18) := W12_of_ne m ρ c main_arg18 (by decide)
    _ = W10 m ρ c (Proc.devRef .tc main_arg18) := StableHlo.after_of_forall_not_mem (b := Proc.devRef .tc main_arg18) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (W14_main_arg18 m ρ c)

/-- Argument 19 at boundary 10 is its launch contents: nothing between that boundary and the end writes it, and at the end it is as launched. -/
theorem arg19_at10 (c : Dev nD) : W10 m ρ c (Proc.devRef .tc main_arg19) = m ((c.tc : Thread nD τ).loc main_arg19) :=
  ((calc W14 m ρ c (Proc.devRef .tc main_arg19)
    _ = W13 m ρ c (Proc.devRef .tc main_arg19) := W14_of_ne m ρ c main_arg19 (by decide)
    _ = W12 m ρ c (Proc.devRef .tc main_arg19) := StableHlo.after_of_forall_not_mem (b := Proc.devRef .tc main_arg19) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W11 m ρ c (Proc.devRef .tc main_arg19) := W12_of_ne m ρ c main_arg19 (by decide)
    _ = W10 m ρ c (Proc.devRef .tc main_arg19) := StableHlo.after_of_forall_not_mem (b := Proc.devRef .tc main_arg19) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (W14_main_arg19 m ρ c)

/-- Argument 20 at boundary 10 is its launch contents: nothing between that boundary and the end writes it, and at the end it is as launched. -/
theorem arg20_at10 (c : Dev nD) : W10 m ρ c (Proc.devRef .tc main_arg20) = m ((c.tc : Thread nD τ).loc main_arg20) :=
  ((calc W14 m ρ c (Proc.devRef .tc main_arg20)
    _ = W13 m ρ c (Proc.devRef .tc main_arg20) := W14_of_ne m ρ c main_arg20 (by decide)
    _ = W12 m ρ c (Proc.devRef .tc main_arg20) := StableHlo.after_of_forall_not_mem (b := Proc.devRef .tc main_arg20) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W11 m ρ c (Proc.devRef .tc main_arg20) := W12_of_ne m ρ c main_arg20 (by decide)
    _ = W10 m ρ c (Proc.devRef .tc main_arg20) := StableHlo.after_of_forall_not_mem (b := Proc.devRef .tc main_arg20) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (W14_main_arg20 m ρ c)

/-- Argument 2 at boundary 12 is its launch contents: nothing between that boundary and the end writes it, and at the end it is as launched. -/
theorem arg2_at12 (c : Dev nD) : W12 m ρ c (Proc.devRef .tc main_arg2) = m ((c.tc : Thread nD τ).loc main_arg2) :=
  ((calc W14 m ρ c (Proc.devRef .tc main_arg2)
    _ = W13 m ρ c (Proc.devRef .tc main_arg2) := W14_of_ne m ρ c main_arg2 (by decide)
    _ = W12 m ρ c (Proc.devRef .tc main_arg2) := StableHlo.after_of_forall_not_mem (b := Proc.devRef .tc main_arg2) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (W14_main_arg2 m ρ c)

/-- Argument 22 at boundary 12 is its launch contents: nothing between that boundary and the end writes it, and at the end it is as launched. -/
theorem arg22_at12 (c : Dev nD) : W12 m ρ c (Proc.devRef .tc main_arg22) = m ((c.tc : Thread nD τ).loc main_arg22) :=
  ((calc W14 m ρ c (Proc.devRef .tc main_arg22)
    _ = W13 m ρ c (Proc.devRef .tc main_arg22) := W14_of_ne m ρ c main_arg22 (by decide)
    _ = W12 m ρ c (Proc.devRef .tc main_arg22) := StableHlo.after_of_forall_not_mem (b := Proc.devRef .tc main_arg22) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (W14_main_arg22 m ρ c)

/-- Argument 24 at boundary 12 is its launch contents: nothing between that boundary and the end writes it, and at the end it is as launched. -/
theorem arg24_at12 (c : Dev nD) : W12 m ρ c (Proc.devRef .tc main_arg24) = m ((c.tc : Thread nD τ).loc main_arg24) :=
  ((calc W14 m ρ c (Proc.devRef .tc main_arg24)
    _ = W13 m ρ c (Proc.devRef .tc main_arg24) := W14_of_ne m ρ c main_arg24 (by decide)
    _ = W12 m ρ c (Proc.devRef .tc main_arg24) := StableHlo.after_of_forall_not_mem (b := Proc.devRef .tc main_arg24) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (W14_main_arg24 m ρ c)

/-- Argument 26 at boundary 12 is its launch contents: nothing between that boundary and the end writes it, and at the end it is as launched. -/
theorem arg26_at12 (c : Dev nD) : W12 m ρ c (Proc.devRef .tc main_arg26) = m ((c.tc : Thread nD τ).loc main_arg26) :=
  ((calc W14 m ρ c (Proc.devRef .tc main_arg26)
    _ = W13 m ρ c (Proc.devRef .tc main_arg26) := W14_of_ne m ρ c main_arg26 (by decide)
    _ = W12 m ρ c (Proc.devRef .tc main_arg26) := StableHlo.after_of_forall_not_mem (b := Proc.devRef .tc main_arg26) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (W14_main_arg26 m ρ c)

/-- Argument 28 at boundary 12 is its launch contents: nothing between that boundary and the end writes it, and at the end it is as launched. -/
theorem arg28_at12 (c : Dev nD) : W12 m ρ c (Proc.devRef .tc main_arg28) = m ((c.tc : Thread nD τ).loc main_arg28) :=
  ((calc W14 m ρ c (Proc.devRef .tc main_arg28)
    _ = W13 m ρ c (Proc.devRef .tc main_arg28) := W14_of_ne m ρ c main_arg28 (by decide)
    _ = W12 m ρ c (Proc.devRef .tc main_arg28) := StableHlo.after_of_forall_not_mem (b := Proc.devRef .tc main_arg28) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm).trans (W14_main_arg28 m ρ c)

/-- Argument 21 at boundary 13 is its launch contents: nothing between that boundary and the end writes it, and at the end it is as launched. -/
theorem arg21_at13 (c : Dev nD) : W13 m ρ c (Proc.devRef .tc main_arg21) = m ((c.tc : Thread nD τ).loc main_arg21) :=
  ((calc W14 m ρ c (Proc.devRef .tc main_arg21)
    _ = W13 m ρ c (Proc.devRef .tc main_arg21) := (W14_arr m ρ c 1).trans (((dat6 (V13 m ρ) c).arrAt_in 1 rfl _).trans (A_eq6 (V13 m ρ) c 1))).symm).trans (W14_main_arg21 m ρ c)

/-- Argument 23 at boundary 13 is its launch contents: nothing between that boundary and the end writes it, and at the end it is as launched. -/
theorem arg23_at13 (c : Dev nD) : W13 m ρ c (Proc.devRef .tc main_arg23) = m ((c.tc : Thread nD τ).loc main_arg23) :=
  ((calc W14 m ρ c (Proc.devRef .tc main_arg23)
    _ = W13 m ρ c (Proc.devRef .tc main_arg23) := (W14_arr m ρ c 3).trans (((dat6 (V13 m ρ) c).arrAt_in 3 rfl _).trans (A_eq6 (V13 m ρ) c 3))).symm).trans (W14_main_arg23 m ρ c)

/-- Argument 25 at boundary 13 is its launch contents: nothing between that boundary and the end writes it, and at the end it is as launched. -/
theorem arg25_at13 (c : Dev nD) : W13 m ρ c (Proc.devRef .tc main_arg25) = m ((c.tc : Thread nD τ).loc main_arg25) :=
  ((calc W14 m ρ c (Proc.devRef .tc main_arg25)
    _ = W13 m ρ c (Proc.devRef .tc main_arg25) := (W14_arr m ρ c 5).trans (((dat6 (V13 m ρ) c).arrAt_in 5 rfl _).trans (A_eq6 (V13 m ρ) c 5))).symm).trans (W14_main_arg25 m ρ c)

/-- Argument 27 at boundary 13 is its launch contents: nothing between that boundary and the end writes it, and at the end it is as launched. -/
theorem arg27_at13 (c : Dev nD) : W13 m ρ c (Proc.devRef .tc main_arg27) = m ((c.tc : Thread nD τ).loc main_arg27) :=
  ((calc W14 m ρ c (Proc.devRef .tc main_arg27)
    _ = W13 m ρ c (Proc.devRef .tc main_arg27) := (W14_arr m ρ c 7).trans (((dat6 (V13 m ρ) c).arrAt_in 7 rfl _).trans (A_eq6 (V13 m ρ) c 7))).symm).trans (W14_main_arg27 m ρ c)

/-! ## The edge buffers -/

/-- The buffer holding the source index of every edge is written by no segment between boundaries 3 and 4. -/
theorem row_keep3_4 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- The buffer holding the source index of every edge is written by no segment between boundaries 4 and 7. -/
theorem row_keep4_7 (c : Dev nD) : W7 m ρ c (Proc.devRef .tc main_v3) = W4 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The buffer holding the source index of every edge is written by no segment between boundaries 7 and 10. -/
theorem row_keep7_10 (c : Dev nD) : W10 m ρ c (Proc.devRef .tc main_v3) = W7 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := StableHlo.after_of_forall_not_mem (b := Proc.devRef .tc main_v3) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The buffer holding the target index of every edge is written by no segment between boundaries 3 and 4. -/
theorem col_keep3_4 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- The buffer holding the target index of every edge is written by no segment between boundaries 4 and 7. -/
theorem col_keep4_7 (c : Dev nD) : W7 m ρ c (Proc.devRef .tc main_v6) = W4 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The buffer holding the target index of every edge is written by no segment between boundaries 7 and 10. -/
theorem col_keep7_10 (c : Dev nD) : W10 m ρ c (Proc.devRef .tc main_v6) = W7 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := StableHlo.after_of_forall_not_mem (b := Proc.devRef .tc main_v6) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The buffer holding the edge weight column is written by no segment between boundaries 3 and 4. -/
theorem norm_keep3_4 (c : Dev nD) : W4 m ρ c (Proc.devRef .tc main_v30) = W3 m ρ c (Proc.devRef .tc main_v30) :=
  calc W4 m ρ c (Proc.devRef .tc main_v30)
    _ = W3 m ρ c (Proc.devRef .tc main_v30) := W4_of_ne m ρ c main_v30 (by decide)

/-- The buffer holding the edge weight column is written by no segment between boundaries 4 and 7. -/
theorem norm_keep4_7 (c : Dev nD) : W7 m ρ c (Proc.devRef .tc main_v30) = W4 m ρ c (Proc.devRef .tc main_v30) :=
  calc W7 m ρ c (Proc.devRef .tc main_v30)
    _ = W6 m ρ c (Proc.devRef .tc main_v30) := W7_of_ne m ρ c main_v30 (by decide)
    _ = W5 m ρ c (Proc.devRef .tc main_v30) := W6_of_ne m ρ c main_v30 (by decide)
    _ = W4 m ρ c (Proc.devRef .tc main_v30) := StableHlo.after_of_forall_not_mem (b := Proc.devRef .tc main_v30) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The buffer holding the edge weight column is written by no segment between boundaries 7 and 10. -/
theorem norm_keep7_10 (c : Dev nD) : W10 m ρ c (Proc.devRef .tc main_v30) = W7 m ρ c (Proc.devRef .tc main_v30) :=
  calc W10 m ρ c (Proc.devRef .tc main_v30)
    _ = W9 m ρ c (Proc.devRef .tc main_v30) := W10_of_ne m ρ c main_v30 (by decide)
    _ = W8 m ρ c (Proc.devRef .tc main_v30) := W9_of_ne m ρ c main_v30 (by decide)
    _ = W7 m ρ c (Proc.devRef .tc main_v30) := StableHlo.after_of_forall_not_mem (b := Proc.devRef .tc main_v30) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.Pass

end
-- ==== Proof.Transforms.lean ====
/-
  The three dense transforms against the reference's matrix products.

  Each transform region leaves, row block by row block, the product of its left array with the whole right matrix; read
  at an index that is the sum over the contracted axis of left entry times right entry. The reference's host product
  of the same two arrays is the same sum at every index. So when the region's left array is the reference's previous
  stage and its right array is the launch weight matrix, the region's output is the reference's product stage.
-/
import proofs.«129538_j62732292326002_1_alg».proof.Proof.LinearRegions
import proofs.«129538_j62732292326002_1_alg».proof.Proof.PassThrough
import proofs.«129538_j62732292326002_1_alg».proof.Proof.RefRead

set_option maxRecDepth 16384

noncomputable section

namespace Cert.KernelIdeal.Bridge

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Layer 1: the node features times the first weight matrix. -/
theorem transform1 (c : Dev nD) : W4 m ρ c (Proc.devRef .tc main_v31) = Cert.ReferenceIdeal.ReadP.val_main_v31 (F := Ideal) (m ((c.tc : Thread nD τ).loc main_arg0)) (m ((c.tc : Thread nD τ).loc main_arg3)) := by
  refine (W4_arr m ρ c 2).trans ?_
  rw [RegionValue.linear0 (V3 m ρ) c]
  have e0 : V3 m ρ c (Pipeline.arrRef spec0 0) = (m ((c.tc : Thread nD τ).loc main_arg0)) := Pass.arg0_at3 m ρ c
  have e1 : V3 m ρ c (Pipeline.arrRef spec0 1) = (m ((c.tc : Thread nD τ).loc main_arg3)) := Pass.arg3_at3 m ρ c
  rw [e0, e1]
  funext i
  rw [RegionValue.prod0_apply, Cert.ReferenceIdeal.ReadP.val_main_v31_apply]
  rfl

/-- Layer 2: the first layer's output rows times the second weight matrix. -/
theorem transform2 (c : Dev nD) (h : W6 m ρ c (Proc.devRef .tc main_v49) = Cert.ReferenceIdeal.ReadP.val_main_v60 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)) (m ((c.tc : Thread nD τ).loc main_arg12))) :
    W7 m ρ c (Proc.devRef .tc main_v50) = Cert.ReferenceIdeal.ReadP.val_main_v61 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12)) := by
  refine (W7_arr m ρ c 2).trans ?_
  rw [RegionValue.linear2 (V6 m ρ) c]
  have e0 : V6 m ρ c (Pipeline.arrRef spec2 0) = Cert.ReferenceIdeal.ReadP.val_main_v60 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)) (m ((c.tc : Thread nD τ).loc main_arg12)) := h
  have e1 : V6 m ρ c (Pipeline.arrRef spec2 1) = (m ((c.tc : Thread nD τ).loc main_arg5)) := Pass.arg5_at6 m ρ c
  rw [e0, e1]
  funext i
  rw [RegionValue.prod128_apply, Cert.ReferenceIdeal.ReadP.val_main_v61_apply]
  rfl

/-- Layer 3: the second layer's output rows times the third weight matrix. -/
theorem transform3 (c : Dev nD) (h : W9 m ρ c (Proc.devRef .tc main_v68) = Cert.ReferenceIdeal.ReadP.val_main_v90 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) :
    W10 m ρ c (Proc.devRef .tc main_v69) = Cert.ReferenceIdeal.ReadP.val_main_v91 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  refine (W10_arr m ρ c 2).trans ?_
  rw [RegionValue.linear4 (V9 m ρ) c]
  have e0 : V9 m ρ c (Pipeline.arrRef spec4 0) = Cert.ReferenceIdeal.ReadP.val_main_v90 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := h
  have e1 : V9 m ρ c (Pipeline.arrRef spec4 1) = (m ((c.tc : Thread nD τ).loc main_arg7)) := Pass.arg7_at9 m ρ c
  rw [e0, e1]
  funext i
  rw [RegionValue.prod128_apply, Cert.ReferenceIdeal.ReadP.val_main_v91_apply]
  rfl

end Cert.KernelIdeal.Bridge

end
-- ==== Proof.NormalizeRegions.lean ====
import proofs.«129538_j62732292326002_1_alg».proof.Proof.Gen.KernelIdeal.Frame
import Idealize.ShloMosaic.Lib.ValueLayout

set_option maxRecDepth 16384

noncomputable section

namespace Cert.KernelIdeal.RegionValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

/-! ## The stored block at an index

Regions 1, 3 and 5 are one computation under three names. Each stores, over its whole block of 5000 rows, the value whose
element at row `p`, column `q` depends on the input block's element there and on column `q` of five one-row parameter
blocks: the shape casts are between equal shapes, and each one-row block is repeated down the rows. -/

/-- The scalar law of one output element: add the bias, subtract the running mean, multiply by the scale
    `g · rsqrt (var + ε)`, add the shift, and clamp below at zero. -/
abbrev bnRelu (h b g be mean var : F .f32) : F .f32 :=
  FloatOps.maximumf (FloatOps.addf (FloatOps.mulf (FloatOps.subf (FloatOps.addf h b) mean)
    (FloatOps.mulf g (FloatOps.rsqrt (FloatOps.addf var (Scalar.ofBits .f32 0x3727C5AC#32))))) be)
    (Scalar.ofBits .f32 0x00000000#32)

/-- The stored block of region 1 at row `p`, column `q`: the scalar law of the input block's element there and of the
    five parameter rows' entries in column `q`. -/
theorem pay1_apply (v0 v2 : Vec F S1x128 .f32) (v8 : Vec F S5000x128 .f32) (v10 v14 v20 : Vec F S1x128 .f32)
    (p : Fin 5000) (q : Fin 128) :
    k1_pay1 v0 v2 v8 v10 v14 v20 (ix2 p q)
      = bnRelu (v8 (ix2 p q)) (v10 (ix2 (0 : Fin 1) q)) (v0 (ix2 (0 : Fin 1) q)) (v20 (ix2 (0 : Fin 1) q))
          (v14 (ix2 (0 : Fin 1) q)) (v2 (ix2 (0 : Fin 1) q)) := by
  unfold k1_pay1
  simp only [shapeCast_self]
  show FloatOps.maximumf (FloatOps.addf (FloatOps.mulf (FloatOps.subf (FloatOps.addf (v8 (ix2 p q))
      (broadcastTo S5000x128 v10 broadcasts_S1x128_S5000x128 (ix2 p q)))
      (broadcastTo S5000x128 v14 broadcasts_S1x128_S5000x128 (ix2 p q)))
      (broadcastTo S5000x128 (mulf v0 (rsqrt (addf v2 (broadcast S1x128 (Scalar.ofBits .f32 0x3727C5AC#32))))) broadcasts_S1x128_S5000x128 (ix2 p q)))
      (broadcastTo S5000x128 v20 broadcasts_S1x128_S5000x128 (ix2 p q)))
      (Scalar.ofBits .f32 0x00000000#32) = _
  rw [broadcastTo_1b_ab_apply, broadcastTo_1b_ab_apply, broadcastTo_1b_ab_apply, broadcastTo_1b_ab_apply]
  rfl

/-- The stored block of region 3 at row `p`, column `q`: the scalar law of the input block's element there and of the
    five parameter rows' entries in column `q`. -/
theorem pay3_apply (v0 v2 : Vec F S1x128 .f32) (v8 : Vec F S5000x128 .f32) (v10 v14 v20 : Vec F S1x128 .f32)
    (p : Fin 5000) (q : Fin 128) :
    k3_pay1 v0 v2 v8 v10 v14 v20 (ix2 p q)
      = bnRelu (v8 (ix2 p q)) (v10 (ix2 (0 : Fin 1) q)) (v0 (ix2 (0 : Fin 1) q)) (v20 (ix2 (0 : Fin 1) q))
          (v14 (ix2 (0 : Fin 1) q)) (v2 (ix2 (0 : Fin 1) q)) := by
  unfold k3_pay1
  simp only [shapeCast_self]
  show FloatOps.maximumf (FloatOps.addf (FloatOps.mulf (FloatOps.subf (FloatOps.addf (v8 (ix2 p q))
      (broadcastTo S5000x128 v10 broadcasts_S1x128_S5000x128 (ix2 p q)))
      (broadcastTo S5000x128 v14 broadcasts_S1x128_S5000x128 (ix2 p q)))
      (broadcastTo S5000x128 (mulf v0 (rsqrt (addf v2 (broadcast S1x128 (Scalar.ofBits .f32 0x3727C5AC#32))))) broadcasts_S1x128_S5000x128 (ix2 p q)))
      (broadcastTo S5000x128 v20 broadcasts_S1x128_S5000x128 (ix2 p q)))
      (Scalar.ofBits .f32 0x00000000#32) = _
  rw [broadcastTo_1b_ab_apply, broadcastTo_1b_ab_apply, broadcastTo_1b_ab_apply, broadcastTo_1b_ab_apply]
  rfl

/-- The stored block of region 5 at row `p`, column `q`: the scalar law of the input block's element there and of the
    five parameter rows' entries in column `q`. -/
theorem pay5_apply (v0 v2 : Vec F S1x128 .f32) (v8 : Vec F S5000x128 .f32) (v10 v14 v20 : Vec F S1x128 .f32)
    (p : Fin 5000) (q : Fin 128) :
    k5_pay1 v0 v2 v8 v10 v14 v20 (ix2 p q)
      = bnRelu (v8 (ix2 p q)) (v10 (ix2 (0 : Fin 1) q)) (v0 (ix2 (0 : Fin 1) q)) (v20 (ix2 (0 : Fin 1) q))
          (v14 (ix2 (0 : Fin 1) q)) (v2 (ix2 (0 : Fin 1) q)) := by
  unfold k5_pay1
  simp only [shapeCast_self]
  show FloatOps.maximumf (FloatOps.addf (FloatOps.mulf (FloatOps.subf (FloatOps.addf (v8 (ix2 p q))
      (broadcastTo S5000x128 v10 broadcasts_S1x128_S5000x128 (ix2 p q)))
      (broadcastTo S5000x128 v14 broadcasts_S1x128_S5000x128 (ix2 p q)))
      (broadcastTo S5000x128 (mulf v0 (rsqrt (addf v2 (broadcast S1x128 (Scalar.ofBits .f32 0x3727C5AC#32))))) broadcasts_S1x128_S5000x128 (ix2 p q)))
      (broadcastTo S5000x128 v20 broadcasts_S1x128_S5000x128 (ix2 p q)))
      (Scalar.ofBits .f32 0x00000000#32) = _
  rw [broadcastTo_1b_ab_apply, broadcastTo_1b_ab_apply, broadcastTo_1b_ab_apply, broadcastTo_1b_ab_apply]
  rfl

/-! ## From the blocks to the array

Each region's grid has 20 points; point `t` reads rows `5000 t … 5000 t + 4999` of the input and writes the same rows of
the output, and reads the whole of each one-row parameter array. So what point `t` writes back is block `t` of ONE
function of the region's input arrays, the blocks tile the output array, and the array ends holding that function. -/

theorem offsets_zero : (![0, 0] : Fin 2 → Nat) = fun _ => 0 := funext fun a => by fin_cases a <;> rfl

/-- The parameter rows' index under an array index: row `0`, the same column. -/
def col0 (i : S100000x128.Idx) : S1x128.Idx :=
  fun a => match a with | ⟨0, _⟩ => ⟨0, Nat.zero_lt_one⟩ | ⟨1, _⟩ => ⟨(i 1).val, (i 1).isLt⟩

theorem col0_ix2 (r : Fin 100000) (j : Fin 128) : col0 (ix2 r j) = ix2 (0 : Fin 1) j := by
  funext a; match a with | ⟨0, _⟩ => rfl | ⟨1, _⟩ => rfl

variable (V : (c : Dev nD) → (b : Ref sig .tc) → Buf (Elt F) ((c : Thread nD τ).loc b))

/-! ### Region 1 -/

/-- What region 1 leaves in its output array: the scalar law, index by index, of the region's input arrays. -/
abbrev G1 (c : Dev nD) : S100000x128.Idx → Elt F .f32 := fun i =>
  bnRelu (V c (Pipeline.arrRef spec1 0) i) (V c (Pipeline.arrRef spec1 1) (col0 i)) (V c (Pipeline.arrRef spec1 2) (col0 i))
    (V c (Pipeline.arrRef spec1 3) (col0 i)) (V c (Pipeline.arrRef spec1 4) (col0 i)) (V c (Pipeline.arrRef spec1 5) (col0 i))

/-- The index maps of region 1 over its grid: the input and the output move down one block of rows per point, the
    five parameter rows stay at their one block. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The input's block at point `t` is read where the output's block at `t` lies. -/
theorem read_input1 (c : Dev nD) (t : Fin cfg1.N) (p : Fin 5000) (q : Fin 128) :
    iblk1 V c 0 t (ix2 p q) = V c (Pipeline.arrRef spec1 0) (((cfg1.win 6).blk t).view.emb (ix2 p q)) := by
  obtain ⟨e00, e01, e10, e11, e20, e21, e30, e31, e40, e41, e50, e51, e60, e61⟩ := index_facts1 t
  have h : ((cfg1.win 0).blk t).view.emb (ix2 p q) = ((cfg1.win 6).blk t).view.emb (ix2 p q) := by
    funext a; apply Fin.ext
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * q.val = win1_6.index t (1 : Fin 2) * 128 + 1 * q.val; omega
  exact congrArg (V c (Pipeline.arrRef spec1 0)) h

/-- Window 1's one block, read in column `q`, is its array's entry under any index of the output block in that column. -/
theorem read_param1_1 (c : Dev nD) (t : Fin cfg1.N) (p : Fin 5000) (q : Fin 128) :
    iblk1 V c 1 t (ix2 (0 : Fin 1) q)
      = V c (Pipeline.arrRef spec1 1) (col0 (((cfg1.win 6).blk t).view.emb (ix2 p q))) := by
  obtain ⟨e00, e01, e10, e11, e20, e21, e30, e31, e40, e41, e50, e51, e60, e61⟩ := index_facts1 t
  have h : ((cfg1.win 1).blk t).view.emb (ix2 (0 : Fin 1) q) = col0 (((cfg1.win 6).blk t).view.emb (ix2 p q)) := by
    funext a; apply Fin.ext
    match a with
    | ⟨0, _⟩ => show win1_1.index t (0 : Fin 2) * 1 + 1 * 0 = 0; omega
    | ⟨1, _⟩ => show win1_1.index t (1 : Fin 2) * 128 + 1 * q.val = win1_6.index t (1 : Fin 2) * 128 + 1 * q.val; omega
  exact congrArg (V c (Pipeline.arrRef spec1 1)) h

/-- Window 2's one block, read in column `q`, is its array's entry under any index of the output block in that column. -/
theorem read_param1_2 (c : Dev nD) (t : Fin cfg1.N) (p : Fin 5000) (q : Fin 128) :
    iblk1 V c 2 t (ix2 (0 : Fin 1) q)
      = V c (Pipeline.arrRef spec1 2) (col0 (((cfg1.win 6).blk t).view.emb (ix2 p q))) := by
  obtain ⟨e00, e01, e10, e11, e20, e21, e30, e31, e40, e41, e50, e51, e60, e61⟩ := index_facts1 t
  have h : ((cfg1.win 2).blk t).view.emb (ix2 (0 : Fin 1) q) = col0 (((cfg1.win 6).blk t).view.emb (ix2 p q)) := by
    funext a; apply Fin.ext
    match a with
    | ⟨0, _⟩ => show win1_2.index t (0 : Fin 2) * 1 + 1 * 0 = 0; omega
    | ⟨1, _⟩ => show win1_2.index t (1 : Fin 2) * 128 + 1 * q.val = win1_6.index t (1 : Fin 2) * 128 + 1 * q.val; omega
  exact congrArg (V c (Pipeline.arrRef spec1 2)) h

/-- Window 3's one block, read in column `q`, is its array's entry under any index of the output block in that column. -/
theorem read_param1_3 (c : Dev nD) (t : Fin cfg1.N) (p : Fin 5000) (q : Fin 128) :
    iblk1 V c 3 t (ix2 (0 : Fin 1) q)
      = V c (Pipeline.arrRef spec1 3) (col0 (((cfg1.win 6).blk t).view.emb (ix2 p q))) := by
  obtain ⟨e00, e01, e10, e11, e20, e21, e30, e31, e40, e41, e50, e51, e60, e61⟩ := index_facts1 t
  have h : ((cfg1.win 3).blk t).view.emb (ix2 (0 : Fin 1) q) = col0 (((cfg1.win 6).blk t).view.emb (ix2 p q)) := by
    funext a; apply Fin.ext
    match a with
    | ⟨0, _⟩ => show win1_3.index t (0 : Fin 2) * 1 + 1 * 0 = 0; omega
    | ⟨1, _⟩ => show win1_3.index t (1 : Fin 2) * 128 + 1 * q.val = win1_6.index t (1 : Fin 2) * 128 + 1 * q.val; omega
  exact congrArg (V c (Pipeline.arrRef spec1 3)) h

/-- Window 4's one block, read in column `q`, is its array's entry under any index of the output block in that column. -/
theorem read_param1_4 (c : Dev nD) (t : Fin cfg1.N) (p : Fin 5000) (q : Fin 128) :
    iblk1 V c 4 t (ix2 (0 : Fin 1) q)
      = V c (Pipeline.arrRef spec1 4) (col0 (((cfg1.win 6).blk t).view.emb (ix2 p q))) := by
  obtain ⟨e00, e01, e10, e11, e20, e21, e30, e31, e40, e41, e50, e51, e60, e61⟩ := index_facts1 t
  have h : ((cfg1.win 4).blk t).view.emb (ix2 (0 : Fin 1) q) = col0 (((cfg1.win 6).blk t).view.emb (ix2 p q)) := by
    funext a; apply Fin.ext
    match a with
    | ⟨0, _⟩ => show win1_4.index t (0 : Fin 2) * 1 + 1 * 0 = 0; omega
    | ⟨1, _⟩ => show win1_4.index t (1 : Fin 2) * 128 + 1 * q.val = win1_6.index t (1 : Fin 2) * 128 + 1 * q.val; omega
  exact congrArg (V c (Pipeline.arrRef spec1 4)) h

/-- Window 5's one block, read in column `q`, is its array's entry under any index of the output block in that column. -/
theorem read_param1_5 (c : Dev nD) (t : Fin cfg1.N) (p : Fin 5000) (q : Fin 128) :
    iblk1 V c 5 t (ix2 (0 : Fin 1) q)
      = V c (Pipeline.arrRef spec1 5) (col0 (((cfg1.win 6).blk t).view.emb (ix2 p q))) := by
  obtain ⟨e00, e01, e10, e11, e20, e21, e30, e31, e40, e41, e50, e51, e60, e61⟩ := index_facts1 t
  have h : ((cfg1.win 5).blk t).view.emb (ix2 (0 : Fin 1) q) = col0 (((cfg1.win 6).blk t).view.emb (ix2 p q)) := by
    funext a; apply Fin.ext
    match a with
    | ⟨0, _⟩ => show win1_5.index t (0 : Fin 2) * 1 + 1 * 0 = 0; omega
    | ⟨1, _⟩ => show win1_5.index t (1 : Fin 2) * 128 + 1 * q.val = win1_6.index t (1 : Fin 2) * 128 + 1 * q.val; omega
  exact congrArg (V c (Pipeline.arrRef spec1 5)) h

/-- What point `t` of region 1 writes back is block `t` of `G1`. -/
theorem flushed1_eq (c : Dev nD) (t : Fin cfg1.N) :
    (dat1 V c).flushed 6 t = ((cfg1.win 6).blk t).view.read (Elt F) (G1 V c) := by
  show (cfg1.win 6).cut (grid1.coords t) ((dat1 V c).after 6 t) = _
  rw [after1_6]
  unfold out1_6
  rw [View.canon_unit_zero offsets_zero]
  simp only [View.ld_unit_zero (S := S5000x128) offsets_zero, View.ld_unit_zero (S := S1x128) offsets_zero]
  funext j
  obtain ⟨p, q, rfl⟩ : ∃ (p : Fin 5000) (q : Fin 128), j = ix2 p q := ⟨j 0, j 1, eq_ix2 j⟩
  refine (pay1_apply (iblk1 V c 2 t) (iblk1 V c 5 t) (iblk1 V c 0 t) (iblk1 V c 1 t) (iblk1 V c 4 t) (iblk1 V c 3 t) p q).trans ?_
  rw [read_input1 V c t p q, read_param1_1 V c t p q, read_param1_2 V c t p q, read_param1_3 V c t p q,
    read_param1_4 V c t p q, read_param1_5 V c t p q]
  rfl

/-- An index of the output array is in point `t`'s block iff each coordinate is in the block's range on its axis. -/
theorem mem_block1 (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v49).slice (win1_6.rect t)).set ↔ _
  rw [View.set_slice_whole, Rect.mem_set_unit]
  exact Iff.rfl

/-- Every index of the output array is in some point's block: row `r` is in the block of point `r / 5000`. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : grid1.N = 20 := N_1
  have ht : (i 0).val / 5000 < grid1.N := by omega
  obtain ⟨e00, e01, e10, e11, e20, e21, e30, e31, e40, e41, e50, e51, e60, e61⟩ := index_facts1 ⟨(i 0).val / 5000, ht⟩
  have e60' : win1_6.index ⟨(i 0).val / 5000, ht⟩ (0 : Fin 2) = (i 0).val / 5000 := e60
  refine ⟨⟨(i 0).val / 5000, ht⟩, flush1_6 _, ?_⟩
  rw [mem_block1]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    omega
  | ⟨1, _⟩ =>
    show win1_6.index ⟨(i 0).val / 5000, ht⟩ (1 : Fin 2) * 128 ≤ (i 1).val
      ∧ (i 1).val < win1_6.index ⟨(i 0).val / 5000, ht⟩ (1 : Fin 2) * 128 + 128
    omega

/-- THE OUTPUT ARRAY AFTER REGION 1: at row `r`, column `j`, the input's element there plus the bias, minus the
    running mean, times `g · rsqrt (var + ε)`, plus the shift, clamped below at zero — the parameters read in column `j`. -/
theorem normalize1 (c : Dev nD) : (dat1 V c).arrAt 6 cfg1.N = fun i =>
    FloatOps.maximumf (FloatOps.addf (FloatOps.mulf (FloatOps.subf (FloatOps.addf (V c (Pipeline.arrRef spec1 0) i)
      (V c (Pipeline.arrRef spec1 1) (col0 i))) (V c (Pipeline.arrRef spec1 4) (col0 i)))
      (FloatOps.mulf (V c (Pipeline.arrRef spec1 2) (col0 i)) (FloatOps.rsqrt (FloatOps.addf (V c (Pipeline.arrRef spec1 5) (col0 i))
        (Scalar.ofBits .f32 0x3727C5AC#32))))) (V c (Pipeline.arrRef spec1 3) (col0 i))) (Scalar.ofBits .f32 0x00000000#32) :=
  (dat1 V c).arrAt_eq_of_cover 6 (G1 V c) (fun t _ => flushed1_eq V c t) cover1

/-! ### Region 3 -/

/-- What region 3 leaves in its output array: the scalar law, index by index, of the region's input arrays. -/
abbrev G3 (c : Dev nD) : S100000x128.Idx → Elt F .f32 := fun i =>
  bnRelu (V c (Pipeline.arrRef spec3 0) i) (V c (Pipeline.arrRef spec3 1) (col0 i)) (V c (Pipeline.arrRef spec3 2) (col0 i))
    (V c (Pipeline.arrRef spec3 3) (col0 i)) (V c (Pipeline.arrRef spec3 4) (col0 i)) (V c (Pipeline.arrRef spec3 5) (col0 i))

/-- The index maps of region 3 over its grid: the input and the output move down one block of rows per point, the
    five parameter rows stay at their one block. -/
theorem index_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The input's block at point `t` is read where the output's block at `t` lies. -/
theorem read_input3 (c : Dev nD) (t : Fin cfg3.N) (p : Fin 5000) (q : Fin 128) :
    iblk3 V c 0 t (ix2 p q) = V c (Pipeline.arrRef spec3 0) (((cfg3.win 6).blk t).view.emb (ix2 p q)) := by
  obtain ⟨e00, e01, e10, e11, e20, e21, e30, e31, e40, e41, e50, e51, e60, e61⟩ := index_facts3 t
  have h : ((cfg3.win 0).blk t).view.emb (ix2 p q) = ((cfg3.win 6).blk t).view.emb (ix2 p q) := by
    funext a; apply Fin.ext
    match a with
    | ⟨0, _⟩ => show win3_0.index t (0 : Fin 2) * 5000 + 1 * p.val = win3_6.index t (0 : Fin 2) * 5000 + 1 * p.val; omega
    | ⟨1, _⟩ => show win3_0.index t (1 : Fin 2) * 128 + 1 * q.val = win3_6.index t (1 : Fin 2) * 128 + 1 * q.val; omega
  exact congrArg (V c (Pipeline.arrRef spec3 0)) h

/-- Window 1's one block, read in column `q`, is its array's entry under any index of the output block in that column. -/
theorem read_param3_1 (c : Dev nD) (t : Fin cfg3.N) (p : Fin 5000) (q : Fin 128) :
    iblk3 V c 1 t (ix2 (0 : Fin 1) q)
      = V c (Pipeline.arrRef spec3 1) (col0 (((cfg3.win 6).blk t).view.emb (ix2 p q))) := by
  obtain ⟨e00, e01, e10, e11, e20, e21, e30, e31, e40, e41, e50, e51, e60, e61⟩ := index_facts3 t
  have h : ((cfg3.win 1).blk t).view.emb (ix2 (0 : Fin 1) q) = col0 (((cfg3.win 6).blk t).view.emb (ix2 p q)) := by
    funext a; apply Fin.ext
    match a with
    | ⟨0, _⟩ => show win3_1.index t (0 : Fin 2) * 1 + 1 * 0 = 0; omega
    | ⟨1, _⟩ => show win3_1.index t (1 : Fin 2) * 128 + 1 * q.val = win3_6.index t (1 : Fin 2) * 128 + 1 * q.val; omega
  exact congrArg (V c (Pipeline.arrRef spec3 1)) h

/-- Window 2's one block, read in column `q`, is its array's entry under any index of the output block in that column. -/
theorem read_param3_2 (c : Dev nD) (t : Fin cfg3.N) (p : Fin 5000) (q : Fin 128) :
    iblk3 V c 2 t (ix2 (0 : Fin 1) q)
      = V c (Pipeline.arrRef spec3 2) (col0 (((cfg3.win 6).blk t).view.emb (ix2 p q))) := by
  obtain ⟨e00, e01, e10, e11, e20, e21, e30, e31, e40, e41, e50, e51, e60, e61⟩ := index_facts3 t
  have h : ((cfg3.win 2).blk t).view.emb (ix2 (0 : Fin 1) q) = col0 (((cfg3.win 6).blk t).view.emb (ix2 p q)) := by
    funext a; apply Fin.ext
    match a with
    | ⟨0, _⟩ => show win3_2.index t (0 : Fin 2) * 1 + 1 * 0 = 0; omega
    | ⟨1, _⟩ => show win3_2.index t (1 : Fin 2) * 128 + 1 * q.val = win3_6.index t (1 : Fin 2) * 128 + 1 * q.val; omega
  exact congrArg (V c (Pipeline.arrRef spec3 2)) h

/-- Window 3's one block, read in column `q`, is its array's entry under any index of the output block in that column. -/
theorem read_param3_3 (c : Dev nD) (t : Fin cfg3.N) (p : Fin 5000) (q : Fin 128) :
    iblk3 V c 3 t (ix2 (0 : Fin 1) q)
      = V c (Pipeline.arrRef spec3 3) (col0 (((cfg3.win 6).blk t).view.emb (ix2 p q))) := by
  obtain ⟨e00, e01, e10, e11, e20, e21, e30, e31, e40, e41, e50, e51, e60, e61⟩ := index_facts3 t
  have h : ((cfg3.win 3).blk t).view.emb (ix2 (0 : Fin 1) q) = col0 (((cfg3.win 6).blk t).view.emb (ix2 p q)) := by
    funext a; apply Fin.ext
    match a with
    | ⟨0, _⟩ => show win3_3.index t (0 : Fin 2) * 1 + 1 * 0 = 0; omega
    | ⟨1, _⟩ => show win3_3.index t (1 : Fin 2) * 128 + 1 * q.val = win3_6.index t (1 : Fin 2) * 128 + 1 * q.val; omega
  exact congrArg (V c (Pipeline.arrRef spec3 3)) h

/-- Window 4's one block, read in column `q`, is its array's entry under any index of the output block in that column. -/
theorem read_param3_4 (c : Dev nD) (t : Fin cfg3.N) (p : Fin 5000) (q : Fin 128) :
    iblk3 V c 4 t (ix2 (0 : Fin 1) q)
      = V c (Pipeline.arrRef spec3 4) (col0 (((cfg3.win 6).blk t).view.emb (ix2 p q))) := by
  obtain ⟨e00, e01, e10, e11, e20, e21, e30, e31, e40, e41, e50, e51, e60, e61⟩ := index_facts3 t
  have h : ((cfg3.win 4).blk t).view.emb (ix2 (0 : Fin 1) q) = col0 (((cfg3.win 6).blk t).view.emb (ix2 p q)) := by
    funext a; apply Fin.ext
    match a with
    | ⟨0, _⟩ => show win3_4.index t (0 : Fin 2) * 1 + 1 * 0 = 0; omega
    | ⟨1, _⟩ => show win3_4.index t (1 : Fin 2) * 128 + 1 * q.val = win3_6.index t (1 : Fin 2) * 128 + 1 * q.val; omega
  exact congrArg (V c (Pipeline.arrRef spec3 4)) h

/-- Window 5's one block, read in column `q`, is its array's entry under any index of the output block in that column. -/
theorem read_param3_5 (c : Dev nD) (t : Fin cfg3.N) (p : Fin 5000) (q : Fin 128) :
    iblk3 V c 5 t (ix2 (0 : Fin 1) q)
      = V c (Pipeline.arrRef spec3 5) (col0 (((cfg3.win 6).blk t).view.emb (ix2 p q))) := by
  obtain ⟨e00, e01, e10, e11, e20, e21, e30, e31, e40, e41, e50, e51, e60, e61⟩ := index_facts3 t
  have h : ((cfg3.win 5).blk t).view.emb (ix2 (0 : Fin 1) q) = col0 (((cfg3.win 6).blk t).view.emb (ix2 p q)) := by
    funext a; apply Fin.ext
    match a with
    | ⟨0, _⟩ => show win3_5.index t (0 : Fin 2) * 1 + 1 * 0 = 0; omega
    | ⟨1, _⟩ => show win3_5.index t (1 : Fin 2) * 128 + 1 * q.val = win3_6.index t (1 : Fin 2) * 128 + 1 * q.val; omega
  exact congrArg (V c (Pipeline.arrRef spec3 5)) h

/-- What point `t` of region 3 writes back is block `t` of `G3`. -/
theorem flushed3_eq (c : Dev nD) (t : Fin cfg3.N) :
    (dat3 V c).flushed 6 t = ((cfg3.win 6).blk t).view.read (Elt F) (G3 V c) := by
  show (cfg3.win 6).cut (grid3.coords t) ((dat3 V c).after 6 t) = _
  rw [after3_6]
  unfold out3_6
  rw [View.canon_unit_zero offsets_zero]
  simp only [View.ld_unit_zero (S := S5000x128) offsets_zero, View.ld_unit_zero (S := S1x128) offsets_zero]
  funext j
  obtain ⟨p, q, rfl⟩ : ∃ (p : Fin 5000) (q : Fin 128), j = ix2 p q := ⟨j 0, j 1, eq_ix2 j⟩
  refine (pay3_apply (iblk3 V c 2 t) (iblk3 V c 5 t) (iblk3 V c 0 t) (iblk3 V c 1 t) (iblk3 V c 4 t) (iblk3 V c 3 t) p q).trans ?_
  rw [read_input3 V c t p q, read_param3_1 V c t p q, read_param3_2 V c t p q, read_param3_3 V c t p q,
    read_param3_4 V c t p q, read_param3_5 V c t p q]
  rfl

/-- An index of the output array is in point `t`'s block iff each coordinate is in the block's range on its axis. -/
theorem mem_block3 (t : Fin cfg3.N) (i : S100000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v68).slice (win3_6.rect t)).set ↔ _
  rw [View.set_slice_whole, Rect.mem_set_unit]
  exact Iff.rfl

/-- Every index of the output array is in some point's block: row `r` is in the block of point `r / 5000`. -/
theorem cover3 (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hN : grid3.N = 20 := N_3
  have ht : (i 0).val / 5000 < grid3.N := by omega
  obtain ⟨e00, e01, e10, e11, e20, e21, e30, e31, e40, e41, e50, e51, e60, e61⟩ := index_facts3 ⟨(i 0).val / 5000, ht⟩
  have e60' : win3_6.index ⟨(i 0).val / 5000, ht⟩ (0 : Fin 2) = (i 0).val / 5000 := e60
  refine ⟨⟨(i 0).val / 5000, ht⟩, flush3_6 _, ?_⟩
  rw [mem_block3]
  intro a
  match a with
  | ⟨0, _⟩ =>
    show win3_6.index ⟨(i 0).val / 5000, ht⟩ (0 : Fin 2) * 5000 ≤ (i 0).val
      ∧ (i 0).val < win3_6.index ⟨(i 0).val / 5000, ht⟩ (0 : Fin 2) * 5000 + 5000
    omega
  | ⟨1, _⟩ =>
    show win3_6.index ⟨(i 0).val / 5000, ht⟩ (1 : Fin 2) * 128 ≤ (i 1).val
      ∧ (i 1).val < win3_6.index ⟨(i 0).val / 5000, ht⟩ (1 : Fin 2) * 128 + 128
    omega

/-- THE OUTPUT ARRAY AFTER REGION 3: at row `r`, column `j`, the input's element there plus the bias, minus the
    running mean, times `g · rsqrt (var + ε)`, plus the shift, clamped below at zero — the parameters read in column `j`. -/
theorem normalize3 (c : Dev nD) : (dat3 V c).arrAt 6 cfg3.N = fun i =>
    FloatOps.maximumf (FloatOps.addf (FloatOps.mulf (FloatOps.subf (FloatOps.addf (V c (Pipeline.arrRef spec3 0) i)
      (V c (Pipeline.arrRef spec3 1) (col0 i))) (V c (Pipeline.arrRef spec3 4) (col0 i)))
      (FloatOps.mulf (V c (Pipeline.arrRef spec3 2) (col0 i)) (FloatOps.rsqrt (FloatOps.addf (V c (Pipeline.arrRef spec3 5) (col0 i))
        (Scalar.ofBits .f32 0x3727C5AC#32))))) (V c (Pipeline.arrRef spec3 3) (col0 i))) (Scalar.ofBits .f32 0x00000000#32) :=
  (dat3 V c).arrAt_eq_of_cover 6 (G3 V c) (fun t _ => flushed3_eq V c t) cover3

/-! ### Region 5 -/

/-- What region 5 leaves in its output array: the scalar law, index by index, of the region's input arrays. -/
abbrev G5 (c : Dev nD) : S100000x128.Idx → Elt F .f32 := fun i =>
  bnRelu (V c (Pipeline.arrRef spec5 0) i) (V c (Pipeline.arrRef spec5 1) (col0 i)) (V c (Pipeline.arrRef spec5 2) (col0 i))
    (V c (Pipeline.arrRef spec5 3) (col0 i)) (V c (Pipeline.arrRef spec5 4) (col0 i)) (V c (Pipeline.arrRef spec5 5) (col0 i))

/-- The index maps of region 5 over its grid: the input and the output move down one block of rows per point, the
    five parameter rows stay at their one block. -/
theorem index_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- The input's block at point `t` is read where the output's block at `t` lies. -/
theorem read_input5 (c : Dev nD) (t : Fin cfg5.N) (p : Fin 5000) (q : Fin 128) :
    iblk5 V c 0 t (ix2 p q) = V c (Pipeline.arrRef spec5 0) (((cfg5.win 6).blk t).view.emb (ix2 p q)) := by
  obtain ⟨e00, e01, e10, e11, e20, e21, e30, e31, e40, e41, e50, e51, e60, e61⟩ := index_facts5 t
  have h : ((cfg5.win 0).blk t).view.emb (ix2 p q) = ((cfg5.win 6).blk t).view.emb (ix2 p q) := by
    funext a; apply Fin.ext
    match a with
    | ⟨0, _⟩ => show win5_0.index t (0 : Fin 2) * 5000 + 1 * p.val = win5_6.index t (0 : Fin 2) * 5000 + 1 * p.val; omega
    | ⟨1, _⟩ => show win5_0.index t (1 : Fin 2) * 128 + 1 * q.val = win5_6.index t (1 : Fin 2) * 128 + 1 * q.val; omega
  exact congrArg (V c (Pipeline.arrRef spec5 0)) h

/-- Window 1's one block, read in column `q`, is its array's entry under any index of the output block in that column. -/
theorem read_param5_1 (c : Dev nD) (t : Fin cfg5.N) (p : Fin 5000) (q : Fin 128) :
    iblk5 V c 1 t (ix2 (0 : Fin 1) q)
      = V c (Pipeline.arrRef spec5 1) (col0 (((cfg5.win 6).blk t).view.emb (ix2 p q))) := by
  obtain ⟨e00, e01, e10, e11, e20, e21, e30, e31, e40, e41, e50, e51, e60, e61⟩ := index_facts5 t
  have h : ((cfg5.win 1).blk t).view.emb (ix2 (0 : Fin 1) q) = col0 (((cfg5.win 6).blk t).view.emb (ix2 p q)) := by
    funext a; apply Fin.ext
    match a with
    | ⟨0, _⟩ => show win5_1.index t (0 : Fin 2) * 1 + 1 * 0 = 0; omega
    | ⟨1, _⟩ => show win5_1.index t (1 : Fin 2) * 128 + 1 * q.val = win5_6.index t (1 : Fin 2) * 128 + 1 * q.val; omega
  exact congrArg (V c (Pipeline.arrRef spec5 1)) h

/-- Window 2's one block, read in column `q`, is its array's entry under any index of the output block in that column. -/
theorem read_param5_2 (c : Dev nD) (t : Fin cfg5.N) (p : Fin 5000) (q : Fin 128) :
    iblk5 V c 2 t (ix2 (0 : Fin 1) q)
      = V c (Pipeline.arrRef spec5 2) (col0 (((cfg5.win 6).blk t).view.emb (ix2 p q))) := by
  obtain ⟨e00, e01, e10, e11, e20, e21, e30, e31, e40, e41, e50, e51, e60, e61⟩ := index_facts5 t
  have h : ((cfg5.win 2).blk t).view.emb (ix2 (0 : Fin 1) q) = col0 (((cfg5.win 6).blk t).view.emb (ix2 p q)) := by
    funext a; apply Fin.ext
    match a with
    | ⟨0, _⟩ => show win5_2.index t (0 : Fin 2) * 1 + 1 * 0 = 0; omega
    | ⟨1, _⟩ => show win5_2.index t (1 : Fin 2) * 128 + 1 * q.val = win5_6.index t (1 : Fin 2) * 128 + 1 * q.val; omega
  exact congrArg (V c (Pipeline.arrRef spec5 2)) h

/-- Window 3's one block, read in column `q`, is its array's entry under any index of the output block in that column. -/
theorem read_param5_3 (c : Dev nD) (t : Fin cfg5.N) (p : Fin 5000) (q : Fin 128) :
    iblk5 V c 3 t (ix2 (0 : Fin 1) q)
      = V c (Pipeline.arrRef spec5 3) (col0 (((cfg5.win 6).blk t).view.emb (ix2 p q))) := by
  obtain ⟨e00, e01, e10, e11, e20, e21, e30, e31, e40, e41, e50, e51, e60, e61⟩ := index_facts5 t
  have h : ((cfg5.win 3).blk t).view.emb (ix2 (0 : Fin 1) q) = col0 (((cfg5.win 6).blk t).view.emb (ix2 p q)) := by
    funext a; apply Fin.ext
    match a with
    | ⟨0, _⟩ => show win5_3.index t (0 : Fin 2) * 1 + 1 * 0 = 0; omega
    | ⟨1, _⟩ => show win5_3.index t (1 : Fin 2) * 128 + 1 * q.val = win5_6.index t (1 : Fin 2) * 128 + 1 * q.val; omega
  exact congrArg (V c (Pipeline.arrRef spec5 3)) h

/-- Window 4's one block, read in column `q`, is its array's entry under any index of the output block in that column. -/
theorem read_param5_4 (c : Dev nD) (t : Fin cfg5.N) (p : Fin 5000) (q : Fin 128) :
    iblk5 V c 4 t (ix2 (0 : Fin 1) q)
      = V c (Pipeline.arrRef spec5 4) (col0 (((cfg5.win 6).blk t).view.emb (ix2 p q))) := by
  obtain ⟨e00, e01, e10, e11, e20, e21, e30, e31, e40, e41, e50, e51, e60, e61⟩ := index_facts5 t
  have h : ((cfg5.win 4).blk t).view.emb (ix2 (0 : Fin 1) q) = col0 (((cfg5.win 6).blk t).view.emb (ix2 p q)) := by
    funext a; apply Fin.ext
    match a with
    | ⟨0, _⟩ => show win5_4.index t (0 : Fin 2) * 1 + 1 * 0 = 0; omega
    | ⟨1, _⟩ => show win5_4.index t (1 : Fin 2) * 128 + 1 * q.val = win5_6.index t (1 : Fin 2) * 128 + 1 * q.val; omega
  exact congrArg (V c (Pipeline.arrRef spec5 4)) h

/-- Window 5's one block, read in column `q`, is its array's entry under any index of the output block in that column. -/
theorem read_param5_5 (c : Dev nD) (t : Fin cfg5.N) (p : Fin 5000) (q : Fin 128) :
    iblk5 V c 5 t (ix2 (0 : Fin 1) q)
      = V c (Pipeline.arrRef spec5 5) (col0 (((cfg5.win 6).blk t).view.emb (ix2 p q))) := by
  obtain ⟨e00, e01, e10, e11, e20, e21, e30, e31, e40, e41, e50, e51, e60, e61⟩ := index_facts5 t
  have h : ((cfg5.win 5).blk t).view.emb (ix2 (0 : Fin 1) q) = col0 (((cfg5.win 6).blk t).view.emb (ix2 p q)) := by
    funext a; apply Fin.ext
    match a with
    | ⟨0, _⟩ => show win5_5.index t (0 : Fin 2) * 1 + 1 * 0 = 0; omega
    | ⟨1, _⟩ => show win5_5.index t (1 : Fin 2) * 128 + 1 * q.val = win5_6.index t (1 : Fin 2) * 128 + 1 * q.val; omega
  exact congrArg (V c (Pipeline.arrRef spec5 5)) h

/-- What point `t` of region 5 writes back is block `t` of `G5`. -/
theorem flushed5_eq (c : Dev nD) (t : Fin cfg5.N) :
    (dat5 V c).flushed 6 t = ((cfg5.win 6).blk t).view.read (Elt F) (G5 V c) := by
  show (cfg5.win 6).cut (grid5.coords t) ((dat5 V c).after 6 t) = _
  rw [after5_6]
  unfold out5_6
  rw [View.canon_unit_zero offsets_zero]
  simp only [View.ld_unit_zero (S := S5000x128) offsets_zero, View.ld_unit_zero (S := S1x128) offsets_zero]
  funext j
  obtain ⟨p, q, rfl⟩ : ∃ (p : Fin 5000) (q : Fin 128), j = ix2 p q := ⟨j 0, j 1, eq_ix2 j⟩
  refine (pay5_apply (iblk5 V c 2 t) (iblk5 V c 5 t) (iblk5 V c 0 t) (iblk5 V c 1 t) (iblk5 V c 4 t) (iblk5 V c 3 t) p q).trans ?_
  rw [read_input5 V c t p q, read_param5_1 V c t p q, read_param5_2 V c t p q, read_param5_3 V c t p q,
    read_param5_4 V c t p q, read_param5_5 V c t p q]
  rfl

/-- An index of the output array is in point `t`'s block iff each coordinate is in the block's range on its axis. -/
theorem mem_block5 (t : Fin cfg5.N) (i : S100000x128.Idx) :
    i ∈ ((cfg5.win 6).blk t).view.set ↔ ∀ a : Fin 2, win5_6.index t a * S5000x128.size a ≤ (i a).val
      ∧ (i a).val < win5_6.index t a * S5000x128.size a + S5000x128.size a := by
  show i ∈ ((View.whole main_v87).slice (win5_6.rect t)).set ↔ _
  rw [View.set_slice_whole, Rect.mem_set_unit]
  exact Iff.rfl

/-- Every index of the output array is in some point's block: row `r` is in the block of point `r / 5000`. -/
theorem cover5 (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  have hN : grid5.N = 20 := N_5
  have ht : (i 0).val / 5000 < grid5.N := by omega
  obtain ⟨e00, e01, e10, e11, e20, e21, e30, e31, e40, e41, e50, e51, e60, e61⟩ := index_facts5 ⟨(i 0).val / 5000, ht⟩
  have e60' : win5_6.index ⟨(i 0).val / 5000, ht⟩ (0 : Fin 2) = (i 0).val / 5000 := e60
  refine ⟨⟨(i 0).val / 5000, ht⟩, flush5_6 _, ?_⟩
  rw [mem_block5]
  intro a
  match a with
  | ⟨0, _⟩ =>
    show win5_6.index ⟨(i 0).val / 5000, ht⟩ (0 : Fin 2) * 5000 ≤ (i 0).val
      ∧ (i 0).val < win5_6.index ⟨(i 0).val / 5000, ht⟩ (0 : Fin 2) * 5000 + 5000
    omega
  | ⟨1, _⟩ =>
    show win5_6.index ⟨(i 0).val / 5000, ht⟩ (1 : Fin 2) * 128 ≤ (i 1).val
      ∧ (i 1).val < win5_6.index ⟨(i 0).val / 5000, ht⟩ (1 : Fin 2) * 128 + 128
    omega

/-- THE OUTPUT ARRAY AFTER REGION 5: at row `r`, column `j`, the input's element there plus the bias, minus the
    running mean, times `g · rsqrt (var + ε)`, plus the shift, clamped below at zero — the parameters read in column `j`. -/
theorem normalize5 (c : Dev nD) : (dat5 V c).arrAt 6 cfg5.N = fun i =>
    FloatOps.maximumf (FloatOps.addf (FloatOps.mulf (FloatOps.subf (FloatOps.addf (V c (Pipeline.arrRef spec5 0) i)
      (V c (Pipeline.arrRef spec5 1) (col0 i))) (V c (Pipeline.arrRef spec5 4) (col0 i)))
      (FloatOps.mulf (V c (Pipeline.arrRef spec5 2) (col0 i)) (FloatOps.rsqrt (FloatOps.addf (V c (Pipeline.arrRef spec5 5) (col0 i))
        (Scalar.ofBits .f32 0x3727C5AC#32))))) (V c (Pipeline.arrRef spec5 3) (col0 i))) (Scalar.ofBits .f32 0x00000000#32) :=
  (dat5 V c).arrAt_eq_of_cover 6 (G5 V c) (fun t _ => flushed5_eq V c t) cover5

end Cert.KernelIdeal.RegionValue

end
-- ==== Proof.HostChain.lean ====
/-
  The host stretches of the idealized kernel program, read against the reference.

  Outside its seven regions the kernel program does on the host exactly what the reference does: it builds every
  edge's source index, target index and weight (degree by a scatter of ones, its inverse square root where the degree
  is positive, the product of the two endpoint values); in each layer it gathers the transformed rows at the sources,
  scales them by the edge weight and sums them at the targets; and at the end it sums the node rows of each graph and
  divides by the graph's node count. Each such stretch, run from contents that agree with the reference's earlier
  stages, leaves the reference's next stage: the two sides apply the same operations to the same operands, so the
  stretches are compared as whole functions and never opened. The parameter vectors of a layer enter its region
  reshaped to one-row matrices.
-/
import proofs.«129538_j62732292326002_1_alg».proof.Proof.PassThrough
import proofs.«129538_j62732292326002_1_alg».proof.Proof.RefRead

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first region: the edges -/

/-- Every edge's source index (the given edges, then one self-loop per node) is the reference's. -/
theorem row3 (c : Dev nD) : W3 m ρ c (Proc.devRef .tc main_v3) = Cert.ReferenceIdeal.ReadP.val_main_v3 (F := F) (m ((c.tc : Thread nD τ).loc main_arg1)) := by
  show StableHlo.after hostOps0_2 (StableHlo.after hostOps0_1 (StableHlo.after hostOps0 (W0 m ρ c))) (Proc.devRef .tc main_v3) = _
  after_results_simp
  rfl
theorem row4 (c : Dev nD) : W4 m ρ c (Proc.devRef .tc main_v3) = Cert.ReferenceIdeal.ReadP.val_main_v3 (F := F) (m ((c.tc : Thread nD τ).loc main_arg1)) := (Pass.row_keep3_4 m ρ c).trans (row3 m ρ c)
theorem row7 (c : Dev nD) : W7 m ρ c (Proc.devRef .tc main_v3) = Cert.ReferenceIdeal.ReadP.val_main_v3 (F := F) (m ((c.tc : Thread nD τ).loc main_arg1)) := (Pass.row_keep4_7 m ρ c).trans (row4 m ρ c)
theorem row10 (c : Dev nD) : W10 m ρ c (Proc.devRef .tc main_v3) = Cert.ReferenceIdeal.ReadP.val_main_v3 (F := F) (m ((c.tc : Thread nD τ).loc main_arg1)) := (Pass.row_keep7_10 m ρ c).trans (row7 m ρ c)

/-- Every edge's target index is the reference's. -/
theorem col3 (c : Dev nD) : W3 m ρ c (Proc.devRef .tc main_v6) = Cert.ReferenceIdeal.ReadP.val_main_v6 (F := F) (m ((c.tc : Thread nD τ).loc main_arg1)) := by
  show StableHlo.after hostOps0_2 (StableHlo.after hostOps0_1 (StableHlo.after hostOps0 (W0 m ρ c))) (Proc.devRef .tc main_v6) = _
  after_results_simp
  rfl
theorem col4 (c : Dev nD) : W4 m ρ c (Proc.devRef .tc main_v6) = Cert.ReferenceIdeal.ReadP.val_main_v6 (F := F) (m ((c.tc : Thread nD τ).loc main_arg1)) := (Pass.col_keep3_4 m ρ c).trans (col3 m ρ c)
theorem col7 (c : Dev nD) : W7 m ρ c (Proc.devRef .tc main_v6) = Cert.ReferenceIdeal.ReadP.val_main_v6 (F := F) (m ((c.tc : Thread nD τ).loc main_arg1)) := (Pass.col_keep4_7 m ρ c).trans (col4 m ρ c)
theorem col10 (c : Dev nD) : W10 m ρ c (Proc.devRef .tc main_v6) = Cert.ReferenceIdeal.ReadP.val_main_v6 (F := F) (m ((c.tc : Thread nD τ).loc main_arg1)) := (Pass.col_keep7_10 m ρ c).trans (col7 m ρ c)

set_option maxHeartbeats 2000000 in
/-- Every edge's weight, the product of the inverse square roots of its endpoints' degrees, is the reference's. -/
theorem norm3 (c : Dev nD) : W3 m ρ c (Proc.devRef .tc main_v30) = Cert.ReferenceIdeal.ReadP.val_main_v30 (F := F) (m ((c.tc : Thread nD τ).loc main_arg1)) := by
  show StableHlo.after hostOps0_2 (StableHlo.after hostOps0_1 (StableHlo.after hostOps0 (W0 m ρ c))) (Proc.devRef .tc main_v30) = _
  after_results_simp
  rfl
theorem norm4 (c : Dev nD) : W4 m ρ c (Proc.devRef .tc main_v30) = Cert.ReferenceIdeal.ReadP.val_main_v30 (F := F) (m ((c.tc : Thread nD τ).loc main_arg1)) := (Pass.norm_keep3_4 m ρ c).trans (norm3 m ρ c)
theorem norm7 (c : Dev nD) : W7 m ρ c (Proc.devRef .tc main_v30) = Cert.ReferenceIdeal.ReadP.val_main_v30 (F := F) (m ((c.tc : Thread nD τ).loc main_arg1)) := (Pass.norm_keep4_7 m ρ c).trans (norm4 m ρ c)
theorem norm10 (c : Dev nD) : W10 m ρ c (Proc.devRef .tc main_v30) = Cert.ReferenceIdeal.ReadP.val_main_v30 (F := F) (m ((c.tc : Thread nD τ).loc main_arg1)) := (Pass.norm_keep7_10 m ρ c).trans (norm7 m ρ c)

/-! ## The three message-passing stretches -/

set_option maxHeartbeats 2000000 in
/-- Layer 1: from transformed rows that are the reference's, gathering at the sources, scaling by the edge weight and summing at the targets leaves the reference's aggregate. -/
theorem gather_scale_sum1 (c : Dev nD) (h : W4 m ρ c (Proc.devRef .tc main_v31) = Cert.ReferenceIdeal.ReadP.val_main_v31 (F := F) (m ((c.tc : Thread nD τ).loc main_arg0)) (m ((c.tc : Thread nD τ).loc main_arg3))) :
    W5 m ρ c (Proc.devRef .tc main_v43) = Cert.ReferenceIdeal.ReadP.val_main_v43 (F := F) (m ((c.tc : Thread nD τ).loc main_arg0)) (m ((c.tc : Thread nD τ).loc main_arg1)) (m ((c.tc : Thread nD τ).loc main_arg3)) := by
  show StableHlo.after hostOps1 (W4 m ρ c) (Proc.devRef .tc main_v43) = _
  after_results_simp
  rw [h, row4 m ρ c, col4 m ρ c, norm4 m ρ c]
  rfl

set_option maxHeartbeats 2000000 in
/-- Layer 2: the same, from the second transform. -/
theorem gather_scale_sum2 (c : Dev nD) (h : W7 m ρ c (Proc.devRef .tc main_v50) = Cert.ReferenceIdeal.ReadP.val_main_v61 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12))) :
    W8 m ρ c (Proc.devRef .tc main_v62) = Cert.ReferenceIdeal.ReadP.val_main_v73 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12)) := by
  show StableHlo.after hostOps3 (W7 m ρ c) (Proc.devRef .tc main_v62) = _
  after_results_simp
  rw [h, row7 m ρ c, col7 m ρ c, norm7 m ρ c]
  rfl

set_option maxHeartbeats 2000000 in
/-- Layer 3: the same, from the third transform. -/
theorem gather_scale_sum3 (c : Dev nD) (h : W10 m ρ c (Proc.devRef .tc main_v69) = Cert.ReferenceIdeal.ReadP.val_main_v91 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) :
    W11 m ρ c (Proc.devRef .tc main_v81) = Cert.ReferenceIdeal.ReadP.val_main_v103 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  show StableHlo.after hostOps5 (W10 m ρ c) (Proc.devRef .tc main_v81) = _
  after_results_simp
  rw [h, row10 m ρ c, col10 m ρ c, norm10 m ρ c]
  rfl

/-! ## The parameter vectors as one-row matrices -/

/-- Layer 1's bias vector enters its region as a one-row matrix: the same entries, reshaped. -/
theorem bias1 (c : Dev nD) : W5 m ρ c (Proc.devRef .tc main_v44) = shapeCast S1x128 (m ((c.tc : Thread nD τ).loc main_arg4)) shapeCasts_S128_S1x128 := by
  show StableHlo.after hostOps1 (W4 m ρ c) (Proc.devRef .tc main_v44) = _
  after_results_simp
  rw [Pass.arg4_at4 m ρ c]
  rfl
/-- Layer 1's gain vector enters its region as a one-row matrix: the same entries, reshaped. -/
theorem gain1 (c : Dev nD) : W5 m ρ c (Proc.devRef .tc main_v45) = shapeCast S1x128 (m ((c.tc : Thread nD τ).loc main_arg9)) shapeCasts_S128_S1x128 := by
  show StableHlo.after hostOps1 (W4 m ρ c) (Proc.devRef .tc main_v45) = _
  after_results_simp
  rw [Pass.arg9_at4 m ρ c]
  rfl
/-- Layer 1's shift vector enters its region as a one-row matrix: the same entries, reshaped. -/
theorem shift1 (c : Dev nD) : W5 m ρ c (Proc.devRef .tc main_v46) = shapeCast S1x128 (m ((c.tc : Thread nD τ).loc main_arg10)) shapeCasts_S128_S1x128 := by
  show StableHlo.after hostOps1 (W4 m ρ c) (Proc.devRef .tc main_v46) = _
  after_results_simp
  rw [Pass.arg10_at4 m ρ c]
  rfl
/-- Layer 1's mean vector enters its region as a one-row matrix: the same entries, reshaped. -/
theorem mean1 (c : Dev nD) : W5 m ρ c (Proc.devRef .tc main_v47) = shapeCast S1x128 (m ((c.tc : Thread nD τ).loc main_arg11)) shapeCasts_S128_S1x128 := by
  show StableHlo.after hostOps1 (W4 m ρ c) (Proc.devRef .tc main_v47) = _
  after_results_simp
  rw [Pass.arg11_at4 m ρ c]
  rfl
/-- Layer 1's var vector enters its region as a one-row matrix: the same entries, reshaped. -/
theorem var1 (c : Dev nD) : W5 m ρ c (Proc.devRef .tc main_v48) = shapeCast S1x128 (m ((c.tc : Thread nD τ).loc main_arg12)) shapeCasts_S128_S1x128 := by
  show StableHlo.after hostOps1 (W4 m ρ c) (Proc.devRef .tc main_v48) = _
  after_results_simp
  rw [Pass.arg12_at4 m ρ c]
  rfl

/-- Layer 2's bias vector enters its region as a one-row matrix: the same entries, reshaped. -/
theorem bias2 (c : Dev nD) : W8 m ρ c (Proc.devRef .tc main_v63) = shapeCast S1x128 (m ((c.tc : Thread nD τ).loc main_arg6)) shapeCasts_S128_S1x128 := by
  show StableHlo.after hostOps3 (W7 m ρ c) (Proc.devRef .tc main_v63) = _
  after_results_simp
  rw [Pass.arg6_at7 m ρ c]
  rfl
/-- Layer 2's gain vector enters its region as a one-row matrix: the same entries, reshaped. -/
theorem gain2 (c : Dev nD) : W8 m ρ c (Proc.devRef .tc main_v64) = shapeCast S1x128 (m ((c.tc : Thread nD τ).loc main_arg13)) shapeCasts_S128_S1x128 := by
  show StableHlo.after hostOps3 (W7 m ρ c) (Proc.devRef .tc main_v64) = _
  after_results_simp
  rw [Pass.arg13_at7 m ρ c]
  rfl
/-- Layer 2's shift vector enters its region as a one-row matrix: the same entries, reshaped. -/
theorem shift2 (c : Dev nD) : W8 m ρ c (Proc.devRef .tc main_v65) = shapeCast S1x128 (m ((c.tc : Thread nD τ).loc main_arg14)) shapeCasts_S128_S1x128 := by
  show StableHlo.after hostOps3 (W7 m ρ c) (Proc.devRef .tc main_v65) = _
  after_results_simp
  rw [Pass.arg14_at7 m ρ c]
  rfl
/-- Layer 2's mean vector enters its region as a one-row matrix: the same entries, reshaped. -/
theorem mean2 (c : Dev nD) : W8 m ρ c (Proc.devRef .tc main_v66) = shapeCast S1x128 (m ((c.tc : Thread nD τ).loc main_arg15)) shapeCasts_S128_S1x128 := by
  show StableHlo.after hostOps3 (W7 m ρ c) (Proc.devRef .tc main_v66) = _
  after_results_simp
  rw [Pass.arg15_at7 m ρ c]
  rfl
/-- Layer 2's var vector enters its region as a one-row matrix: the same entries, reshaped. -/
theorem var2 (c : Dev nD) : W8 m ρ c (Proc.devRef .tc main_v67) = shapeCast S1x128 (m ((c.tc : Thread nD τ).loc main_arg16)) shapeCasts_S128_S1x128 := by
  show StableHlo.after hostOps3 (W7 m ρ c) (Proc.devRef .tc main_v67) = _
  after_results_simp
  rw [Pass.arg16_at7 m ρ c]
  rfl

/-- Layer 3's bias vector enters its region as a one-row matrix: the same entries, reshaped. -/
theorem bias3 (c : Dev nD) : W11 m ρ c (Proc.devRef .tc main_v82) = shapeCast S1x128 (m ((c.tc : Thread nD τ).loc main_arg8)) shapeCasts_S128_S1x128 := by
  show StableHlo.after hostOps5 (W10 m ρ c) (Proc.devRef .tc main_v82) = _
  after_results_simp
  rw [Pass.arg8_at10 m ρ c]
  rfl
/-- Layer 3's gain vector enters its region as a one-row matrix: the same entries, reshaped. -/
theorem gain3 (c : Dev nD) : W11 m ρ c (Proc.devRef .tc main_v83) = shapeCast S1x128 (m ((c.tc : Thread nD τ).loc main_arg17)) shapeCasts_S128_S1x128 := by
  show StableHlo.after hostOps5 (W10 m ρ c) (Proc.devRef .tc main_v83) = _
  after_results_simp
  rw [Pass.arg17_at10 m ρ c]
  rfl
/-- Layer 3's shift vector enters its region as a one-row matrix: the same entries, reshaped. -/
theorem shift3 (c : Dev nD) : W11 m ρ c (Proc.devRef .tc main_v84) = shapeCast S1x128 (m ((c.tc : Thread nD τ).loc main_arg18)) shapeCasts_S128_S1x128 := by
  show StableHlo.after hostOps5 (W10 m ρ c) (Proc.devRef .tc main_v84) = _
  after_results_simp
  rw [Pass.arg18_at10 m ρ c]
  rfl
/-- Layer 3's mean vector enters its region as a one-row matrix: the same entries, reshaped. -/
theorem mean3 (c : Dev nD) : W11 m ρ c (Proc.devRef .tc main_v85) = shapeCast S1x128 (m ((c.tc : Thread nD τ).loc main_arg19)) shapeCasts_S128_S1x128 := by
  show StableHlo.after hostOps5 (W10 m ρ c) (Proc.devRef .tc main_v85) = _
  after_results_simp
  rw [Pass.arg19_at10 m ρ c]
  rfl
/-- Layer 3's var vector enters its region as a one-row matrix: the same entries, reshaped. -/
theorem var3 (c : Dev nD) : W11 m ρ c (Proc.devRef .tc main_v86) = shapeCast S1x128 (m ((c.tc : Thread nD τ).loc main_arg20)) shapeCasts_S128_S1x128 := by
  show StableHlo.after hostOps5 (W10 m ρ c) (Proc.devRef .tc main_v86) = _
  after_results_simp
  rw [Pass.arg20_at10 m ρ c]
  rfl

/-! ## The mean over each graph -/

set_option maxHeartbeats 2000000 in
/-- From node rows that are the reference's, summing each graph's rows and dividing by its node count (at least one)
    leaves the reference's pooled rows. -/
theorem pooled (c : Dev nD) (h : W12 m ρ c (Proc.devRef .tc main_v87) = Cert.ReferenceIdeal.ReadP.val_main_v120 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) :
    W13 m ρ c (Proc.devRef .tc main_v99) = Cert.ReferenceIdeal.ReadP.val_main_v132 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  show StableHlo.after hostOps6 (W12 m ρ c) (Proc.devRef .tc main_v99) = _
  after_results_simp
  rw [h, Pass.arg2_at12 m ρ c]
  rfl

/-- The first head's hidden bias as a one-row matrix. -/
theorem headBias1a (c : Dev nD) : W13 m ρ c (Proc.devRef .tc main_v100) = shapeCast S1x64 (m ((c.tc : Thread nD τ).loc main_arg22)) shapeCasts_S64_S1x64 := by
  show StableHlo.after hostOps6 (W12 m ρ c) (Proc.devRef .tc main_v100) = _
  after_results_simp
  rw [Pass.arg22_at12 m ρ c]
  rfl
/-- The first head's output bias as a one-by-one matrix. -/
theorem headBias1b (c : Dev nD) : W13 m ρ c (Proc.devRef .tc main_v101) = shapeCast S1x1 (m ((c.tc : Thread nD τ).loc main_arg24)) shapeCasts_S1_S1x1 := by
  show StableHlo.after hostOps6 (W12 m ρ c) (Proc.devRef .tc main_v101) = _
  after_results_simp
  rw [Pass.arg24_at12 m ρ c]
  rfl
/-- The second head's hidden bias as a one-row matrix. -/
theorem headBias2a (c : Dev nD) : W13 m ρ c (Proc.devRef .tc main_v102) = shapeCast S1x64 (m ((c.tc : Thread nD τ).loc main_arg26)) shapeCasts_S64_S1x64 := by
  show StableHlo.after hostOps6 (W12 m ρ c) (Proc.devRef .tc main_v102) = _
  after_results_simp
  rw [Pass.arg26_at12 m ρ c]
  rfl
/-- The second head's output bias as a one-by-one matrix. -/
theorem headBias2b (c : Dev nD) : W13 m ρ c (Proc.devRef .tc main_v103) = shapeCast S1x1 (m ((c.tc : Thread nD τ).loc main_arg28)) shapeCasts_S1_S1x1 := by
  show StableHlo.after hostOps6 (W12 m ρ c) (Proc.devRef .tc main_v103) = _
  after_results_simp
  rw [Pass.arg28_at12 m ρ c]
  rfl

end Cert.KernelIdeal.Chain

end
-- ==== Proof.Normalizes.lean ====
/-
  The three bias, batch-norm and ReLU regions against the reference's elementwise stages.

  At every index (r, j) the region's output is max(((h(r,j) + b(j)) - mean(j)) * (g(j) * rsqrt(var(j) + eps)) + shift(j), 0)
  with the layer's parameter vectors read at the column j; the reference computes the scale g * rsqrt(var + eps) on the
  vectors first and then broadcasts, which reads the same entries. The kernel's rsqrt and the host's rsqrt are one
  function on the extended reals, and the two sides apply the same additions, subtraction, products and maximum in the
  same order, so nothing beyond reading each side at the index is needed.
-/
import proofs.«129538_j62732292326002_1_alg».proof.Proof.NormalizeRegions
import proofs.«129538_j62732292326002_1_alg».proof.Proof.HostChain

set_option maxRecDepth 16384

noncomputable section

namespace Cert.KernelIdeal.Bridge

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- A vector reshaped to a one-row matrix, read at row zero and the column of an array index, is the vector at any
    index whose one coordinate is that column. -/
theorem row_of_vec (x : S128.Idx → Elt Ideal .f32) (i : S100000x128.Idx) (J : S128.Idx) (hJ : (J 0).val = (i 1).val) :
    shapeCast S1x128 x shapeCasts_S128_S1x128 (RegionValue.col0 i) = x J := by
  obtain ⟨r, j, rfl⟩ : ∃ (r : Fin 100000) (j : Fin 128), i = ValueIdx.ix2 r j := ⟨i 0, i 1, ValueIdx.eq_ix2 i⟩
  rw [RegionValue.col0_ix2]
  refine (ValueIdx.shapeCast_a_1a_apply x shapeCasts_S128_S1x128 (0 : Fin 1) j).trans (congrArg x ?_)
  funext a
  match a with
  | ⟨0, _⟩ => exact Fin.ext hJ.symm

/-- Layer 1, over arrays as variables: when the aggregate is the reference's and the five one-row parameter
    matrices are the layer's parameter vectors reshaped, the region's elementwise formula is the reference's layer output:
    at an index both add the bias, subtract the mean, scale by gain times rsqrt of variance plus epsilon, add the shift
    and clamp at zero, reading each parameter at the index's column. -/
theorem layer1_formula (x0 : (⟨Cert.ReferenceIdeal.S100000x22, .f32⟩ : BufTy).Contents (Elt Ideal)) (x1 : (⟨Cert.ReferenceIdeal.S2x1600000, .i32⟩ : BufTy).Contents (Elt Ideal)) (x3 : (⟨Cert.ReferenceIdeal.S22x128, .f32⟩ : BufTy).Contents (Elt Ideal)) (x4 : (⟨Cert.ReferenceIdeal.S128, .f32⟩ : BufTy).Contents (Elt Ideal)) (x9 : (⟨Cert.ReferenceIdeal.S128, .f32⟩ : BufTy).Contents (Elt Ideal)) (x10 : (⟨Cert.ReferenceIdeal.S128, .f32⟩ : BufTy).Contents (Elt Ideal)) (x11 : (⟨Cert.ReferenceIdeal.S128, .f32⟩ : BufTy).Contents (Elt Ideal)) (x12 : (⟨Cert.ReferenceIdeal.S128, .f32⟩ : BufTy).Contents (Elt Ideal))
    (H : S100000x128.Idx → Elt Ideal .f32) (B G BE MU VA : S1x128.Idx → Elt Ideal .f32)
    (hH : H = Cert.ReferenceIdeal.ReadP.val_main_v43 (F := Ideal) x0 x1 x3)
    (hB : B = shapeCast S1x128 x4 shapeCasts_S128_S1x128) (hG : G = shapeCast S1x128 x9 shapeCasts_S128_S1x128)
    (hBE : BE = shapeCast S1x128 x10 shapeCasts_S128_S1x128) (hMU : MU = shapeCast S1x128 x11 shapeCasts_S128_S1x128)
    (hVA : VA = shapeCast S1x128 x12 shapeCasts_S128_S1x128) :
    ((fun i => FloatOps.maximumf (F := Ideal) (φ := .f32) (FloatOps.addf (F := Ideal) (φ := .f32) (FloatOps.mulf (F := Ideal) (φ := .f32) (FloatOps.subf (F := Ideal) (φ := .f32) (FloatOps.addf (F := Ideal) (φ := .f32) (H i) (B (RegionValue.col0 i))) (MU (RegionValue.col0 i)))
      (FloatOps.mulf (F := Ideal) (φ := .f32) (G (RegionValue.col0 i)) (FloatOps.rsqrt (F := Ideal) (φ := .f32) (FloatOps.addf (F := Ideal) (φ := .f32) (VA (RegionValue.col0 i)) (Scalar.ofBits (F := Ideal) .f32 0x3727C5AC#32)))))
      (BE (RegionValue.col0 i))) (Scalar.ofBits (F := Ideal) .f32 0x00000000#32)) : S100000x128.Idx → Elt Ideal .f32)
      = Cert.ReferenceIdeal.ReadP.val_main_v60 (F := Ideal) x0 x1 x3 x4 x9 x10 x11 x12 := by
  subst hH hB hG hBE hMU hVA
  funext i
  rw [Cert.ReferenceIdeal.ReadP.val_main_v60_apply, Cert.ReferenceIdeal.ReadP.val_main_v59_apply, Cert.ReferenceIdeal.ReadP.val_main_v56_apply, Cert.ReferenceIdeal.ReadP.val_main_v49_apply, Cert.ReferenceIdeal.ReadP.val_main_v46_apply, Cert.ReferenceIdeal.ReadP.val_main_v45_apply, Cert.ReferenceIdeal.ReadP.val_main_v44_apply, Cert.ReferenceIdeal.ReadP.val_main_v48_apply, Cert.ReferenceIdeal.ReadP.val_main_v47_apply,
    Cert.ReferenceIdeal.ReadP.val_main_v55_apply, Cert.ReferenceIdeal.ReadP.val_main_v54_apply, Cert.ReferenceIdeal.ReadP.val_main_v53_apply, Cert.ReferenceIdeal.ReadP.val_main_v52_apply, Cert.ReferenceIdeal.ReadP.val_main_v51_apply, Cert.ReferenceIdeal.ReadP.val_main_v50_apply, Cert.ReferenceIdeal.ReadP.val_main_cst_9_apply,
    Cert.ReferenceIdeal.ReadP.val_main_v58_apply, Cert.ReferenceIdeal.ReadP.val_main_v57_apply, Cert.ReferenceIdeal.ReadP.val_main_call1_v0_apply, Cert.ReferenceIdeal.ReadP.val_main_call1_cst_apply]
  rw [row_of_vec x4 i (Cert.ReferenceIdeal.ReadP.idx_main_v44 (Cert.ReferenceIdeal.ReadP.idx_main_v45 i)) rfl,
    row_of_vec x11 i (Cert.ReferenceIdeal.ReadP.idx_main_v47 (Cert.ReferenceIdeal.ReadP.idx_main_v48 i)) rfl,
    row_of_vec x9 i (Cert.ReferenceIdeal.ReadP.idx_main_v54 (Cert.ReferenceIdeal.ReadP.idx_main_v55 i)) rfl,
    row_of_vec x12 i (Cert.ReferenceIdeal.ReadP.idx_main_v54 (Cert.ReferenceIdeal.ReadP.idx_main_v55 i)) rfl,
    row_of_vec x10 i (Cert.ReferenceIdeal.ReadP.idx_main_v57 (Cert.ReferenceIdeal.ReadP.idx_main_v58 i)) rfl]
  simp only [Ideal.rsqrt_def, Ideal.hostUnary_rsqrt_def]

/-- Layer 1: from an aggregate that is the reference's, the region leaves the reference's layer output. -/
theorem normalize1_is (c : Dev nD) (h : W5 m ρ c (Proc.devRef .tc main_v43) = Cert.ReferenceIdeal.ReadP.val_main_v43 (F := Ideal) (m ((c.tc : Thread nD τ).loc main_arg0)) (m ((c.tc : Thread nD τ).loc main_arg1)) (m ((c.tc : Thread nD τ).loc main_arg3))) :
    W6 m ρ c (Proc.devRef .tc main_v49) = Cert.ReferenceIdeal.ReadP.val_main_v60 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)) (m ((c.tc : Thread nD τ).loc main_arg12)) :=
  (W6_arr m ρ c 6).trans ((RegionValue.normalize1 (V5 m ρ) c).trans
    (layer1_formula (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)) (m ((c.tc : Thread nD τ).loc main_arg12))
      (V5 m ρ c (Pipeline.arrRef spec1 0)) (V5 m ρ c (Pipeline.arrRef spec1 1)) (V5 m ρ c (Pipeline.arrRef spec1 2))
      (V5 m ρ c (Pipeline.arrRef spec1 3)) (V5 m ρ c (Pipeline.arrRef spec1 4)) (V5 m ρ c (Pipeline.arrRef spec1 5))
      h (Chain.bias1 m ρ c) (Chain.gain1 m ρ c) (Chain.shift1 m ρ c) (Chain.mean1 m ρ c) (Chain.var1 m ρ c)))

/-- Layer 2, over arrays as variables: when the aggregate is the reference's and the five one-row parameter
    matrices are the layer's parameter vectors reshaped, the region's elementwise formula is the reference's layer output:
    at an index both add the bias, subtract the mean, scale by gain times rsqrt of variance plus epsilon, add the shift
    and clamp at zero, reading each parameter at the index's column. -/
theorem layer2_formula (x0 : (⟨Cert.ReferenceIdeal.S100000x22, .f32⟩ : BufTy).Contents (Elt Ideal)) (x1 : (⟨Cert.ReferenceIdeal.S2x1600000, .i32⟩ : BufTy).Contents (Elt Ideal)) (x3 : (⟨Cert.ReferenceIdeal.S22x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x9 : (⟨Cert.ReferenceIdeal.S128, .f32⟩ : BufTy).Contents (Elt Ideal)) (x10 : (⟨Cert.ReferenceIdeal.S128, .f32⟩ : BufTy).Contents (Elt Ideal)) (x11 : (⟨Cert.ReferenceIdeal.S128, .f32⟩ : BufTy).Contents (Elt Ideal)) (x12 : (⟨Cert.ReferenceIdeal.S128, .f32⟩ : BufTy).Contents (Elt Ideal)) (x13 : (⟨Cert.ReferenceIdeal.S128, .f32⟩ : BufTy).Contents (Elt Ideal)) (x14 : (⟨Cert.ReferenceIdeal.S128, .f32⟩ : BufTy).Contents (Elt Ideal)) (x15 : (⟨Cert.ReferenceIdeal.S128, .f32⟩ : BufTy).Contents (Elt Ideal)) (x16 : (⟨Cert.ReferenceIdeal.S128, .f32⟩ : BufTy).Contents (Elt Ideal))
    (H : S100000x128.Idx → Elt Ideal .f32) (B G BE MU VA : S1x128.Idx → Elt Ideal .f32)
    (hH : H = Cert.ReferenceIdeal.ReadP.val_main_v73 (F := Ideal) x0 x1 x3 x4 x5 x9 x10 x11 x12)
    (hB : B = shapeCast S1x128 x6 shapeCasts_S128_S1x128) (hG : G = shapeCast S1x128 x13 shapeCasts_S128_S1x128)
    (hBE : BE = shapeCast S1x128 x14 shapeCasts_S128_S1x128) (hMU : MU = shapeCast S1x128 x15 shapeCasts_S128_S1x128)
    (hVA : VA = shapeCast S1x128 x16 shapeCasts_S128_S1x128) :
    ((fun i => FloatOps.maximumf (F := Ideal) (φ := .f32) (FloatOps.addf (F := Ideal) (φ := .f32) (FloatOps.mulf (F := Ideal) (φ := .f32) (FloatOps.subf (F := Ideal) (φ := .f32) (FloatOps.addf (F := Ideal) (φ := .f32) (H i) (B (RegionValue.col0 i))) (MU (RegionValue.col0 i)))
      (FloatOps.mulf (F := Ideal) (φ := .f32) (G (RegionValue.col0 i)) (FloatOps.rsqrt (F := Ideal) (φ := .f32) (FloatOps.addf (F := Ideal) (φ := .f32) (VA (RegionValue.col0 i)) (Scalar.ofBits (F := Ideal) .f32 0x3727C5AC#32)))))
      (BE (RegionValue.col0 i))) (Scalar.ofBits (F := Ideal) .f32 0x00000000#32)) : S100000x128.Idx → Elt Ideal .f32)
      = Cert.ReferenceIdeal.ReadP.val_main_v90 (F := Ideal) x0 x1 x3 x4 x5 x6 x9 x10 x11 x12 x13 x14 x15 x16 := by
  subst hH hB hG hBE hMU hVA
  funext i
  rw [Cert.ReferenceIdeal.ReadP.val_main_v90_apply, Cert.ReferenceIdeal.ReadP.val_main_v89_apply, Cert.ReferenceIdeal.ReadP.val_main_v86_apply, Cert.ReferenceIdeal.ReadP.val_main_v79_apply, Cert.ReferenceIdeal.ReadP.val_main_v76_apply, Cert.ReferenceIdeal.ReadP.val_main_v75_apply, Cert.ReferenceIdeal.ReadP.val_main_v74_apply, Cert.ReferenceIdeal.ReadP.val_main_v78_apply, Cert.ReferenceIdeal.ReadP.val_main_v77_apply,
    Cert.ReferenceIdeal.ReadP.val_main_v85_apply, Cert.ReferenceIdeal.ReadP.val_main_v84_apply, Cert.ReferenceIdeal.ReadP.val_main_v83_apply, Cert.ReferenceIdeal.ReadP.val_main_v82_apply, Cert.ReferenceIdeal.ReadP.val_main_v81_apply, Cert.ReferenceIdeal.ReadP.val_main_v80_apply, Cert.ReferenceIdeal.ReadP.val_main_cst_13_apply,
    Cert.ReferenceIdeal.ReadP.val_main_v88_apply, Cert.ReferenceIdeal.ReadP.val_main_v87_apply, Cert.ReferenceIdeal.ReadP.val_main_call2_v0_apply, Cert.ReferenceIdeal.ReadP.val_main_call2_cst_apply]
  rw [row_of_vec x6 i (Cert.ReferenceIdeal.ReadP.idx_main_v74 (Cert.ReferenceIdeal.ReadP.idx_main_v75 i)) rfl,
    row_of_vec x15 i (Cert.ReferenceIdeal.ReadP.idx_main_v77 (Cert.ReferenceIdeal.ReadP.idx_main_v78 i)) rfl,
    row_of_vec x13 i (Cert.ReferenceIdeal.ReadP.idx_main_v84 (Cert.ReferenceIdeal.ReadP.idx_main_v85 i)) rfl,
    row_of_vec x16 i (Cert.ReferenceIdeal.ReadP.idx_main_v84 (Cert.ReferenceIdeal.ReadP.idx_main_v85 i)) rfl,
    row_of_vec x14 i (Cert.ReferenceIdeal.ReadP.idx_main_v87 (Cert.ReferenceIdeal.ReadP.idx_main_v88 i)) rfl]
  simp only [Ideal.rsqrt_def, Ideal.hostUnary_rsqrt_def]

/-- Layer 2: from an aggregate that is the reference's, the region leaves the reference's layer output. -/
theorem normalize2_is (c : Dev nD) (h : W8 m ρ c (Proc.devRef .tc main_v62) = Cert.ReferenceIdeal.ReadP.val_main_v73 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12))) :
    W9 m ρ c (Proc.devRef .tc main_v68) = Cert.ReferenceIdeal.ReadP.val_main_v90 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  (W9_arr m ρ c 6).trans ((RegionValue.normalize3 (V8 m ρ) c).trans
    (layer2_formula (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      (V8 m ρ c (Pipeline.arrRef spec3 0)) (V8 m ρ c (Pipeline.arrRef spec3 1)) (V8 m ρ c (Pipeline.arrRef spec3 2))
      (V8 m ρ c (Pipeline.arrRef spec3 3)) (V8 m ρ c (Pipeline.arrRef spec3 4)) (V8 m ρ c (Pipeline.arrRef spec3 5))
      h (Chain.bias2 m ρ c) (Chain.gain2 m ρ c) (Chain.shift2 m ρ c) (Chain.mean2 m ρ c) (Chain.var2 m ρ c)))

/-- Layer 3, over arrays as variables: when the aggregate is the reference's and the five one-row parameter
    matrices are the layer's parameter vectors reshaped, the region's elementwise formula is the reference's layer output:
    at an index both add the bias, subtract the mean, scale by gain times rsqrt of variance plus epsilon, add the shift
    and clamp at zero, reading each parameter at the index's column. -/
theorem layer3_formula (x0 : (⟨Cert.ReferenceIdeal.S100000x22, .f32⟩ : BufTy).Contents (Elt Ideal)) (x1 : (⟨Cert.ReferenceIdeal.S2x1600000, .i32⟩ : BufTy).Contents (Elt Ideal)) (x3 : (⟨Cert.ReferenceIdeal.S22x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal)) (x9 : (⟨Cert.ReferenceIdeal.S128, .f32⟩ : BufTy).Contents (Elt Ideal)) (x10 : (⟨Cert.ReferenceIdeal.S128, .f32⟩ : BufTy).Contents (Elt Ideal)) (x11 : (⟨Cert.ReferenceIdeal.S128, .f32⟩ : BufTy).Contents (Elt Ideal)) (x12 : (⟨Cert.ReferenceIdeal.S128, .f32⟩ : BufTy).Contents (Elt Ideal)) (x13 : (⟨Cert.ReferenceIdeal.S128, .f32⟩ : BufTy).Contents (Elt Ideal)) (x14 : (⟨Cert.ReferenceIdeal.S128, .f32⟩ : BufTy).Contents (Elt Ideal)) (x15 : (⟨Cert.ReferenceIdeal.S128, .f32⟩ : BufTy).Contents (Elt Ideal)) (x16 : (⟨Cert.ReferenceIdeal.S128, .f32⟩ : BufTy).Contents (Elt Ideal)) (x17 : (⟨Cert.ReferenceIdeal.S128, .f32⟩ : BufTy).Contents (Elt Ideal)) (x18 : (⟨Cert.ReferenceIdeal.S128, .f32⟩ : BufTy).Contents (Elt Ideal)) (x19 : (⟨Cert.ReferenceIdeal.S128, .f32⟩ : BufTy).Contents (Elt Ideal)) (x20 : (⟨Cert.ReferenceIdeal.S128, .f32⟩ : BufTy).Contents (Elt Ideal))
    (H : S100000x128.Idx → Elt Ideal .f32) (B G BE MU VA : S1x128.Idx → Elt Ideal .f32)
    (hH : H = Cert.ReferenceIdeal.ReadP.val_main_v103 (F := Ideal) x0 x1 x3 x4 x5 x6 x7 x9 x10 x11 x12 x13 x14 x15 x16)
    (hB : B = shapeCast S1x128 x8 shapeCasts_S128_S1x128) (hG : G = shapeCast S1x128 x17 shapeCasts_S128_S1x128)
    (hBE : BE = shapeCast S1x128 x18 shapeCasts_S128_S1x128) (hMU : MU = shapeCast S1x128 x19 shapeCasts_S128_S1x128)
    (hVA : VA = shapeCast S1x128 x20 shapeCasts_S128_S1x128) :
    ((fun i => FloatOps.maximumf (F := Ideal) (φ := .f32) (FloatOps.addf (F := Ideal) (φ := .f32) (FloatOps.mulf (F := Ideal) (φ := .f32) (FloatOps.subf (F := Ideal) (φ := .f32) (FloatOps.addf (F := Ideal) (φ := .f32) (H i) (B (RegionValue.col0 i))) (MU (RegionValue.col0 i)))
      (FloatOps.mulf (F := Ideal) (φ := .f32) (G (RegionValue.col0 i)) (FloatOps.rsqrt (F := Ideal) (φ := .f32) (FloatOps.addf (F := Ideal) (φ := .f32) (VA (RegionValue.col0 i)) (Scalar.ofBits (F := Ideal) .f32 0x3727C5AC#32)))))
      (BE (RegionValue.col0 i))) (Scalar.ofBits (F := Ideal) .f32 0x00000000#32)) : S100000x128.Idx → Elt Ideal .f32)
      = Cert.ReferenceIdeal.ReadP.val_main_v120 (F := Ideal) x0 x1 x3 x4 x5 x6 x7 x8 x9 x10 x11 x12 x13 x14 x15 x16 x17 x18 x19 x20 := by
  subst hH hB hG hBE hMU hVA
  funext i
  rw [Cert.ReferenceIdeal.ReadP.val_main_v120_apply, Cert.ReferenceIdeal.ReadP.val_main_v119_apply, Cert.ReferenceIdeal.ReadP.val_main_v116_apply, Cert.ReferenceIdeal.ReadP.val_main_v109_apply, Cert.ReferenceIdeal.ReadP.val_main_v106_apply, Cert.ReferenceIdeal.ReadP.val_main_v105_apply, Cert.ReferenceIdeal.ReadP.val_main_v104_apply, Cert.ReferenceIdeal.ReadP.val_main_v108_apply, Cert.ReferenceIdeal.ReadP.val_main_v107_apply,
    Cert.ReferenceIdeal.ReadP.val_main_v115_apply, Cert.ReferenceIdeal.ReadP.val_main_v114_apply, Cert.ReferenceIdeal.ReadP.val_main_v113_apply, Cert.ReferenceIdeal.ReadP.val_main_v112_apply, Cert.ReferenceIdeal.ReadP.val_main_v111_apply, Cert.ReferenceIdeal.ReadP.val_main_v110_apply, Cert.ReferenceIdeal.ReadP.val_main_cst_17_apply,
    Cert.ReferenceIdeal.ReadP.val_main_v118_apply, Cert.ReferenceIdeal.ReadP.val_main_v117_apply, Cert.ReferenceIdeal.ReadP.val_main_call3_v0_apply, Cert.ReferenceIdeal.ReadP.val_main_call3_cst_apply]
  rw [row_of_vec x8 i (Cert.ReferenceIdeal.ReadP.idx_main_v104 (Cert.ReferenceIdeal.ReadP.idx_main_v105 i)) rfl,
    row_of_vec x19 i (Cert.ReferenceIdeal.ReadP.idx_main_v107 (Cert.ReferenceIdeal.ReadP.idx_main_v108 i)) rfl,
    row_of_vec x17 i (Cert.ReferenceIdeal.ReadP.idx_main_v114 (Cert.ReferenceIdeal.ReadP.idx_main_v115 i)) rfl,
    row_of_vec x20 i (Cert.ReferenceIdeal.ReadP.idx_main_v114 (Cert.ReferenceIdeal.ReadP.idx_main_v115 i)) rfl,
    row_of_vec x18 i (Cert.ReferenceIdeal.ReadP.idx_main_v117 (Cert.ReferenceIdeal.ReadP.idx_main_v118 i)) rfl]
  simp only [Ideal.rsqrt_def, Ideal.hostUnary_rsqrt_def]

/-- Layer 3: from an aggregate that is the reference's, the region leaves the reference's layer output. -/
theorem normalize3_is (c : Dev nD) (h : W11 m ρ c (Proc.devRef .tc main_v81) = Cert.ReferenceIdeal.ReadP.val_main_v103 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) :
    W12 m ρ c (Proc.devRef .tc main_v87) = Cert.ReferenceIdeal.ReadP.val_main_v120 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  (W12_arr m ρ c 6).trans ((RegionValue.normalize5 (V11 m ρ) c).trans
    (layer3_formula (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      (V11 m ρ c (Pipeline.arrRef spec5 0)) (V11 m ρ c (Pipeline.arrRef spec5 1)) (V11 m ρ c (Pipeline.arrRef spec5 2))
      (V11 m ρ c (Pipeline.arrRef spec5 3)) (V11 m ρ c (Pipeline.arrRef spec5 4)) (V11 m ρ c (Pipeline.arrRef spec5 5))
      h (Chain.bias3 m ρ c) (Chain.gain3 m ρ c) (Chain.shift3 m ρ c) (Chain.mean3 m ρ c) (Chain.var3 m ρ c)))

end Cert.KernelIdeal.Bridge

end
-- ==== Proof.HeadsRegion.lean ====
import proofs.«129538_j62732292326002_1_alg».proof.Proof.Gen.KernelIdeal.Frame
import Idealize.ShloMosaic.Lib.ValueLayout
import Idealize.ShloMosaic.PureOps.Ideal.Laws

/-!
# The two small heads: the region's output arrays as functions of its input arrays

Both heads are the same two-layer perceptron on the pooled rows, with their own weights:
at row `r`, `( Σ_j max( (Σ_k pooled (r,k) · W1 (k,j)) + b1 (0,j), 0 ) · W2 (j,0) ) + b2 (0,0)`.
At the ideal values a narrowing to bf16 is the identity and a matrix product into a zero accumulator is the plain sum
over the contracted axis, so each output array is this expression of the input arrays, index by index.
-/

set_option maxRecDepth 16384

noncomputable section

namespace Cert.KernelIdeal.RegionValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## The indices the expression reads -/

/-- `(r, k)` of the pooled rows, `r` the output row. -/
abbrev ixPooled (i : S256x1.Idx) (k : Fin 128) : S256x128.Idx := fun a => match a with
  | ⟨0, _⟩ => ⟨(i 0).val, (i 0).isLt⟩
  | ⟨1, _⟩ => ⟨k.val, k.isLt⟩

/-- `(k, j)` of a first-layer weight matrix. -/
abbrev ixW1 (k : Fin 128) (j : Fin 64) : S128x64.Idx := fun a => match a with
  | ⟨0, _⟩ => ⟨k.val, k.isLt⟩
  | ⟨1, _⟩ => ⟨j.val, j.isLt⟩

/-- `(0, j)` of a first-layer bias row. -/
abbrev ixB1 (j : Fin 64) : S1x64.Idx := fun a => match a with
  | ⟨0, _⟩ => ⟨0, Nat.one_pos⟩
  | ⟨1, _⟩ => ⟨j.val, j.isLt⟩

/-- `(j, 0)` of a second-layer weight column. -/
abbrev ixW2 (j : Fin 64) : S64x1.Idx := fun a => match a with
  | ⟨0, _⟩ => ⟨j.val, j.isLt⟩
  | ⟨1, _⟩ => ⟨0, Nat.one_pos⟩

/-- `(0, 0)` of a second-layer bias. -/
abbrev ixB2 : S1x1.Idx := fun a => match a with
  | ⟨0, _⟩ => ⟨0, Nat.one_pos⟩
  | ⟨1, _⟩ => ⟨0, Nat.one_pos⟩

/-- `(r, j)` of the hidden layer, `r` the output row. -/
abbrev ixHidden (i : S256x1.Idx) (j : Fin 64) : S256x64.Idx := fun a => match a with
  | ⟨0, _⟩ => ⟨(i 0).val, (i 0).isLt⟩
  | ⟨1, _⟩ => ⟨j.val, j.isLt⟩

/-! ## The two matrix products at an index -/

theorem first_lhs_row (i : S256x64.Idx) (q : dot_S256x128_S128x64_S256x64_1_0_0_1_n_n.contr.Idx) :
    (dot_S256x128_S128x64_S256x64_1_0_0_1_n_n.lhsIdx i q 0).val = (i 0).val := by
  unfold DotDims.lhsIdx
  rw [dif_neg (show ¬(0 : Fin S256x128.rank) ∈ dot_S256x128_S128x64_S256x64_1_0_0_1_n_n.lhsBatch by decide), dif_pos (show (0 : Fin S256x128.rank) ∈ dot_S256x128_S128x64_S256x64_1_0_0_1_n_n.lhsNonContracting by decide)]
  rfl
theorem first_lhs_col (i : S256x64.Idx) (q : dot_S256x128_S128x64_S256x64_1_0_0_1_n_n.contr.Idx) :
    (dot_S256x128_S128x64_S256x64_1_0_0_1_n_n.lhsIdx i q 1).val = (q ⟨0, by decide⟩).val :=
  dot_S256x128_S128x64_S256x64_1_0_0_1_n_n.lhsIdx_val_of_single rfl i q
theorem first_rhs_row (i : S256x64.Idx) (q : dot_S256x128_S128x64_S256x64_1_0_0_1_n_n.contr.Idx) :
    (dot_S256x128_S128x64_S256x64_1_0_0_1_n_n.rhsIdx i q 0).val = (q ⟨0, by decide⟩).val :=
  dot_S256x128_S128x64_S256x64_1_0_0_1_n_n.rhsIdx_val_of_single rfl i q
theorem first_rhs_col (i : S256x64.Idx) (q : dot_S256x128_S128x64_S256x64_1_0_0_1_n_n.contr.Idx) :
    (dot_S256x128_S128x64_S256x64_1_0_0_1_n_n.rhsIdx i q 1).val = (i 1).val := by
  unfold DotDims.rhsIdx
  rw [dif_neg (show ¬(1 : Fin S128x64.rank) ∈ dot_S256x128_S128x64_S256x64_1_0_0_1_n_n.rhsBatch by decide), dif_pos (show (1 : Fin S128x64.rank) ∈ dot_S256x128_S128x64_S256x64_1_0_0_1_n_n.rhsNonContracting by decide)]
  rfl

/-- The first layer's product at `(r, j)`: the sum over the 128 pooled features. -/
theorem first_product_apply (x : FVec Ideal S256x128 .bf16) (y : FVec Ideal S128x64 .bf16) (i : S256x1.Idx) (j : Fin 64) :
    matmul dot_S256x128_S128x64_S256x64_1_0_0_1_n_n none x y (constant (F := Ideal) S256x64 .f32 0x00000000#32) (ixHidden i j)
      = ∑ k : Fin 128, x (ixPooled i k) * y (ixW1 k j) := by
  simp only [matmul]
  rw [Ideal.matmul_constant_zero_apply, ← Equiv.sum_comp (ValueIdx.contrEquiv1 dot_S256x128_S128x64_S256x64_1_0_0_1_n_n 128 rfl rfl).symm]
  refine Finset.sum_congr rfl fun k _ => ?_
  have hk := ValueIdx.contrEquiv1_symm_val dot_S256x128_S128x64_S256x64_1_0_0_1_n_n 128 rfl rfl k
  have el : dot_S256x128_S128x64_S256x64_1_0_0_1_n_n.lhsIdx (ixHidden i j) ((ValueIdx.contrEquiv1 dot_S256x128_S128x64_S256x64_1_0_0_1_n_n 128 rfl rfl).symm k) = ixPooled i k := funext fun a => Fin.ext (by
    match a with
    | ⟨0, _⟩ => exact first_lhs_row _ _
    | ⟨1, _⟩ => exact (first_lhs_col _ _).trans hk)
  have er : dot_S256x128_S128x64_S256x64_1_0_0_1_n_n.rhsIdx (ixHidden i j) ((ValueIdx.contrEquiv1 dot_S256x128_S128x64_S256x64_1_0_0_1_n_n 128 rfl rfl).symm k) = ixW1 k j := funext fun a => Fin.ext (by
    match a with
    | ⟨0, _⟩ => exact (first_rhs_row _ _).trans hk
    | ⟨1, _⟩ => exact first_rhs_col _ _)
  rw [el, er]

theorem second_lhs_row (i : S256x1.Idx) (q : dot_S256x64_S64x1_S256x1_1_0_0_1_n_n.contr.Idx) :
    (dot_S256x64_S64x1_S256x1_1_0_0_1_n_n.lhsIdx i q 0).val = (i 0).val := by
  unfold DotDims.lhsIdx
  rw [dif_neg (show ¬(0 : Fin S256x64.rank) ∈ dot_S256x64_S64x1_S256x1_1_0_0_1_n_n.lhsBatch by decide), dif_pos (show (0 : Fin S256x64.rank) ∈ dot_S256x64_S64x1_S256x1_1_0_0_1_n_n.lhsNonContracting by decide)]
  rfl
theorem second_lhs_col (i : S256x1.Idx) (q : dot_S256x64_S64x1_S256x1_1_0_0_1_n_n.contr.Idx) :
    (dot_S256x64_S64x1_S256x1_1_0_0_1_n_n.lhsIdx i q 1).val = (q ⟨0, by decide⟩).val :=
  dot_S256x64_S64x1_S256x1_1_0_0_1_n_n.lhsIdx_val_of_single rfl i q
theorem second_rhs_row (i : S256x1.Idx) (q : dot_S256x64_S64x1_S256x1_1_0_0_1_n_n.contr.Idx) :
    (dot_S256x64_S64x1_S256x1_1_0_0_1_n_n.rhsIdx i q 0).val = (q ⟨0, by decide⟩).val :=
  dot_S256x64_S64x1_S256x1_1_0_0_1_n_n.rhsIdx_val_of_single rfl i q
theorem second_rhs_col (i : S256x1.Idx) (q : dot_S256x64_S64x1_S256x1_1_0_0_1_n_n.contr.Idx) :
    (dot_S256x64_S64x1_S256x1_1_0_0_1_n_n.rhsIdx i q 1).val = (i 1).val := by
  unfold DotDims.rhsIdx
  rw [dif_neg (show ¬(1 : Fin S64x1.rank) ∈ dot_S256x64_S64x1_S256x1_1_0_0_1_n_n.rhsBatch by decide), dif_pos (show (1 : Fin S64x1.rank) ∈ dot_S256x64_S64x1_S256x1_1_0_0_1_n_n.rhsNonContracting by decide)]
  rfl

/-- The second layer's product at row `r`: the sum over the 64 hidden units. -/
theorem second_product_apply (x : FVec Ideal S256x64 .bf16) (y : FVec Ideal S64x1 .bf16) (i : S256x1.Idx) :
    matmul dot_S256x64_S64x1_S256x1_1_0_0_1_n_n none x y (constant (F := Ideal) S256x1 .f32 0x00000000#32) i
      = ∑ j : Fin 64, x (ixHidden i j) * y (ixW2 j) := by
  simp only [matmul]
  rw [Ideal.matmul_constant_zero_apply, ← Equiv.sum_comp (ValueIdx.contrEquiv1 dot_S256x64_S64x1_S256x1_1_0_0_1_n_n 64 rfl rfl).symm]
  refine Finset.sum_congr rfl fun j _ => ?_
  have hj := ValueIdx.contrEquiv1_symm_val dot_S256x64_S64x1_S256x1_1_0_0_1_n_n 64 rfl rfl j
  have hz : (i 1).val = 0 := by have h : (i 1).val < 1 := (i 1).isLt; omega
  have el : dot_S256x64_S64x1_S256x1_1_0_0_1_n_n.lhsIdx i ((ValueIdx.contrEquiv1 dot_S256x64_S64x1_S256x1_1_0_0_1_n_n 64 rfl rfl).symm j) = ixHidden i j := funext fun a => Fin.ext (by
    match a with
    | ⟨0, _⟩ => exact second_lhs_row _ _
    | ⟨1, _⟩ => exact (second_lhs_col _ _).trans hj)
  have er : dot_S256x64_S64x1_S256x1_1_0_0_1_n_n.rhsIdx i ((ValueIdx.contrEquiv1 dot_S256x64_S64x1_S256x1_1_0_0_1_n_n 64 rfl rfl).symm j) = ixW2 j := funext fun a => Fin.ext (by
    match a with
    | ⟨0, _⟩ => exact (second_rhs_row _ _).trans hj
    | ⟨1, _⟩ => exact (second_rhs_col _ _).trans hz)
  rw [el, er]

/-! ## The layout operations at an index -/

/-- The pooled rows narrowed: the same values. -/
theorem pooled_narrowed_apply (v0 : Vec Ideal S256x128 .f32) (y : S256x128.Idx) : k6_pay2 (F := Ideal) v0 y = v0 y := by
  unfold k6_pay2
  rw [shapeCast_self]
  rfl

/-- A first-layer bias row, broadcast over the rows, at `(r, j)`. -/
theorem bias_row_apply (v6 : Vec Ideal S1x64 .f32) (i : S256x1.Idx) (j : Fin 64) :
    broadcastTo S256x64 (shapeCast S1x64 v6 shapeCasts_S1x64_S1x64) broadcasts_S1x64_S256x64 (ixHidden i j) = v6 (ixB1 j) := by
  rw [shapeCast_self]
  exact broadcastTo_apply v6 broadcasts_S1x64_S256x64 (ixHidden i j) (ixB1 j) (fun a => match a with
    | ⟨0, _⟩ => by show 0 = if (1 : Nat) = 1 then 0 else (i 0).val; rw [if_pos rfl]
    | ⟨1, _⟩ => by show j.val = if (64 : Nat) = 1 then 0 else j.val; rw [if_neg (by decide)])

/-- A second-layer bias, broadcast over the rows, at row `r`. -/
theorem bias_scalar_apply (v16 : Vec Ideal S1x1 .f32) (i : S256x1.Idx) :
    broadcastTo S256x1 (shapeCast S1x1 v16 shapeCasts_S1x1_S1x1) broadcasts_S1x1_S256x1 i = v16 ixB2 := by
  rw [shapeCast_self]
  exact broadcastTo_apply v16 broadcasts_S1x1_S256x1 i ixB2 (fun a => match a with
    | ⟨0, _⟩ => by show 0 = if (1 : Nat) = 1 then 0 else (i 0).val; rw [if_pos rfl]
    | ⟨1, _⟩ => by show 0 = if (1 : Nat) = 1 then 0 else (i 1).val; rw [if_pos rfl])

/-! ## One head, index by index -/

/-- The head with weights `a1, a2, a3, a4` on the pooled rows `a0`: at row `r`,
    `( Σ_j max( (Σ_k a0 (r,k) · a1 (k,j)) + a2 (0,j), 0 ) · a3 (j,0) ) + a4 (0,0)`. -/
abbrev headVal (a0 : S256x128.Idx → Elt Ideal .f32) (a1 : S128x64.Idx → Elt Ideal .f32) (a2 : S1x64.Idx → Elt Ideal .f32)
    (a3 : S64x1.Idx → Elt Ideal .f32) (a4 : S1x1.Idx → Elt Ideal .f32) : S256x1.Idx → Elt Ideal .f32 := fun i =>
  FloatOps.addf (F := Ideal) (φ := .f32) (∑ j : Fin 64, FloatOps.maximumf (F := Ideal) (φ := .f32) (FloatOps.addf (F := Ideal) (φ := .f32) (∑ k : Fin 128, a0 (ixPooled i k) * a1 (ixW1 k j)) (a2 (ixB1 j))) (FloatOps.ofBits (F := Ideal) .f32 0x00000000#32) * a3 (ixW2 j)) (a4 ixB2)

/-- The hidden layer and the second product, as the operations compute them: the part of a head before its last bias. -/
theorem hidden_product_apply (v0 : Vec Ideal S256x128 .f32) (v3 : Vec Ideal S128x64 .f32) (v6 : Vec Ideal S1x64 .f32) (v13 : Vec Ideal S64x1 .f32) (i : S256x1.Idx) :
    matmul dot_S256x64_S64x1_S256x1_1_0_0_1_n_n none
        (truncf .bf16 (maximumf (addf (matmul dot_S256x128_S128x64_S256x64_1_0_0_1_n_n none (k6_pay2 (F := Ideal) v0) (truncf .bf16 v3 bitsLt_bf16_f32) (constant (F := Ideal) S256x64 .f32 0x00000000#32))
            (broadcastTo S256x64 (shapeCast S1x64 v6 shapeCasts_S1x64_S1x64) broadcasts_S1x64_S256x64))
          (broadcast S256x64 (Scalar.ofBits (F := Ideal) .f32 0x00000000#32))) bitsLt_bf16_f32)
        (truncf .bf16 v13 bitsLt_bf16_f32) (constant (F := Ideal) S256x1 .f32 0x00000000#32) i
      = ∑ j : Fin 64, FloatOps.maximumf (F := Ideal) (φ := .f32) (FloatOps.addf (F := Ideal) (φ := .f32) (∑ k : Fin 128, v0 (ixPooled i k) * v3 (ixW1 k j)) (v6 (ixB1 j))) (FloatOps.ofBits (F := Ideal) .f32 0x00000000#32) * v13 (ixW2 j) := by
  rw [second_product_apply]
  refine Finset.sum_congr rfl fun j _ => ?_
  rw [ValueIdx.truncf_apply, ValueIdx.truncf_apply, ValueIdx.maximumf_apply, ValueIdx.addf_apply, first_product_apply, bias_row_apply, ValueIdx.broadcast_apply]
  simp only [pooled_narrowed_apply, ValueIdx.truncf_apply]
  rfl

/-- The second head's product is that part. -/
theorem second_head_product_apply (v0 : Vec Ideal S256x128 .f32) (v21 : Vec Ideal S128x64 .f32) (v24 : Vec Ideal S1x64 .f32) (v31 : Vec Ideal S64x1 .f32) (i : S256x1.Idx) :
    k6_pay4 (F := Ideal) v0 v21 v24 v31 i
      = ∑ j : Fin 64, FloatOps.maximumf (F := Ideal) (φ := .f32) (FloatOps.addf (F := Ideal) (φ := .f32) (∑ k : Fin 128, v0 (ixPooled i k) * v21 (ixW1 k j)) (v24 (ixB1 j))) (FloatOps.ofBits (F := Ideal) .f32 0x00000000#32) * v31 (ixW2 j) :=
  hidden_product_apply v0 v21 v24 v31 i

/-- What the body stores for the first head, at row `r`. -/
theorem first_head_apply (v0 : Vec Ideal S256x128 .f32) (v3 : Vec Ideal S128x64 .f32) (v6 : Vec Ideal S1x64 .f32) (v13 : Vec Ideal S64x1 .f32) (v16 : Vec Ideal S1x1 .f32) (i : S256x1.Idx) :
    k6_pay3 (F := Ideal) v0 v3 v6 v13 v16 i = headVal v0 v3 v6 v13 v16 i := by
  unfold k6_pay3
  rw [ValueIdx.addf_apply, hidden_product_apply, bias_scalar_apply]
  rfl

/-- What the body stores for the second head, at row `r`. -/
theorem second_head_apply (v0 : Vec Ideal S256x128 .f32) (v21 : Vec Ideal S128x64 .f32) (v24 : Vec Ideal S1x64 .f32) (v31 : Vec Ideal S64x1 .f32) (v34 : Vec Ideal S1x1 .f32) (i : S256x1.Idx) :
    k6_pay1 (F := Ideal) (k6_pay4 (F := Ideal) v0 v21 v24 v31) v34 i = headVal v0 v21 v24 v31 v34 i := by
  unfold k6_pay1
  rw [ValueIdx.addf_apply, second_head_product_apply, bias_scalar_apply]
  rfl

/-! ## From the one point's block to the arrays -/

section Arrays
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: every window's block starts at its array's origin. -/
theorem origin_facts : ∀ t : Fin cfg6.N, win6_0.index t (0 : Fin 2) = 0
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (0 : Fin 2) = 0
    ∧ win6_6.index t (1 : Fin 2) = 0
    ∧ win6_7.index t (0 : Fin 2) = 0
    ∧ win6_7.index t (1 : Fin 2) = 0
    ∧ win6_8.index t (0 : Fin 2) = 0
    ∧ win6_8.index t (1 : Fin 2) = 0
    ∧ win6_9.index t (0 : Fin 2) = 0
    ∧ win6_9.index t (1 : Fin 2) = 0
    ∧ win6_10.index t (0 : Fin 2) = 0
    ∧ win6_10.index t (1 : Fin 2) = 0 :=
  (by decide +kernel : ∀ t : Fin grid6.N, _)

theorem in_block0 (c : Dev nD) (t : Fin cfg6.N) :
    (iblk6 (F := Ideal) V c 0 t : S256x128.Idx → Elt Ideal .f32) = V c (Pipeline.arrRef spec6 0) := by
  funext y
  show V c (Pipeline.arrRef spec6 0) (((cfg6.win 0).blk t).view.emb y) = V c (Pipeline.arrRef spec6 0) y
  refine congrArg _ (funext fun a => Fin.ext ?_)
  have o := origin_facts t
  match a with
  | ⟨0, _⟩ => show win6_0.index t (0 : Fin 2) * 256 + 1 * (y 0).val = (y 0).val; omega
  | ⟨1, _⟩ => show win6_0.index t (1 : Fin 2) * 128 + 1 * (y 1).val = (y 1).val; omega

theorem in_block1 (c : Dev nD) (t : Fin cfg6.N) :
    (iblk6 (F := Ideal) V c 1 t : S128x64.Idx → Elt Ideal .f32) = V c (Pipeline.arrRef spec6 1) := by
  funext y
  show V c (Pipeline.arrRef spec6 1) (((cfg6.win 1).blk t).view.emb y) = V c (Pipeline.arrRef spec6 1) y
  refine congrArg _ (funext fun a => Fin.ext ?_)
  have o := origin_facts t
  match a with
  | ⟨0, _⟩ => show win6_1.index t (0 : Fin 2) * 128 + 1 * (y 0).val = (y 0).val; omega
  | ⟨1, _⟩ => show win6_1.index t (1 : Fin 2) * 64 + 1 * (y 1).val = (y 1).val; omega

theorem in_block2 (c : Dev nD) (t : Fin cfg6.N) :
    (iblk6 (F := Ideal) V c 2 t : S1x64.Idx → Elt Ideal .f32) = V c (Pipeline.arrRef spec6 2) := by
  funext y
  show V c (Pipeline.arrRef spec6 2) (((cfg6.win 2).blk t).view.emb y) = V c (Pipeline.arrRef spec6 2) y
  refine congrArg _ (funext fun a => Fin.ext ?_)
  have o := origin_facts t
  match a with
  | ⟨0, _⟩ => show win6_2.index t (0 : Fin 2) * 1 + 1 * (y 0).val = (y 0).val; omega
  | ⟨1, _⟩ => show win6_2.index t (1 : Fin 2) * 64 + 1 * (y 1).val = (y 1).val; omega

theorem in_block3 (c : Dev nD) (t : Fin cfg6.N) :
    (iblk6 (F := Ideal) V c 3 t : S64x1.Idx → Elt Ideal .f32) = V c (Pipeline.arrRef spec6 3) := by
  funext y
  show V c (Pipeline.arrRef spec6 3) (((cfg6.win 3).blk t).view.emb y) = V c (Pipeline.arrRef spec6 3) y
  refine congrArg _ (funext fun a => Fin.ext ?_)
  have o := origin_facts t
  match a with
  | ⟨0, _⟩ => show win6_3.index t (0 : Fin 2) * 64 + 1 * (y 0).val = (y 0).val; omega
  | ⟨1, _⟩ => show win6_3.index t (1 : Fin 2) * 1 + 1 * (y 1).val = (y 1).val; omega

theorem in_block4 (c : Dev nD) (t : Fin cfg6.N) :
    (iblk6 (F := Ideal) V c 4 t : S1x1.Idx → Elt Ideal .f32) = V c (Pipeline.arrRef spec6 4) := by
  funext y
  show V c (Pipeline.arrRef spec6 4) (((cfg6.win 4).blk t).view.emb y) = V c (Pipeline.arrRef spec6 4) y
  refine congrArg _ (funext fun a => Fin.ext ?_)
  have o := origin_facts t
  match a with
  | ⟨0, _⟩ => show win6_4.index t (0 : Fin 2) * 1 + 1 * (y 0).val = (y 0).val; omega
  | ⟨1, _⟩ => show win6_4.index t (1 : Fin 2) * 1 + 1 * (y 1).val = (y 1).val; omega

/-- What the one point writes back to the first head's array is the head of the input arrays, read through the block. -/
theorem first_flushed (c : Dev nD) (t : Fin cfg6.N) :
    (dat6 (F := Ideal) V c).flushed 9 t = ((cfg6.win 9).blk t).view.read (Elt Ideal) (headVal (V c (Pipeline.arrRef spec6 0)) (V c (Pipeline.arrRef spec6 1)) (V c (Pipeline.arrRef spec6 2)) (V c (Pipeline.arrRef spec6 3)) (V c (Pipeline.arrRef spec6 4))) := by
  show (cfg6.win 9).cut (grid6.coords t) ((dat6 V c).after 9 t) = _
  rw [after6_9]
  unfold out6_9
  rw [View.canon_unit_zero zero_offsets]
  simp only [View.ld_unit_zero (S := S256x128) zero_offsets, View.ld_unit_zero (S := S128x64) zero_offsets, View.ld_unit_zero (S := S1x64) zero_offsets, View.ld_unit_zero (S := S64x1) zero_offsets, View.ld_unit_zero (S := S1x1) zero_offsets]
  funext j
  show k6_pay3 (F := Ideal) (iblk6 V c 0 t) (iblk6 V c 1 t) (iblk6 V c 2 t) (iblk6 V c 3 t) (iblk6 V c 4 t) j = headVal (V c (Pipeline.arrRef spec6 0)) (V c (Pipeline.arrRef spec6 1)) (V c (Pipeline.arrRef spec6 2)) (V c (Pipeline.arrRef spec6 3)) (V c (Pipeline.arrRef spec6 4)) (((cfg6.win 9).blk t).view.emb j)
  rw [first_head_apply, in_block0 V c t, in_block1 V c t, in_block2 V c t, in_block3 V c t, in_block4 V c t]
  refine congrArg _ (funext fun a => Fin.ext ?_)
  have o := origin_facts t
  match a with
  | ⟨0, _⟩ => show (j 0).val = win6_9.index t (0 : Fin 2) * 256 + 1 * (j 0).val; omega
  | ⟨1, _⟩ => show (j 1).val = win6_9.index t (1 : Fin 2) * 1 + 1 * (j 1).val; omega

/-- An index of the first head's array is in the point's block iff each coordinate is in the block's range on its axis. -/
theorem first_mem_block (t : Fin cfg6.N) (i : S256x1.Idx) :
    i ∈ ((cfg6.win 9).blk t).view.set ↔ ∀ a : Fin 2, win6_9.index t a * S256x1.size a ≤ (i a).val ∧ (i a).val < win6_9.index t a * S256x1.size a + S256x1.size a := by
  show i ∈ ((View.whole main_v104_0).slice (win6_9.rect t)).set ↔ _
  rw [View.set_slice_whole, Rect.mem_set_unit]
  exact Iff.rfl

/-- The one block is the whole array. -/
theorem first_cover (i : S256x1.Idx) : ∃ t : Fin cfg6.N, (cfg6.win 9).flush t = true ∧ i ∈ ((cfg6.win 9).blk t).view.set := by
  refine ⟨t6_0, flush6_9 t6_0, ?_⟩
  rw [first_mem_block]
  have o := origin_facts t6_0
  have h0 : (i 0).val < 256 := (i 0).isLt
  have h1 : (i 1).val < 1 := (i 1).isLt
  intro a
  match a with
  | ⟨0, _⟩ => show win6_9.index t6_0 (0 : Fin 2) * 256 ≤ (i 0).val ∧ (i 0).val < win6_9.index t6_0 (0 : Fin 2) * 256 + 256; omega
  | ⟨1, _⟩ => show win6_9.index t6_0 (1 : Fin 2) * 1 ≤ (i 1).val ∧ (i 1).val < win6_9.index t6_0 (1 : Fin 2) * 1 + 1; omega

/-- THE FIRST HEAD'S ARRAY after the region: the head with the first weights, of the region's input arrays, index by index. -/
theorem heads_first (c : Dev nD) : (dat6 (F := Ideal) V c).arrAt 9 cfg6.N
      = headVal (V c (Pipeline.arrRef spec6 0)) (V c (Pipeline.arrRef spec6 1)) (V c (Pipeline.arrRef spec6 2)) (V c (Pipeline.arrRef spec6 3)) (V c (Pipeline.arrRef spec6 4)) :=
  (dat6 V c).arrAt_eq_of_cover 9 (headVal (V c (Pipeline.arrRef spec6 0)) (V c (Pipeline.arrRef spec6 1)) (V c (Pipeline.arrRef spec6 2)) (V c (Pipeline.arrRef spec6 3)) (V c (Pipeline.arrRef spec6 4))) (fun t _ => first_flushed V c t) first_cover

theorem in_block5 (c : Dev nD) (t : Fin cfg6.N) :
    (iblk6 (F := Ideal) V c 5 t : S128x64.Idx → Elt Ideal .f32) = V c (Pipeline.arrRef spec6 5) := by
  funext y
  show V c (Pipeline.arrRef spec6 5) (((cfg6.win 5).blk t).view.emb y) = V c (Pipeline.arrRef spec6 5) y
  refine congrArg _ (funext fun a => Fin.ext ?_)
  have o := origin_facts t
  match a with
  | ⟨0, _⟩ => show win6_5.index t (0 : Fin 2) * 128 + 1 * (y 0).val = (y 0).val; omega
  | ⟨1, _⟩ => show win6_5.index t (1 : Fin 2) * 64 + 1 * (y 1).val = (y 1).val; omega

theorem in_block6 (c : Dev nD) (t : Fin cfg6.N) :
    (iblk6 (F := Ideal) V c 6 t : S1x64.Idx → Elt Ideal .f32) = V c (Pipeline.arrRef spec6 6) := by
  funext y
  show V c (Pipeline.arrRef spec6 6) (((cfg6.win 6).blk t).view.emb y) = V c (Pipeline.arrRef spec6 6) y
  refine congrArg _ (funext fun a => Fin.ext ?_)
  have o := origin_facts t
  match a with
  | ⟨0, _⟩ => show win6_6.index t (0 : Fin 2) * 1 + 1 * (y 0).val = (y 0).val; omega
  | ⟨1, _⟩ => show win6_6.index t (1 : Fin 2) * 64 + 1 * (y 1).val = (y 1).val; omega

theorem in_block7 (c : Dev nD) (t : Fin cfg6.N) :
    (iblk6 (F := Ideal) V c 7 t : S64x1.Idx → Elt Ideal .f32) = V c (Pipeline.arrRef spec6 7) := by
  funext y
  show V c (Pipeline.arrRef spec6 7) (((cfg6.win 7).blk t).view.emb y) = V c (Pipeline.arrRef spec6 7) y
  refine congrArg _ (funext fun a => Fin.ext ?_)
  have o := origin_facts t
  match a with
  | ⟨0, _⟩ => show win6_7.index t (0 : Fin 2) * 64 + 1 * (y 0).val = (y 0).val; omega
  | ⟨1, _⟩ => show win6_7.index t (1 : Fin 2) * 1 + 1 * (y 1).val = (y 1).val; omega

theorem in_block8 (c : Dev nD) (t : Fin cfg6.N) :
    (iblk6 (F := Ideal) V c 8 t : S1x1.Idx → Elt Ideal .f32) = V c (Pipeline.arrRef spec6 8) := by
  funext y
  show V c (Pipeline.arrRef spec6 8) (((cfg6.win 8).blk t).view.emb y) = V c (Pipeline.arrRef spec6 8) y
  refine congrArg _ (funext fun a => Fin.ext ?_)
  have o := origin_facts t
  match a with
  | ⟨0, _⟩ => show win6_8.index t (0 : Fin 2) * 1 + 1 * (y 0).val = (y 0).val; omega
  | ⟨1, _⟩ => show win6_8.index t (1 : Fin 2) * 1 + 1 * (y 1).val = (y 1).val; omega

/-- What the one point writes back to the second head's array is the head of the input arrays, read through the block. -/
theorem second_flushed (c : Dev nD) (t : Fin cfg6.N) :
    (dat6 (F := Ideal) V c).flushed 10 t = ((cfg6.win 10).blk t).view.read (Elt Ideal) (headVal (V c (Pipeline.arrRef spec6 0)) (V c (Pipeline.arrRef spec6 5)) (V c (Pipeline.arrRef spec6 6)) (V c (Pipeline.arrRef spec6 7)) (V c (Pipeline.arrRef spec6 8))) := by
  show (cfg6.win 10).cut (grid6.coords t) ((dat6 V c).after 10 t) = _
  rw [after6_10]
  unfold out6_10
  rw [View.canon_unit_zero zero_offsets]
  simp only [View.ld_unit_zero (S := S256x128) zero_offsets, View.ld_unit_zero (S := S128x64) zero_offsets, View.ld_unit_zero (S := S1x64) zero_offsets, View.ld_unit_zero (S := S64x1) zero_offsets, View.ld_unit_zero (S := S1x1) zero_offsets]
  funext j
  show k6_pay1 (F := Ideal) (k6_pay4 (F := Ideal) (iblk6 V c 0 t) (iblk6 V c 5 t) (iblk6 V c 6 t) (iblk6 V c 7 t)) (iblk6 V c 8 t) j = headVal (V c (Pipeline.arrRef spec6 0)) (V c (Pipeline.arrRef spec6 5)) (V c (Pipeline.arrRef spec6 6)) (V c (Pipeline.arrRef spec6 7)) (V c (Pipeline.arrRef spec6 8)) (((cfg6.win 10).blk t).view.emb j)
  rw [second_head_apply, in_block0 V c t, in_block5 V c t, in_block6 V c t, in_block7 V c t, in_block8 V c t]
  refine congrArg _ (funext fun a => Fin.ext ?_)
  have o := origin_facts t
  match a with
  | ⟨0, _⟩ => show (j 0).val = win6_10.index t (0 : Fin 2) * 256 + 1 * (j 0).val; omega
  | ⟨1, _⟩ => show (j 1).val = win6_10.index t (1 : Fin 2) * 1 + 1 * (j 1).val; omega

/-- An index of the second head's array is in the point's block iff each coordinate is in the block's range on its axis. -/
theorem second_mem_block (t : Fin cfg6.N) (i : S256x1.Idx) :
    i ∈ ((cfg6.win 10).blk t).view.set ↔ ∀ a : Fin 2, win6_10.index t a * S256x1.size a ≤ (i a).val ∧ (i a).val < win6_10.index t a * S256x1.size a + S256x1.size a := by
  show i ∈ ((View.whole main_v104_1).slice (win6_10.rect t)).set ↔ _
  rw [View.set_slice_whole, Rect.mem_set_unit]
  exact Iff.rfl

/-- The one block is the whole array. -/
theorem second_cover (i : S256x1.Idx) : ∃ t : Fin cfg6.N, (cfg6.win 10).flush t = true ∧ i ∈ ((cfg6.win 10).blk t).view.set := by
  refine ⟨t6_0, flush6_10 t6_0, ?_⟩
  rw [second_mem_block]
  have o := origin_facts t6_0
  have h0 : (i 0).val < 256 := (i 0).isLt
  have h1 : (i 1).val < 1 := (i 1).isLt
  intro a
  match a with
  | ⟨0, _⟩ => show win6_10.index t6_0 (0 : Fin 2) * 256 ≤ (i 0).val ∧ (i 0).val < win6_10.index t6_0 (0 : Fin 2) * 256 + 256; omega
  | ⟨1, _⟩ => show win6_10.index t6_0 (1 : Fin 2) * 1 ≤ (i 1).val ∧ (i 1).val < win6_10.index t6_0 (1 : Fin 2) * 1 + 1; omega

/-- THE SECOND HEAD'S ARRAY after the region: the head with the second weights, of the region's input arrays, index by index. -/
theorem heads_second (c : Dev nD) : (dat6 (F := Ideal) V c).arrAt 10 cfg6.N
      = headVal (V c (Pipeline.arrRef spec6 0)) (V c (Pipeline.arrRef spec6 5)) (V c (Pipeline.arrRef spec6 6)) (V c (Pipeline.arrRef spec6 7)) (V c (Pipeline.arrRef spec6 8)) :=
  (dat6 V c).arrAt_eq_of_cover 10 (headVal (V c (Pipeline.arrRef spec6 0)) (V c (Pipeline.arrRef spec6 5)) (V c (Pipeline.arrRef spec6 6)) (V c (Pipeline.arrRef spec6 7)) (V c (Pipeline.arrRef spec6 8))) (fun t _ => second_flushed V c t) second_cover

end Arrays

end Cert.KernelIdeal.RegionValue

end
-- ==== Proof.HeadsBridge.lean ====
/-
  The two heads against the reference's last stages.

  Each head takes the pooled rows through a first matrix product, adds a bias row, clamps at zero, takes the result
  through a second product with a single column and adds a single bias. The region computes exactly this from its whole
  arrays in one grid point; the reference does it as two host products with the elementwise operations between. Read at
  an index both are: the sum over the 64 hidden units of max((sum over the 128 pooled features of pooled * weight) + bias, 0)
  times the column weight, plus the output bias. The hidden bias enters the region as a one-row matrix and the output
  bias as a one-by-one matrix; the reference broadcasts the vectors, which reads the same entries.
-/
import proofs.«129538_j62732292326002_1_alg».proof.Proof.HeadsRegion
import proofs.«129538_j62732292326002_1_alg».proof.Proof.HostChain

set_option maxRecDepth 16384

noncomputable section

namespace Cert.KernelIdeal.Bridge

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- A 64-vector reshaped to a one-row matrix, read at row zero and column j, is the vector at any index whose one
    coordinate is j. -/
theorem row_of_vec64 (x : S64.Idx → Elt Ideal .f32) (j : Fin 64) (J : S64.Idx) (hJ : (J 0).val = j.val) :
    shapeCast S1x64 x shapeCasts_S64_S1x64 (RegionValue.ixB1 j) = x J := by
  have e : RegionValue.ixB1 j = ValueIdx.ix2 (0 : Fin 1) j := by
    funext a; match a with | ⟨0, _⟩ => rfl | ⟨1, _⟩ => rfl
  rw [e]
  refine (ValueIdx.shapeCast_a_1a_apply x shapeCasts_S64_S1x64 (0 : Fin 1) j).trans (congrArg x ?_)
  funext a
  match a with
  | ⟨0, _⟩ => exact Fin.ext hJ.symm

/-- A one-entry vector reshaped to a one-by-one matrix, read at its only index, is the vector's only entry. -/
theorem one_of_vec (x : S1.Idx → Elt Ideal .f32) (J : S1.Idx) :
    shapeCast S1x1 x shapeCasts_S1_S1x1 RegionValue.ixB2 = x J := by
  have e : RegionValue.ixB2 = ValueIdx.ix2 (0 : Fin 1) (0 : Fin 1) := by
    funext a; match a with | ⟨0, _⟩ => rfl | ⟨1, _⟩ => rfl
  rw [e]
  refine (ValueIdx.shapeCast_a_1a_apply x shapeCasts_S1_S1x1 (0 : Fin 1) (0 : Fin 1)).trans (congrArg x ?_)
  funext a
  match a with
  | ⟨0, _⟩ => exact Fin.ext (by have h : (J 0).val < 1 := (J 0).isLt; show (0 : Nat) = (J 0).val; omega)

/-- The first head: from pooled rows that are the reference's, the region's first output is the reference's first result. -/
theorem head1_is (c : Dev nD) (h : W13 m ρ c (Proc.devRef .tc main_v99) = Cert.ReferenceIdeal.ReadP.val_main_v132 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) :
    W14 m ρ c (Proc.devRef .tc main_v104_0) = Cert.ReferenceIdeal.ReadP.val_main_v141 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  refine (W14_arr m ρ c 9).trans ?_
  rw [RegionValue.heads_first (V13 m ρ) c]
  have e0 : V13 m ρ c (Pipeline.arrRef spec6 0) = Cert.ReferenceIdeal.ReadP.val_main_v132 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := h
  have e1 : V13 m ρ c (Pipeline.arrRef spec6 1) = (m ((c.tc : Thread nD τ).loc main_arg21)) := Pass.arg21_at13 m ρ c
  have e2 : V13 m ρ c (Pipeline.arrRef spec6 2) = shapeCast S1x64 (m ((c.tc : Thread nD τ).loc main_arg22)) shapeCasts_S64_S1x64 := Chain.headBias1a m ρ c
  have e3 : V13 m ρ c (Pipeline.arrRef spec6 3) = (m ((c.tc : Thread nD τ).loc main_arg23)) := Pass.arg23_at13 m ρ c
  have e4 : V13 m ρ c (Pipeline.arrRef spec6 4) = shapeCast S1x1 (m ((c.tc : Thread nD τ).loc main_arg24)) shapeCasts_S1_S1x1 := Chain.headBias1b m ρ c
  rw [e0, e1, e2, e3, e4]
  funext i
  unfold RegionValue.headVal
  rw [Cert.ReferenceIdeal.ReadP.val_main_v141_apply, Cert.ReferenceIdeal.ReadP.val_main_v138_apply, Cert.ReferenceIdeal.ReadP.val_main_v140_apply, Cert.ReferenceIdeal.ReadP.val_main_v139_apply]
  rw [one_of_vec (m ((c.tc : Thread nD τ).loc main_arg24)) (Cert.ReferenceIdeal.ReadP.idx_main_v139 (Cert.ReferenceIdeal.ReadP.idx_main_v140 i))]
  refine congrArg₂ (FloatOps.addf (F := Ideal) (φ := .f32)) (Finset.sum_congr rfl fun j _ => ?_) rfl
  rw [Cert.ReferenceIdeal.ReadP.val_main_v137_apply, Cert.ReferenceIdeal.ReadP.val_main_v136_apply, Cert.ReferenceIdeal.ReadP.val_main_v133_apply, Cert.ReferenceIdeal.ReadP.val_main_v135_apply, Cert.ReferenceIdeal.ReadP.val_main_v134_apply, Cert.ReferenceIdeal.ReadP.val_main_call4_v0_apply, Cert.ReferenceIdeal.ReadP.val_main_call4_cst_apply]
  rw [row_of_vec64 (m ((c.tc : Thread nD τ).loc main_arg22)) j (Cert.ReferenceIdeal.ReadP.idx_main_v134 (Cert.ReferenceIdeal.ReadP.idx_main_v135 (Cert.ReferenceIdeal.ReadP.lidx_main_v138 i j))) rfl]
  have hW2 : Cert.ReferenceIdeal.ReadP.ridx_main_v138 i j = RegionValue.ixW2 j := funext fun a => Fin.ext (by
    match a with
    | ⟨0, _⟩ => rfl
    | ⟨1, _⟩ => show (i 1).val = 0; have h : (i 1).val < 1 := (i 1).isLt; omega)
  have hP : ∀ k, Cert.ReferenceIdeal.ReadP.lidx_main_v133 (Cert.ReferenceIdeal.ReadP.lidx_main_v138 i j) k = RegionValue.ixPooled i k := fun k => funext fun a => Fin.ext (by
    match a with
    | ⟨0, _⟩ => rfl
    | ⟨1, _⟩ => rfl)
  have hW1 : ∀ k, Cert.ReferenceIdeal.ReadP.ridx_main_v133 (Cert.ReferenceIdeal.ReadP.lidx_main_v138 i j) k = RegionValue.ixW1 k j := fun k => funext fun a => Fin.ext (by
    match a with
    | ⟨0, _⟩ => rfl
    | ⟨1, _⟩ => rfl)
  rw [hW2]
  simp only [hP, hW1]

/-- The second head, likewise, with its own weights and biases. -/
theorem head2_is (c : Dev nD) (h : W13 m ρ c (Proc.devRef .tc main_v99) = Cert.ReferenceIdeal.ReadP.val_main_v132 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) :
    W14 m ρ c (Proc.devRef .tc main_v104_1) = Cert.ReferenceIdeal.ReadP.val_main_v150 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg25)) (m ((c.tc : Thread nD τ).loc main_arg26)) (m ((c.tc : Thread nD τ).loc main_arg27)) (m ((c.tc : Thread nD τ).loc main_arg28)) := by
  refine (W14_arr m ρ c 10).trans ?_
  rw [RegionValue.heads_second (V13 m ρ) c]
  have e0 : V13 m ρ c (Pipeline.arrRef spec6 0) = Cert.ReferenceIdeal.ReadP.val_main_v132 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := h
  have e1 : V13 m ρ c (Pipeline.arrRef spec6 5) = (m ((c.tc : Thread nD τ).loc main_arg25)) := Pass.arg25_at13 m ρ c
  have e2 : V13 m ρ c (Pipeline.arrRef spec6 6) = shapeCast S1x64 (m ((c.tc : Thread nD τ).loc main_arg26)) shapeCasts_S64_S1x64 := Chain.headBias2a m ρ c
  have e3 : V13 m ρ c (Pipeline.arrRef spec6 7) = (m ((c.tc : Thread nD τ).loc main_arg27)) := Pass.arg27_at13 m ρ c
  have e4 : V13 m ρ c (Pipeline.arrRef spec6 8) = shapeCast S1x1 (m ((c.tc : Thread nD τ).loc main_arg28)) shapeCasts_S1_S1x1 := Chain.headBias2b m ρ c
  rw [e0, e1, e2, e3, e4]
  funext i
  unfold RegionValue.headVal
  rw [Cert.ReferenceIdeal.ReadP.val_main_v150_apply, Cert.ReferenceIdeal.ReadP.val_main_v147_apply, Cert.ReferenceIdeal.ReadP.val_main_v149_apply, Cert.ReferenceIdeal.ReadP.val_main_v148_apply]
  rw [one_of_vec (m ((c.tc : Thread nD τ).loc main_arg28)) (Cert.ReferenceIdeal.ReadP.idx_main_v148 (Cert.ReferenceIdeal.ReadP.idx_main_v149 i))]
  refine congrArg₂ (FloatOps.addf (F := Ideal) (φ := .f32)) (Finset.sum_congr rfl fun j _ => ?_) rfl
  rw [Cert.ReferenceIdeal.ReadP.val_main_v146_apply, Cert.ReferenceIdeal.ReadP.val_main_v145_apply, Cert.ReferenceIdeal.ReadP.val_main_v142_apply, Cert.ReferenceIdeal.ReadP.val_main_v144_apply, Cert.ReferenceIdeal.ReadP.val_main_v143_apply, Cert.ReferenceIdeal.ReadP.val_main_call5_v0_apply, Cert.ReferenceIdeal.ReadP.val_main_call5_cst_apply]
  rw [row_of_vec64 (m ((c.tc : Thread nD τ).loc main_arg26)) j (Cert.ReferenceIdeal.ReadP.idx_main_v143 (Cert.ReferenceIdeal.ReadP.idx_main_v144 (Cert.ReferenceIdeal.ReadP.lidx_main_v147 i j))) rfl]
  have hW2 : Cert.ReferenceIdeal.ReadP.ridx_main_v147 i j = RegionValue.ixW2 j := funext fun a => Fin.ext (by
    match a with
    | ⟨0, _⟩ => rfl
    | ⟨1, _⟩ => show (i 1).val = 0; have h : (i 1).val < 1 := (i 1).isLt; omega)
  have hP : ∀ k, Cert.ReferenceIdeal.ReadP.lidx_main_v142 (Cert.ReferenceIdeal.ReadP.lidx_main_v147 i j) k = RegionValue.ixPooled i k := fun k => funext fun a => Fin.ext (by
    match a with
    | ⟨0, _⟩ => rfl
    | ⟨1, _⟩ => rfl)
  have hW1 : ∀ k, Cert.ReferenceIdeal.ReadP.ridx_main_v142 (Cert.ReferenceIdeal.ReadP.lidx_main_v147 i j) k = RegionValue.ixW1 k j := fun k => funext fun a => Fin.ext (by
    match a with
    | ⟨0, _⟩ => rfl
    | ⟨1, _⟩ => rfl)
  rw [hW2]
  simp only [hP, hW1]

end Cert.KernelIdeal.Bridge

end
-- ==== Proof.lean ====
/-
  The certificate's claim: a three-layer graph convolution with mean pooling and two small heads, as seven kernel
  regions among host operations, against the plain reference.

  The kernel program and the reference compute, on the extended reals, the same function of the arguments. Both build
  the self-looped edge list and the symmetric degree normalisation on the host in the same way. In each of three layers
  the kernel multiplies the node rows by the weight matrix in a region tiled over blocks of rows — at an index the plain
  sum over the contracted axis, which is what the reference's host product is —, gathers, scales and sums along the edges
  on the host exactly as the reference does, and applies bias, batch normalisation and ReLU in a second region,
  elementwise and in the reference's order of operations. Both then average the node rows of each graph on the host in
  the same way, and the last region computes the two heads as the reference's two products with a ReLU between. So the
  regions' outputs are followed through the program's segment boundaries, each shown equal to the reference's stage of
  the same arguments, and the host stretches, being the same operations on equal operands, are never opened. No law
  that needs finiteness is used: the two sides apply the same operations in the same order, and a matrix product is the
  same sum on both. The frames of the two kernel programs are the generated ones; the reference's frame is its run with
  the results dropped; the idealization rewrote nothing.
-/
import proofs.«129538_j62732292326002_1_alg».proof.Defs
import proofs.«129538_j62732292326002_1_alg».proof.Proof.Gen.Kernel
import proofs.«129538_j62732292326002_1_alg».proof.Proof.Gen.Kernel.Skeleton
import proofs.«129538_j62732292326002_1_alg».proof.Proof.Gen.Kernel.Launch
import proofs.«129538_j62732292326002_1_alg».proof.Proof.Gen.Kernel.Points
import proofs.«129538_j62732292326002_1_alg».proof.Proof.Gen.Kernel.Frame
import proofs.«129538_j62732292326002_1_alg».proof.Proof.Gen.KernelIdeal
import proofs.«129538_j62732292326002_1_alg».proof.Proof.Gen.KernelIdeal.Skeleton
import proofs.«129538_j62732292326002_1_alg».proof.Proof.Gen.KernelIdeal.Launch
import proofs.«129538_j62732292326002_1_alg».proof.Proof.Gen.KernelIdeal.Points
import proofs.«129538_j62732292326002_1_alg».proof.Proof.Gen.KernelIdeal.Frame
import proofs.«129538_j62732292326002_1_alg».proof.Proof.Gen.ReferenceIdeal
import proofs.«129538_j62732292326002_1_alg».proof.Proof.Gen.Pre_finite_inputs
import proofs.«129538_j62732292326002_1_alg».proof.Proof.RefRun
import proofs.«129538_j62732292326002_1_alg».proof.Proof.RefRead
import proofs.«129538_j62732292326002_1_alg».proof.Proof.KernelRun
import proofs.«129538_j62732292326002_1_alg».proof.Proof.Transforms
import proofs.«129538_j62732292326002_1_alg».proof.Proof.Normalizes
import proofs.«129538_j62732292326002_1_alg».proof.Proof.HeadsBridge
import Idealize.ShloMosaic.Adequacy
import Idealize.ShloMosaic.Init

set_option maxRecDepth 16384

noncomputable section

namespace Cert.Proof

open Idealize.ShloMosaic Idealize.ShloMosaic.TcCoe Idealize.SL.Sem

/-! ## The kernel program's results are the reference's last stages of its own arguments -/

section Kernel

open Cert.KernelIdeal Cert.KernelIdeal.Gen

variable (m : (ℓ : Loc Cert.KernelIdeal.nD Cert.KernelIdeal.τ Cert.KernelIdeal.sig) → Buf (Elt Ideal) ℓ) (ρ : Dev Cert.KernelIdeal.nD → PrngReg)

/-- The pooled rows the last region reads are the reference's: the three layers and the pooling, composed. -/
theorem pooled_is (c : Dev Cert.KernelIdeal.nD) : W13 m ρ c (Proc.devRef .tc Cert.KernelIdeal.main_v99) = Cert.ReferenceIdeal.ReadP.val_main_v132 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) :=
  Cert.KernelIdeal.Chain.pooled m ρ c
    (Cert.KernelIdeal.Bridge.normalize3_is m ρ c (Cert.KernelIdeal.Chain.gather_scale_sum3 m ρ c
      (Cert.KernelIdeal.Bridge.transform3 m ρ c
        (Cert.KernelIdeal.Bridge.normalize2_is m ρ c (Cert.KernelIdeal.Chain.gather_scale_sum2 m ρ c
          (Cert.KernelIdeal.Bridge.transform2 m ρ c
            (Cert.KernelIdeal.Bridge.normalize1_is m ρ c (Cert.KernelIdeal.Chain.gather_scale_sum1 m ρ c
              (Cert.KernelIdeal.Bridge.transform1 m ρ c)))))))))

theorem result0_is (c : Dev Cert.KernelIdeal.nD) : W14 m ρ c (Proc.devRef .tc Cert.KernelIdeal.main_v104_0) = Cert.ReferenceIdeal.ReadP.val_main_v141 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) :=
  Cert.KernelIdeal.Bridge.head1_is m ρ c (pooled_is m ρ c)

theorem result1_is (c : Dev Cert.KernelIdeal.nD) : W14 m ρ c (Proc.devRef .tc Cert.KernelIdeal.main_v104_1) = Cert.ReferenceIdeal.ReadP.val_main_v150 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) :=
  Cert.KernelIdeal.Bridge.head2_is m ρ c (pooled_is m ρ c)

end Kernel

/-! ## The reference's run names its results by their composed terms, which are its last stages -/

section Reference

variable (m' : (ℓ : Loc Cert.ReferenceIdeal.nD Cert.ReferenceIdeal.τ Cert.ReferenceIdeal.sig) → Buf (Elt Ideal) ℓ)

theorem ref_result0 (c : Dev Cert.ReferenceIdeal.nD) :
    Cert.ReferenceIdeal.ValueP.res_main_v141 (F := Ideal) m' c = Cert.ReferenceIdeal.ReadP.val_main_v141 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) := by
  unfold Cert.ReferenceIdeal.ValueP.res_main_v141; rfl

theorem ref_result1 (c : Dev Cert.ReferenceIdeal.nD) :
    Cert.ReferenceIdeal.ValueP.res_main_v150 (F := Ideal) m' c = Cert.ReferenceIdeal.ReadP.val_main_v150 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) := by
  unfold Cert.ReferenceIdeal.ValueP.res_main_v150; rfl

end Reference

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- Run from memories that agree on the arguments, the kernel program ends with its two result arrays at the last
    boundary's contents and the reference with its two at its composed terms: both are the reference's last stages of
    the same arguments. -/
theorem algebraic : Cert.algebraic_KernelIdeal_ReferenceIdeal := by
  intro m ρ m' ρ' _ hagree
  refine ⟨fun c => Cert.KernelIdeal.Gen.W14 m ρ c (Proc.devRef .tc Cert.KernelIdeal.main_v104_0), fun c => Cert.KernelIdeal.Gen.W14 m ρ c (Proc.devRef .tc Cert.KernelIdeal.main_v104_1),
    Cert.KernelIdeal.KRun.run_vals m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨e0, e1, e2, e3, e4, e5, e6, e7, e8, e9, e10, e11, e12, e13, e14, e15, e16, e17, e18, e19, e20, e21, e22, e23, e24, e25, e26, e27, e28⟩ := hagree c
    rw [ref_result0 m' c, e0, e1, e2, e3, e4, e5, e6, e7, e8, e9, e10, e11, e12, e13, e14, e15, e16, e17, e18, e19, e20, e21, e22, e23, e24]
    exact (result0_is m ρ c).symm
  · obtain ⟨e0, e1, e2, e3, e4, e5, e6, e7, e8, e9, e10, e11, e12, e13, e14, e15, e16, e17, e18, e19, e20, e21, e22, e23, e24, e25, e26, e27, e28⟩ := hagree c
    rw [ref_result1 m' c, e0, e1, e2, e3, e4, e5, e6, e7, e8, e9, e10, e11, e12, e13, e14, e15, e16, e17, e18, e19, e20, e25, e26, e27, e28]
    exact (result1_is m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
